-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x3200000 : Shape := ⟨2, ![2, 3200000]⟩
abbrev S3200000 : Shape := ⟨1, ![3200000]⟩
abbrev S100x64 : Shape := ⟨2, ![100, 64]⟩
abbrev S64 : Shape := ⟨1, ![64]⟩
abbrev S64x64 : Shape := ⟨2, ![64, 64]⟩
abbrev S64x18 : Shape := ⟨2, ![64, 18]⟩
abbrev S18 : Shape := ⟨1, ![18]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S100x64 : S_.BroadcastsInDim S100x64 (![] : Fin 0 → Fin S100x64.rank)
  reducesTo_S100x64_S_d0_1 : S100x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x18 : S_.BroadcastsInDim S64x18 (![] : Fin 0 → Fin S64x18.rank)
  reducesTo_S64x18_S_d0_1 : S64x18.ReducesTo [0, 1] S_
  bcast_S_S18 : S_.BroadcastsInDim S18 (![] : Fin 0 → Fin S18.rank)
  reducesTo_S18_S_d0 : S18.ReducesTo [0] S_

variable [Facts]

def fn_part4 {F : FTy → Type} [FloatOps F] (main_arg15 : FVec F S18 .f32) (main_arg16 : FVec F S64x18 .f32) (main_v63 : IVec S_ 1) (main_v67 : IVec S_ 1) : IVec S_ 1 :=
  let main_v68 : IVec S_ 1 := andi main_v63 main_v67
  let main_v69 : FVec F S18 .f32 := Host.absf main_arg15
  let main_cst_26 : FVec F S_ .f32 := constant S_ .f32 0x7F800000#32
  let main_v70 : FVec F S18 .f32 := broadcastInDim S18 ![] bcast_S_S18 main_cst_26
  let main_v71 : IVec S18 1 := cmpf .olt main_v69 main_v70
  let main_c_27 : IVec S_ 1 := constantI S_ 1 1#1
  let main_v72 : IVec S_ 1 := (fun x v => Host.reduce IntOp.andi x v reducesTo_S18_S_d0 h_S_) main_v71 main_c_27
  let main_v73 : IVec S_ 1 := andi main_v68 main_v72
  let main_v74 : FVec F S64x18 .f32 := Host.absf main_arg16
  let main_cst_28 : FVec F S_ .f32 := constant S_ .f32 0x7F800000#32
  let main_v75 : FVec F S64x18 .f32 := broadcastInDim S64x18 ![] bcast_S_S64x18 main_cst_28
  let main_v76 : IVec S64x18 1 := cmpf .olt main_v74 main_v75
  let main_c_29 : IVec S_ 1 := constantI S_ 1 1#1
  let main_v77 : IVec S_ 1 := (fun x v => Host.reduce IntOp.andi x v reducesTo_S64x18_S_d0_1 h_S_) main_v76 main_c_29
  let main_v78 : IVec S_ 1 := andi main_v73 main_v77
  main_v78

def fn_part3 {F : FTy → Type} [FloatOps F] (main_arg12 : FVec F S64 .f32) (main_arg13 : FVec F S64x64 .f32) (main_arg14 : FVec F S64x18 .f32) (main_arg15 : FVec F S18 .f32) (main_arg16 : FVec F S64x18 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64x18 .f32 := Host.absf main_arg14
  let main_cst_24 : FVec F S_ .f32 := constant S_ .f32 0x7F800000#32
  let main_v65 : FVec F S64x18 .f32 := broadcastInDim S64x18 ![] bcast_S_S64x18 main_cst_24
  let main_v66 : IVec S64x18 1 := cmpf .olt main_v64 main_v65
  let main_c_25 : IVec S_ 1 := constantI S_ 1 1#1
  let main_v67 : IVec S_ 1 := (fun x v => Host.reduce IntOp.andi x v reducesTo_S64x18_S_d0_1 h_S_) main_v66 main_c_25
  fn_part4 (F := F) main_arg15 main_arg16 main_v63 main_v67

def fn_part2 {F : FTy → Type} [FloatOps F] (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64x18 .f32) (main_arg15 : FVec F S18 .f32) (main_arg16 : FVec F S64x18 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_v48 main_v49 main_v50

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64x18 .f32) (main_arg15 : FVec F S18 .f32) (main_arg16 : FVec F S64x18 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x100 .f32) (main_arg1 : IVec S2x3200000 32) (main_arg2 : FVec F S3200000 .f32) (main_arg3 : FVec F S100x64 .f32) (main_arg4 : FVec F S64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64x18 .f32) (main_arg15 : FVec F S18 .f32) (main_arg16 : FVec F S64x18 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S100x64 .f32 := Host.absf main_arg3
  let main_cst_2 : FVec F S_ .f32 := constant S_ .f32 0x7F800000#32
  let main_v10 : FVec F S100x64 .f32 := broadcastInDim S100x64 ![] bcast_S_S100x64 main_cst_2
  let main_v11 : IVec S100x64 1 := cmpf .olt main_v9 main_v10
  let main_c_3 : IVec S_ 1 := constantI S_ 1 1#1
  let main_v12 : IVec S_ 1 := (fun x v => Host.reduce IntOp.andi x v reducesTo_S100x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x100 : Shape := ⟨2, ![100000, 100]⟩
abbrev S2x3200000 : Shape := ⟨2, ![2, 3200000]⟩
abbrev S3200000 : Shape := ⟨1, ![3200000]⟩
abbrev S100x64 : Shape := ⟨2, ![100, 64]⟩
abbrev S64 : Shape := ⟨1, ![64]⟩
abbrev S64x64 : Shape := ⟨2, ![64, 64]⟩
abbrev S64x18 : Shape := ⟨2, ![64, 18]⟩
abbrev S18 : Shape := ⟨1, ![18]⟩
abbrev S1x3200000 : Shape := ⟨2, ![1, 3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S1x64 : Shape := ⟨2, ![1, 64]⟩
abbrev S100000x64 : Shape := ⟨2, ![100000, 64]⟩
abbrev S5000x100 : Shape := ⟨2, ![5000, 100]⟩
abbrev S5000x64 : Shape := ⟨2, ![5000, 64]⟩
abbrev S3200000x64 : Shape := ⟨2, ![3200000, 64]⟩
abbrev S5000x1 : Shape := ⟨2, ![5000, 1]⟩
abbrev S5000 : Shape := ⟨1, ![5000]⟩
abbrev S1x18 : Shape := ⟨2, ![1, 18]⟩
abbrev S100000x18 : Shape := ⟨2, ![100000, 18]⟩
abbrev S5000x18 : Shape := ⟨2, ![5000, 18]⟩

abbrev nBuf : Space → Nat
  | .hbm => 105
  | .vmem => 50
  | .smem => 0
  | _ => 0

abbrev bufTy : (tb : Table) → Fin (tcTables nBuf tb) → BufTy
  | .hbm, ⟨0, _⟩ => ⟨S100000x100, .f32⟩
  | .hbm, ⟨1, _⟩ => ⟨S2x3200000, .i32⟩
  | .hbm, ⟨2, _⟩ => ⟨S3200000, .f32⟩
  | .hbm, ⟨3, _⟩ => ⟨S100x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64x18, .f32⟩
  | .hbm, ⟨15, _⟩ => ⟨S18, .f32⟩
  | .hbm, ⟨16, _⟩ => ⟨S64x18, .f32⟩
  | .hbm, ⟨17, _⟩ => ⟨S1x3200000, .i32⟩
  | .hbm, ⟨18, _⟩ => ⟨S3200000, .i32⟩
  | .hbm, ⟨19, _⟩ => ⟨S1x3200000, .i32⟩
  | .hbm, ⟨20, _⟩ => ⟨S3200000, .i32⟩
  | .hbm, ⟨21, _⟩ => ⟨S_, .f32⟩
  | .hbm, ⟨22, _⟩ => ⟨S3200000, .f32⟩
  | .hbm, ⟨23, _⟩ => ⟨S_, .f32⟩
  | .hbm, ⟨24, _⟩ => ⟨S100000, .f32⟩
  | .hbm, ⟨25, _⟩ => ⟨S3200000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S1x64, .f32⟩
  | .hbm, ⟨35, _⟩ => ⟨S100000x64, .f32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S3200000x64, .f32⟩
  | .hbm, ⟨45, _⟩ => ⟨S3200000x1, .f32⟩
  | .hbm, ⟨46, _⟩ => ⟨S3200000x64, .f32⟩
  | .hbm, ⟨47, _⟩ => ⟨S3200000x64, .f32⟩
  | .hbm, ⟨48, _⟩ => ⟨S_, .f32⟩
  | .hbm, ⟨49, _⟩ => ⟨S100000x64, .f32⟩
  | .hbm, ⟨50, _⟩ => ⟨S3200000x1, .i32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S_, .i32⟩
  | .hbm, ⟨55, _⟩ => ⟨S3200000, .i32⟩
  | .hbm, ⟨56, _⟩ => ⟨S3200000, .i1⟩
  | .hbm, ⟨57, _⟩ => ⟨S_, .i32⟩
  | .hbm, ⟨58, _⟩ => ⟨S3200000, .i32⟩
  | .hbm, ⟨59, _⟩ => ⟨S3200000, .i32⟩
  | .hbm, ⟨60, _⟩ => ⟨S3200000, .i32⟩
  | .hbm, ⟨61, _⟩ => ⟨S3200000x1, .i32⟩
  | .hbm, ⟨62, _⟩ => ⟨S3200000x64, .f32⟩
  | .hbm, ⟨63, _⟩ => ⟨S3200000x1, .f32⟩
  | .hbm, ⟨64, _⟩ => ⟨S3200000x64, .f32⟩
  | .hbm, ⟨65, _⟩ => ⟨S3200000x64, .f32⟩
  | .hbm, ⟨66, _⟩ => ⟨S_, .f32⟩
  | .hbm, ⟨67, _⟩ => ⟨S100000x64, .f32⟩
  | .hbm, ⟨68, _⟩ => ⟨S3200000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S_, .i32⟩
  | .hbm, ⟨73, _⟩ => ⟨S3200000, .i32⟩
  | .hbm, ⟨74, _⟩ => ⟨S3200000, .i1⟩
  | .hbm, ⟨75, _⟩ => ⟨S_, .i32⟩
  | .hbm, ⟨76, _⟩ => ⟨S3200000, .i32⟩
  | .hbm, ⟨77, _⟩ => ⟨S3200000, .i32⟩
  | .hbm, ⟨78, _⟩ => ⟨S3200000, .i32⟩
  | .hbm, ⟨79, _⟩ => ⟨S3200000x1, .i32⟩
  | .hbm, ⟨80, _⟩ => ⟨S3200000x64, .f32⟩
  | .hbm, ⟨81, _⟩ => ⟨S3200000x1, .f32⟩
  | .hbm, ⟨82, _⟩ => ⟨S3200000x64, .f32⟩
  | .hbm, ⟨83, _⟩ => ⟨S3200000x64, .f32⟩
  | .hbm, ⟨84, _⟩ => ⟨S_, .f32⟩
  | .hbm, ⟨85, _⟩ => ⟨S100000x64, .f32⟩
  | .hbm, ⟨86, _⟩ => ⟨S3200000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S_, .i32⟩
  | .hbm, ⟨91, _⟩ => ⟨S3200000, .i32⟩
  | .hbm, ⟨92, _⟩ => ⟨S3200000, .i1⟩
  | .hbm, ⟨93, _⟩ => ⟨S_, .i32⟩
  | .hbm, ⟨94, _⟩ => ⟨S3200000, .i32⟩
  | .hbm, ⟨95, _⟩ => ⟨S3200000, .i32⟩
  | .hbm, ⟨96, _⟩ => ⟨S3200000, .i32⟩
  | .hbm, ⟨97, _⟩ => ⟨S3200000x1, .i32⟩
  | .hbm, ⟨98, _⟩ => ⟨S3200000x64, .f32⟩
  | .hbm, ⟨99, _⟩ => ⟨S_, .f32⟩
  | .hbm, ⟨100, _⟩ => ⟨S100000x64, .f32⟩
  | .hbm, ⟨101, _⟩ => ⟨S3200000x1, .i32⟩
  | .hbm, ⟨102, _⟩ => ⟨S100000x64, .f32⟩
  | .hbm, ⟨103, _⟩ => ⟨S1x18, .f32⟩
  | .hbm, ⟨104, _⟩ => ⟨S100000x18, .f32⟩
  | .local _ .vmem, ⟨0, _⟩ => ⟨S5000x100, .f32⟩
  | .local _ .vmem, ⟨1, _⟩ => ⟨S5000x100, .f32⟩
  | .local _ .vmem, ⟨2, _⟩ => ⟨S100x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S5000x64, .f32⟩
  | .local _ .vmem, ⟨22, _⟩ => ⟨S5000x64, .f32⟩
  | .local _ .vmem, ⟨23, _⟩ => ⟨S64x64, .f32⟩
  | .local _ .vmem, ⟨24, _⟩ => ⟨S1x64, .f32⟩
  | .local _ .vmem, ⟨25, _⟩ => ⟨S64x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x1, .f32⟩
  | .local _ .vmem, ⟨31, _⟩ => ⟨S5000x1, .f32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | .local _ .vmem, ⟨35, _⟩ => ⟨S1x64, .f32⟩
  | .local _ .vmem, ⟨36, _⟩ => ⟨S64x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x1, .f32⟩
  | .local _ .vmem, ⟨42, _⟩ => ⟨S5000x1, .f32⟩
  | .local _ .vmem, ⟨43, _⟩ => ⟨S5000x64, .f32⟩
  | .local _ .vmem, ⟨44, _⟩ => ⟨S5000x64, .f32⟩
  | .local _ .vmem, ⟨45, _⟩ => ⟨S64x18, .f32⟩
  | .local _ .vmem, ⟨46, _⟩ => ⟨S1x18, .f32⟩
  | .local _ .vmem, ⟨47, _⟩ => ⟨S64x18, .f32⟩
  | .local _ .vmem, ⟨48, _⟩ => ⟨S5000x18, .f32⟩
  | .local _ .vmem, ⟨49, _⟩ => ⟨S5000x18, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_8 : Ref sig .tc := ⟨.hbm, 72, rfl⟩
abbrev main_v45 : Ref sig .tc := ⟨.hbm, 73, rfl⟩
abbrev main_v46 : Ref sig .tc := ⟨.hbm, 74, rfl⟩
abbrev main_c_9 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_10 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_11 : Ref sig .tc := ⟨.hbm, 90, rfl⟩
abbrev main_v60 : Ref sig .tc := ⟨.hbm, 91, rfl⟩
abbrev main_v61 : Ref sig .tc := ⟨.hbm, 92, rfl⟩
abbrev main_c_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_13 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg6_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem6_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem2_1 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x18 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x18 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x18 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x18 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  shapeCasts_S64_S1x64 : S64.ShapeCasts S1x64
  inb_S5000x100_S5000x100_0_0 : ∀ a, (![0, 0] : Fin 2 → Nat) a + S5000x100.size a ≤ S5000x100.size a
  h_S5000x100 : 0 < S5000x100.numel
  bitsLt_bf16_f32 : FTy.bits .bf16 < FTy.bits .f32
  inb_S100x64_S100x64_0_0 : ∀ a, (![0, 0] : Fin 2 → Nat) a + S100x64.size a ≤ S100x64.size a
  h_S100x64 : 0 < S100x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  reduces_S5000x64_S5000 : S5000x64.Reduces [1] S5000
  shapeCasts_S5000_S5000x1 : S5000.ShapeCasts S5000x1
  shapeCasts_S18_S1x18 : S18.ShapeCasts S1x18
  inb_S64x18_S64x18_0_0 : ∀ a, (![0, 0] : Fin 2 → Nat) a + S64x18.size a ≤ S64x18.size a
  h_S64x18 : 0 < S64x18.numel
  inb_S1x18_S1x18_0_0 : ∀ a, (![0, 0] : Fin 2 → Nat) a + S1x18.size a ≤ S1x18.size a
  h_S1x18 : 0 < S1x18.numel
  shapeCasts_S1x18_S1x18 : S1x18.ShapeCasts S1x18
  broadcasts_S1x18_S5000x18 : S1x18.Broadcasts S5000x18
  reduces_S5000x18_S5000 : S5000x18.Reduces [1] S5000
  broadcasts_S5000x1_S5000x18 : S5000x1.Broadcasts S5000x18
  inb_S5000x18_S5000x18_0_0 : ∀ a, (![0, 0] : Fin 2 → Nat) a + S5000x18.size a ≤ S5000x18.size a
  h_S5000x18 : 0 < S5000x18.numel
  scatter_S100000_S3200000x1_S3200000_n_0_0_1_wf : ScatterDims.WF S100000 S3200000x1 S3200000 [] [0] [0] 1
  dot_S5000x100_S100x64_S5000x64_1_0_0_1_n_n_wf : DotDims.WF S5000x100 S100x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  dot_S5000x64_S64x18_S5000x18_1_0_0_1_n_n_wf : DotDims.WF S5000x64 S64x18 S5000x18 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S100000x100.size a
  hwx0_0 : ∀ i : grid0.Coords, EltTy.bits .f32 = 32 ∨ (Rect.block (s := S100000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x64.size a ≤ S100x64.size a
  hwx0_1 : ∀ i : grid0.Coords, EltTy.bits .f32 = 32 ∨ (Rect.block (s := S100x64) S100x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x18.size a ≤ S64x18.size a
  hwx4_3 : ∀ i : grid4.Coords, EltTy.bits .f32 = 32 ∨ (Rect.block (s := S64x18) S64x18.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x18.size a ≤ S1x18.size a
  hwx4_4 : ∀ i : grid4.Coords, EltTy.bits .f32 = 32 ∨ (Rect.block (s := S1x18) S1x18.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x18.size a ≤ S64x18.size a
  hwx4_5 : ∀ i : grid4.Coords, EltTy.bits .f32 = 32 ∨ (Rect.block (s := S64x18) S64x18.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x18.size a ≤ S100000x18.size a
  hwx4_6 : ∀ i : grid4.Coords, EltTy.bits .f32 = 32 ∨ (Rect.block (s := S100000x18) S5000x18.size (cc4_transform_6 i) (hinb4_6 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x100_S100x64_S5000x64_1_0_0_1_n_n : DotDims S5000x100 S100x64 S5000x64 where
  lhsContracting := [1]
  rhsContracting := [0]
  lhsNonContracting := [0]
  rhsNonContracting := [1]
  lhsBatch := []
  rhsBatch := []
  wf := dot_S5000x100_S100x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x18_S5000x18_1_0_0_1_n_n : DotDims S5000x64 S64x18 S5000x18 where
  lhsContracting := [1]
  rhsContracting := [0]
  lhsNonContracting := [0]
  rhsNonContracting := [1]
  lhsBatch := []
  rhsBatch := []
  wf := dot_S5000x64_S64x18_S5000x18_1_0_0_1_n_n_wf

abbrev win0_0 : Pipeline.Window sig grid0 :=
  Pipeline.Window.ofSpec (Memref.whole main_arg0) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S100x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v57) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v69) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v59) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S64x18.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v70) S1x18.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg16) S64x18.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v71) S5000x18.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x100 : Shape := ⟨2, ![100000, 100]⟩
abbrev S2x3200000 : Shape := ⟨2, ![2, 3200000]⟩
abbrev S3200000 : Shape := ⟨1, ![3200000]⟩
abbrev S100x64 : Shape := ⟨2, ![100, 64]⟩
abbrev S64 : Shape := ⟨1, ![64]⟩
abbrev S64x64 : Shape := ⟨2, ![64, 64]⟩
abbrev S64x18 : Shape := ⟨2, ![64, 18]⟩
abbrev S18 : Shape := ⟨1, ![18]⟩
abbrev S1x3200000 : Shape := ⟨2, ![1, 3200000]⟩
abbrev S100000x64 : Shape := ⟨2, ![100000, 64]⟩
abbrev S1x64 : Shape := ⟨2, ![1, 64]⟩
abbrev S_ : Shape := ⟨0, ![]⟩
abbrev S3200000x1 : Shape := ⟨2, ![3200000, 1]⟩
abbrev S3200000x64 : Shape := ⟨2, ![3200000, 64]⟩
abbrev S100000 : Shape := ⟨1, ![100000]⟩
abbrev S100000x1 : Shape := ⟨2, ![100000, 1]⟩
abbrev S100000x18 : Shape := ⟨2, ![100000, 18]⟩
abbrev S1x18 : Shape := ⟨2, ![1, 18]⟩

abbrev nBuf : Space → Nat
  | .hbm => 210
  | .vmem => 0
  | .smem => 0
  | _ => 0

abbrev hbmTy0_0 (i : Nat) : BufTy := match i % 128 with
  | 0 => ⟨S100000x100, .f32⟩
  | 1 => ⟨S2x3200000, .i32⟩
  | 2 => ⟨S3200000, .f32⟩
  | 3 => ⟨S100x64, .f32⟩
  | 4 => ⟨S64, .f32⟩
  | 5 => ⟨S64x64, .f32⟩
  | 6 => ⟨S64, .f32⟩
  | 7 => ⟨S64x64, .f32⟩
  | 8 => ⟨S64x64, .f32⟩
  | 9 => ⟨S64, .f32⟩
  | 10 => ⟨S64x64, .f32⟩
  | 11 => ⟨S64x64, .f32⟩
  | 12 => ⟨S64, .f32⟩
  | 13 => ⟨S64x64, .f32⟩
  | 14 => ⟨S64x18, .f32⟩
  | 15 => ⟨S18, .f32⟩
  | 16 => ⟨S64x18, .f32⟩
  | 17 => ⟨S1x3200000, .i32⟩
  | 18 => ⟨S3200000, .i32⟩
  | 19 => ⟨S1x3200000, .i32⟩
  | 20 => ⟨S3200000, .i32⟩
  | 21 => ⟨S100000x64, .f32⟩
  | 22 => ⟨S1x64, .f32⟩
  | 23 => ⟨S100000x64, .f32⟩
  | 24 => ⟨S100000x64, .f32⟩
  | 25 => ⟨S_, .f32⟩
  | 26 => ⟨S100000x64, .f32⟩
  | 27 => ⟨S100000x64, .f32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000x64, .f32⟩
  | 37 => ⟨S3200000x1, .f32⟩
  | 38 => ⟨S3200000x64, .f32⟩
  | 39 => ⟨S3200000x64, .f32⟩
  | 40 => ⟨S_, .f32⟩
  | 41 => ⟨S100000x64, .f32⟩
  | 42 => ⟨S3200000x1, .i32⟩
  | 43 => ⟨S100000x64, .f32⟩
  | 44 => ⟨S_, .f32⟩
  | 45 => ⟨S3200000, .f32⟩
  | 46 => ⟨S_, .f32⟩
  | 47 => ⟨S100000, .f32⟩
  | 48 => ⟨S3200000x1, .i32⟩
  | 49 => ⟨S100000, .f32⟩
  | 50 => ⟨S_, .f32⟩
  | 51 => ⟨S100000, .f32⟩
  | 52 => ⟨S100000, .f32⟩
  | 53 => ⟨S100000x1, .f32⟩
  | 54 => ⟨S100000x64, .f32⟩
  | 55 => ⟨S100000x64, .f32⟩
  | 56 => ⟨S100000x64, .f32⟩
  | 57 => ⟨S1x64, .f32⟩
  | 58 => ⟨S100000x64, .f32⟩
  | 59 => ⟨S100000x64, .f32⟩
  | 60 => ⟨S100000x64, .f32⟩
  | 61 => ⟨S100000x64, .f32⟩
  | 62 => ⟨S100000x64, .f32⟩
  | 63 => ⟨S_, .f32⟩
  | 64 => ⟨S100000, .f32⟩
  | 65 => ⟨S100000x1, .f32⟩
  | 66 => ⟨S100000x1, .f32⟩
  | 67 => ⟨S_, .f32⟩
  | 68 => ⟨S100000x1, .f32⟩
  | 69 => ⟨S100000x1, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S_, .i32⟩
  | 76 => ⟨S3200000, .i32⟩
  | 77 => ⟨S3200000, .i1⟩
  | 78 => ⟨S_, .i32⟩
  | 79 => ⟨S3200000, .i32⟩
  | 80 => ⟨S3200000, .i32⟩
  | 81 => ⟨S3200000, .i32⟩
  | 82 => ⟨S3200000x1, .i32⟩
  | 83 => ⟨S3200000x64, .f32⟩
  | 84 => ⟨S3200000x1, .f32⟩
  | 85 => ⟨S3200000x64, .f32⟩
  | 86 => ⟨S3200000x64, .f32⟩
  | 87 => ⟨S_, .f32⟩
  | 88 => ⟨S100000x64, .f32⟩
  | 89 => ⟨S3200000x1, .i32⟩
  | 90 => ⟨S100000x64, .f32⟩
  | 91 => ⟨S_, .f32⟩
  | 92 => ⟨S3200000, .f32⟩
  | 93 => ⟨S_, .f32⟩
  | 94 => ⟨S100000, .f32⟩
  | 95 => ⟨S3200000x1, .i32⟩
  | 96 => ⟨S100000, .f32⟩
  | 97 => ⟨S_, .f32⟩
  | 98 => ⟨S100000, .f32⟩
  | 99 => ⟨S100000, .f32⟩
  | 100 => ⟨S100000x1, .f32⟩
  | 101 => ⟨S100000x64, .f32⟩
  | 102 => ⟨S100000x64, .f32⟩
  | 103 => ⟨S100000x64, .f32⟩
  | 104 => ⟨S1x64, .f32⟩
  | 105 => ⟨S100000x64, .f32⟩
  | 106 => ⟨S100000x64, .f32⟩
  | 107 => ⟨S100000x64, .f32⟩
  | 108 => ⟨S100000x64, .f32⟩
  | 109 => ⟨S100000x64, .f32⟩
  | 110 => ⟨S_, .f32⟩
  | 111 => ⟨S100000, .f32⟩
  | 112 => ⟨S100000x1, .f32⟩
  | 113 => ⟨S100000x1, .f32⟩
  | 114 => ⟨S_, .f32⟩
  | 115 => ⟨S100000x1, .f32⟩
  | 116 => ⟨S100000x1, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S_, .i32⟩
  | 123 => ⟨S3200000, .i32⟩
  | 124 => ⟨S3200000, .i1⟩
  | 125 => ⟨S_, .i32⟩
  | 126 => ⟨S3200000, .i32⟩
  | 127 => ⟨S3200000, .i32⟩
  | _ => ⟨S100000x100, .f32⟩

abbrev hbmTy0_1 (i : Nat) : BufTy := match i % 128 with
  | 0 => ⟨S3200000, .i32⟩
  | 1 => ⟨S3200000x1, .i32⟩
  | 2 => ⟨S3200000x64, .f32⟩
  | 3 => ⟨S3200000x1, .f32⟩
  | 4 => ⟨S3200000x64, .f32⟩
  | 5 => ⟨S3200000x64, .f32⟩
  | 6 => ⟨S_, .f32⟩
  | 7 => ⟨S100000x64, .f32⟩
  | 8 => ⟨S3200000x1, .i32⟩
  | 9 => ⟨S100000x64, .f32⟩
  | 10 => ⟨S_, .f32⟩
  | 11 => ⟨S3200000, .f32⟩
  | 12 => ⟨S_, .f32⟩
  | 13 => ⟨S100000, .f32⟩
  | 14 => ⟨S3200000x1, .i32⟩
  | 15 => ⟨S100000, .f32⟩
  | 16 => ⟨S_, .f32⟩
  | 17 => ⟨S100000, .f32⟩
  | 18 => ⟨S100000, .f32⟩
  | 19 => ⟨S100000x1, .f32⟩
  | 20 => ⟨S100000x64, .f32⟩
  | 21 => ⟨S100000x64, .f32⟩
  | 22 => ⟨S100000x64, .f32⟩
  | 23 => ⟨S1x64, .f32⟩
  | 24 => ⟨S100000x64, .f32⟩
  | 25 => ⟨S100000x64, .f32⟩
  | 26 => ⟨S100000x64, .f32⟩
  | 27 => ⟨S100000x64, .f32⟩
  | 28 => ⟨S100000x64, .f32⟩
  | 29 => ⟨S_, .f32⟩
  | 30 => ⟨S100000, .f32⟩
  | 31 => ⟨S100000x1, .f32⟩
  | 32 => ⟨S100000x1, .f32⟩
  | 33 => ⟨S_, .f32⟩
  | 34 => ⟨S100000x1, .f32⟩
  | 35 => ⟨S100000x1, .f32⟩
  | 36 => ⟨S100000x64, .f32⟩
  | 37 => ⟨S100000x64, .f32⟩
  | 38 => ⟨S_, .f32⟩
  | 39 => ⟨S100000x64, .f32⟩
  | 40 => ⟨S100000x64, .f32⟩
  | 41 => ⟨S_, .i32⟩
  | 42 => ⟨S3200000, .i32⟩
  | 43 => ⟨S3200000, .i1⟩
  | 44 => ⟨S_, .i32⟩
  | 45 => ⟨S3200000, .i32⟩
  | 46 => ⟨S3200000, .i32⟩
  | 47 => ⟨S3200000, .i32⟩
  | 48 => ⟨S3200000x1, .i32⟩
  | 49 => ⟨S3200000x64, .f32⟩
  | 50 => ⟨S_, .f32⟩
  | 51 => ⟨S100000x64, .f32⟩
  | 52 => ⟨S3200000x1, .i32⟩
  | 53 => ⟨S100000x64, .f32⟩
  | 54 => ⟨S_, .f32⟩
  | 55 => ⟨S3200000, .f32⟩
  | 56 => ⟨S_, .f32⟩
  | 57 => ⟨S100000, .f32⟩
  | 58 => ⟨S3200000x1, .i32⟩
  | 59 => ⟨S100000, .f32⟩
  | 60 => ⟨S_, .f32⟩
  | 61 => ⟨S100000, .f32⟩
  | 62 => ⟨S100000, .f32⟩
  | 63 => ⟨S100000x1, .f32⟩
  | 64 => ⟨S100000x64, .f32⟩
  | 65 => ⟨S100000x64, .f32⟩
  | 66 => ⟨S100000x18, .f32⟩
  | 67 => ⟨S1x18, .f32⟩
  | 68 => ⟨S100000x18, .f32⟩
  | 69 => ⟨S100000x18, .f32⟩
  | 70 => ⟨S100000x18, .f32⟩
  | 71 => ⟨S100000x18, .f32⟩
  | 72 => ⟨S100000x18, .f32⟩
  | 73 => ⟨S_, .f32⟩
  | 74 => ⟨S100000, .f32⟩
  | 75 => ⟨S100000x1, .f32⟩
  | 76 => ⟨S100000x1, .f32⟩
  | 77 => ⟨S_, .f32⟩
  | 78 => ⟨S100000x1, .f32⟩
  | 79 => ⟨S100000x1, .f32⟩
  | 80 => ⟨S100000x18, .f32⟩
  | 81 => ⟨S100000x18, .f32⟩
  | _ => ⟨S100000x100, .f32⟩

abbrev hbmTy (i : Nat) : BufTy := match i / 128 with
  | 0 => hbmTy0_0 i
  | 1 => hbmTy0_1 i
  | _ => ⟨S100000x100, .f32⟩

abbrev bufTy : (tb : Table) → Fin (tcTables nBuf tb) → BufTy
  | .hbm, ⟨i, _⟩ => hbmTy i
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call0_cst : Ref sig .tc := ⟨.hbm, 25, rfl⟩
abbrev main_call0_v0 : Ref sig .tc := ⟨.hbm, 26, rfl⟩
abbrev main_v8 : Ref sig .tc := ⟨.hbm, 27, rfl⟩
abbrev main_c : Ref sig .tc := ⟨.hbm, 28, rfl⟩
abbrev main_v9 : Ref sig .tc := ⟨.hbm, 29, rfl⟩
abbrev main_v10 : Ref sig .tc := ⟨.hbm, 30, rfl⟩
abbrev main_c_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_1 : Ref sig .tc := ⟨.hbm, 44, rfl⟩
abbrev main_v22 : Ref sig .tc := ⟨.hbm, 45, rfl⟩
abbrev main_cst_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call1_cst : Ref sig .tc := ⟨.hbm, 72, rfl⟩
abbrev main_call1_v0 : Ref sig .tc := ⟨.hbm, 73, rfl⟩
abbrev main_v45 : Ref sig .tc := ⟨.hbm, 74, rfl⟩
abbrev main_c_6 : Ref sig .tc := ⟨.hbm, 75, rfl⟩
abbrev main_v46 : Ref sig .tc := ⟨.hbm, 76, rfl⟩
abbrev main_v47 : Ref sig .tc := ⟨.hbm, 77, rfl⟩
abbrev main_c_7 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_8 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_9 : Ref sig .tc := ⟨.hbm, 91, rfl⟩
abbrev main_v59 : Ref sig .tc := ⟨.hbm, 92, rfl⟩
abbrev main_cst_10 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_11 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_12 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_13 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_call2_cst : Ref sig .tc := ⟨.hbm, 119, rfl⟩
abbrev main_call2_v0 : Ref sig .tc := ⟨.hbm, 120, rfl⟩
abbrev main_v82 : Ref sig .tc := ⟨.hbm, 121, rfl⟩
abbrev main_c_14 : Ref sig .tc := ⟨.hbm, 122, rfl⟩
abbrev main_v83 : Ref sig .tc := ⟨.hbm, 123, rfl⟩
abbrev main_v84 : Ref sig .tc := ⟨.hbm, 124, rfl⟩
abbrev main_c_15 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_16 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_17 : Ref sig .tc := ⟨.hbm, 138, rfl⟩
abbrev main_v96 : Ref sig .tc := ⟨.hbm, 139, rfl⟩
abbrev main_cst_18 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_19 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_20 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_21 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_call3_cst : Ref sig .tc := ⟨.hbm, 166, rfl⟩
abbrev main_call3_v0 : Ref sig .tc := ⟨.hbm, 167, rfl⟩
abbrev main_v119 : Ref sig .tc := ⟨.hbm, 168, rfl⟩
abbrev main_c_22 : Ref sig .tc := ⟨.hbm, 169, rfl⟩
abbrev main_v120 : Ref sig .tc := ⟨.hbm, 170, rfl⟩
abbrev main_v121 : Ref sig .tc := ⟨.hbm, 171, rfl⟩
abbrev main_c_23 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_24 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_cst_25 : Ref sig .tc := ⟨.hbm, 182, rfl⟩
abbrev main_v130 : Ref sig .tc := ⟨.hbm, 183, rfl⟩
abbrev main_cst_26 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_27 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_cst_28 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_cst_29 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  bcast_S18_S1x18_1 : S18.BroadcastsInDim S1x18 (![1] : Fin 1 → Fin S1x18.rank)
  bcast_S1x18_S100000x18_0_1 : S1x18.BroadcastsInDim S100000x18 (![0, 1] : Fin 2 → Fin S100000x18.rank)
  reducesTo_S100000x18_S100000_d1 : S100000x18.ReducesTo [1] S100000
  bcast_S100000x1_S100000x18_0_1 : S100000x1.BroadcastsInDim S100000x18 (![0, 1] : Fin 2 → Fin S100000x18.rank)
  dot_S100000x100_S100x64_S100000x64_1_0_0_1_n_n_wf : DotDims.WF S100000x100 S100x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S100000_S3200000x1_S3200000_n_0_0_1_wf : ScatterDims.WF S100000 S3200000x1 S3200000 [] [0] [0] 1
  dot_S100000x64_S64x64_S100000x64_1_0_0_1_n_n_wf : DotDims.WF S100000x64 S64x64 S100000x64 [1] [0] [0] [1] [] []
  dot_S100000x64_S64x18_S100000x18_1_0_0_1_n_n_wf : DotDims.WF S100000x64 S64x18 S100000x18 [1] [0] [0] [1] [] []

variable [Facts₀]

def dot_S100000x100_S100x64_S100000x64_1_0_0_1_n_n : DotDims S100000x100 S100x64 S100000x64 where
  lhsContracting := [1]
  rhsContracting := [0]
  lhsNonContracting := [0]
  rhsNonContracting := [1]
  lhsBatch := []
  rhsBatch := []
  wf := dot_S100000x100_S100x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x18_S100000x18_1_0_0_1_n_n : DotDims S100000x64 S64x18 S100000x18 where
  lhsContracting := [1]
  rhsContracting := [0]
  lhsNonContracting := [0]
  rhsNonContracting := [1]
  lhsBatch := []
  rhsBatch := []
  wf := dot_S100000x64_S64x18_S100000x18_1_0_0_1_n_n_wf

class Facts : Prop extends Facts₀ where

variable [Facts]
-- ==== Proof.RunResult.lean ====
/-
  The idealized kernel's run with its result named.

  @main is five kernel regions among stretches of host operations. Folding the buffer contents
  through those ten segments from the launch memory gives the contents `W10 m ρ c` at the return:
  every buffer that outlives a region ends there, the result array `main_v71` among them. So every
  weakly fair execution terminates, without a fault, with the result at `W10 m ρ c main_v71` and
  the seventeen argument arrays as launched.
-/
import proofs.«101096_j17824114278988_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the
    last boundary's contents and every argument array as launched. -/
theorem run_result : θ_run defs (onTc (τ := τ) (main (F := F))) ⟨m, fun _ => 0, ρ⟩ (fun r => ∀ c : Dev nD,
      r.2.mem ((c.tc : Thread nD τ).loc main_v71) = W10 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v71 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c)⟩)

end Cert.KernelIdeal.Result

end
-- ==== Proof.Spec.lean ====
/-
  The network both programs compute, as pure functions of arrays given by their coordinates
  (row, column), on the extended reals.

  One layer of the graph network takes the row sums `agg` of the neighbours' (weighted) features,
  divides row `r` by `d r = max (deg r) 1` to get the neighbourhood mean, forms

      out r q = (Σ_k mean r k · Wl k q + bl q) + Σ_k h r k · Wr k q

  and divides every row of `out` by `max (sqrt (Σ_j out r j ²)) ε`; the first three layers then
  clamp at zero. The embedding before the first layer is `max (Σ_k x r k · W k q + b q) 0`.

  The two programs differ in one place only: one divides `agg r k` by `d r`, the other multiplies
  it by the quotient `1 / d r` computed beforehand. On the extended reals a quotient by a nonzero
  `d` IS the product with `d⁻¹`, and `1 · d⁻¹ = d⁻¹`, so the two means agree whenever `d r ≠ 0`
  (`meanMul_eq_meanDiv`); no finiteness is needed. `d r = max _ 1` is never zero (`max_one_ne_zero`).
-/
import Idealize.ShloMosaic.PureOps.Ideal
import Idealize.ShloMosaic.Lib.ValueIdx

noncomputable section

open scoped BigOperators

namespace Cert.Spec

open Idealize.ShloMosaic

variable {N K C : ℕ}

/-! ## Arrays by their coordinates -/

/-- A matrix as a function of its row and column. -/
abbrev cur {a b : ℕ} (f : (⟨2, ![a, b]⟩ : Shape).Idx → EReal) : Fin a → Fin b → EReal :=
  fun r k => f (ValueIdx.ix2 r k)

/-- A vector as a function of its coordinate. -/
abbrev cur1 {a : ℕ} (f : (⟨1, ![a]⟩ : Shape).Idx → EReal) : Fin a → EReal :=
  fun r => f (ValueIdx.ix1 r)

/-- A one-column matrix as a function of its row. -/
abbrev col {a : ℕ} (f : (⟨2, ![a, 1]⟩ : Shape).Idx → EReal) : Fin a → EReal :=
  fun r => f (ValueIdx.ix2 r 0)

/-- A one-row matrix as a function of its column. -/
abbrev row {b : ℕ} (f : (⟨2, ![1, b]⟩ : Shape).Idx → EReal) : Fin b → EReal :=
  fun q => f (ValueIdx.ix2 0 q)

/-! ## The layers -/

/-- The normalisation's floor `ε`: the single-precision word both programs carry for `1e-12`. -/
def eps : EReal := Ideal.ofBits .f32 0x2B8CBCCC#32

/-- The single-precision word of `1.0`. -/
def one : EReal := Ideal.ofBits .f32 0x3F800000#32

theorem one_eq : one = 1 := by
  unfold one; simp [Ideal.ofBits, Ideal.ieee, -EReal.coe_mul]; norm_num

/-- One entry of a matrix product: row `r` of `a` against column `q` of `w`. -/
def lin (a : Fin N → Fin K → EReal) (w : Fin K → Fin C → EReal) (r : Fin N) (q : Fin C) : EReal :=
  ∑ k : Fin K, a r k * w k q

/-- The embedding layer: a linear map, a bias, and a clamp at zero. -/
def embed (x : Fin N → Fin K → EReal) (w : Fin K → Fin C → EReal) (b : Fin C → EReal)
    (r : Fin N) (q : Fin C) : EReal :=
  max (lin x w r q + b q) 0

/-- A layer before its normalisation: the mean through `Wl`, the bias, the node's own features through `Wr`. -/
def pre (mean h : Fin N → Fin K → EReal) (wl : Fin K → Fin C → EReal) (bl : Fin C → EReal)
    (wr : Fin K → Fin C → EReal) (r : Fin N) (q : Fin C) : EReal :=
  (lin mean wl r q + bl q) + lin h wr r q

/-- A row's Euclidean length, floored at `ε`. -/
def len (out : Fin N → Fin C → EReal) (r : Fin N) : EReal :=
  max (Ideal.sqrt (∑ j : Fin C, out r j * out r j)) eps

/-- Every row divided by its floored length. -/
def normalize (out : Fin N → Fin C → EReal) (r : Fin N) (q : Fin C) : EReal :=
  Ideal.div (out r q) (len out r)

/-- A whole layer without the clamp (the last layer). -/
def sage (mean h : Fin N → Fin K → EReal) (wl : Fin K → Fin C → EReal) (bl : Fin C → EReal)
    (wr : Fin K → Fin C → EReal) : Fin N → Fin C → EReal :=
  normalize (pre mean h wl bl wr)

/-- A whole layer with the clamp at zero (layers one to three). -/
def sageRelu (mean h : Fin N → Fin K → EReal) (wl : Fin K → Fin C → EReal) (bl : Fin C → EReal)
    (wr : Fin K → Fin C → EReal) (r : Fin N) (q : Fin C) : EReal :=
  max (sage mean h wl bl wr r q) 0

/-- The neighbourhood mean as a product with a reciprocal computed beforehand. -/
def meanMul (agg : Fin N → Fin K → EReal) (inv : Fin N → EReal) (r : Fin N) (k : Fin K) : EReal :=
  agg r k * inv r

/-- The neighbourhood mean as a quotient. -/
def meanDiv (agg : Fin N → Fin K → EReal) (d : Fin N → EReal) (r : Fin N) (k : Fin K) : EReal :=
  Ideal.div (agg r k) (d r)

/-- The degree floored at one: `max (deg r) 1`, the divisor of the mean. -/
def floorOne (deg : Fin N → EReal) (r : Fin N) : EReal := max (deg r) one

/-- The reciprocal of the floored degree, as the program that multiplies computes it. -/
def recip (d : Fin N → EReal) (r : Fin N) : EReal := Ideal.div one (d r)

/-- A quotient by a nonzero extended real is the product with the quotient of one by it. -/
theorem mul_div_one (a d : EReal) (hd : d ≠ 0) : a * Ideal.div 1 d = Ideal.div a d := by
  unfold Ideal.div; rw [if_neg hd, if_neg hd, one_mul]

theorem max_one_ne_zero (x : EReal) : max x one ≠ 0 := by
  rw [one_eq]
  exact ne_of_gt (lt_of_lt_of_le (by norm_num : (0 : EReal) < 1) (le_max_right x 1))

/-- The two means agree wherever the divisor is not zero. -/
theorem meanMul_eq_meanDiv (agg : Fin N → Fin K → EReal) (d : Fin N → EReal) (hd : ∀ r, d r ≠ 0) :
    meanMul agg (recip d) = meanDiv agg d := by
  funext r k
  unfold meanMul meanDiv recip
  rw [one_eq]; exact mul_div_one _ _ (hd r)

/-- With the divisor a degree floored at one, the two means agree outright. -/
theorem meanMul_floorOne (agg : Fin N → Fin K → EReal) (deg : Fin N → EReal) :
    meanMul agg (recip (floorOne deg)) = meanDiv agg (floorOne deg) :=
  meanMul_eq_meanDiv agg _ (fun r => max_one_ne_zero (deg r))

end Cert.Spec

end
-- ==== Proof.Net.lean ====
/-
  The host operations the two programs share, as functions of the argument arrays.

  From the edge array (two rows of node numbers): `src` and `dst`, the edges' ends; `deg`, how many
  edges end at each node (ones added up by destination); `dmax`, that count floored at one; `inv`, the
  column of its reciprocals `1 / dmax`; `srcIdx`, the sources as gather indices (a negative number
  counted from the end). `aggW h ei ew` adds up, by destination, the rows of `h` at the edges' sources,
  each scaled by its edge's weight; `aggU h ei` does the same without weights. These are kept whole:
  which entry a gather reads or a scatter adds to depends on the edge array's values, and both programs
  apply the same operations to the same arrays.
-/
import proofs.«101096_j17824114278988_1_alg».proof.Proof.Gen.KernelIdeal
import proofs.«101096_j17824114278988_1_alg».proof.Proof.Spec

noncomputable section

namespace Cert.Net

open Cert.KernelIdeal Cert.KernelIdeal.Facts₀ Cert.KernelIdeal.Facts Idealize.ShloMosaic

/-- The edge array: two rows of 3,200,000 node numbers. -/
abbrev Edges := (⟨S2x3200000, .i32⟩ : BufTy).Contents (Elt Ideal)
/-- One row of it. -/
abbrev EdgeRow := (⟨S3200000, .i32⟩ : BufTy).Contents (Elt Ideal)

def src (ei : Edges) : EdgeRow :=
  shapeCast S3200000 (extractStridedSlice S1x3200000 ![0, 0] ei slices_S2x3200000_S1x3200000_0_0) shapeCasts_S1x3200000_S3200000

def dst (ei : Edges) : EdgeRow :=
  shapeCast S3200000 (extractStridedSlice S1x3200000 ![1, 0] ei slices_S2x3200000_S1x3200000_1_0) shapeCasts_S1x3200000_S3200000

/-- The vector of ones over the nodes. -/
def onesN : FVec Ideal S100000 .f32 :=
  broadcastInDim S100000 ![] bcast_S_S100000 (constant (F := Ideal) S_ .f32 0x3F800000#32)

/-- Each node's number of incoming edges. -/
def deg (ei : Edges) : FVec Ideal S100000 .f32 :=
  Host.scatterAdd (F := Ideal) scatter_S100000_S3200000x1_S3200000_n_0_0_1
    (broadcastInDim S100000 ![] bcast_S_S100000 (constant (F := Ideal) S_ .f32 0x00000000#32))
    (broadcastInDim S3200000x1 ![0] bcast_S3200000_S3200000x1_0 (dst ei))
    (broadcastInDim S3200000 ![] bcast_S_S3200000 (constant (F := Ideal) S_ .f32 0x3F800000#32))

/-- The degree floored at one. -/
def dmax (ei : Edges) : FVec Ideal S100000 .f32 := maximumf (F := Ideal) (deg ei) onesN

/-- The column of reciprocals of the floored degree. -/
def inv (ei : Edges) : FVec Ideal S100000x1 .f32 :=
  shapeCast S100000x1 (Host.divf (F := Ideal) onesN (dmax ei)) shapeCasts_S100000_S100000x1

/-- The sources as gather indices: a negative number has the node count added. -/
def srcIdx (ei : Edges) : (⟨S3200000x1, .i32⟩ : BufTy).Contents (Elt Ideal) :=
  broadcastInDim S3200000x1 ![0] bcast_S3200000_S3200000x1_0
    (select (cmpi .slt (src ei) (broadcastInDim S3200000 ![] bcast_S_S3200000 (constantI S_ 32 0#32)))
      (addi (src ei) (broadcastInDim S3200000 ![] bcast_S_S3200000 (constantI S_ 32 100000#32)))
      (src ei))

/-- The weighted row sums by destination. -/
def aggW (h : FVec Ideal S100000x64 .f32) (ei : Edges) (ew : FVec Ideal S3200000 .f32) : FVec Ideal S100000x64 .f32 :=
  Host.scatterAdd (F := Ideal) scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 (dst ei))
    (mulf (F := Ideal) (Host.gather gather_S100000x64_S3200000x1_S3200000x64_1_0_n_n_0_1_164 h (srcIdx ei))
      (broadcastInDim S3200000x64 ![0, 1] bcast_S3200000x1_S3200000x64_0_1
        (broadcastInDim S3200000x1 ![0] bcast_S3200000_S3200000x1_0 ew)))

/-- The unweighted row sums by destination. -/
def aggU (h : FVec Ideal S100000x64 .f32) (ei : Edges) : FVec Ideal S100000x64 .f32 :=
  Host.scatterAdd (F := Ideal) scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 (dst ei))
    (Host.gather gather_S100000x64_S3200000x1_S3200000x64_1_0_n_n_0_1_164 h (srcIdx ei))

/-! ## The network -/

/-- The embedding: `max (x · W + b) 0`. -/
def h0 (x : FVec Ideal S100000x100 .f32) (w : FVec Ideal S100x64 .f32) (b : FVec Ideal S64 .f32) : FVec Ideal S100000x64 .f32 :=
  fun i => Spec.embed (Spec.cur x) (Spec.cur w) (Spec.cur1 b) (i 0) (i 1)

/-- One clamped layer from the features `h` and their row sums `agg`: the mean is `agg` divided by the floored degree. -/
def layer (h agg : FVec Ideal S100000x64 .f32) (ei : Edges) (wl : FVec Ideal S64x64 .f32) (bl : FVec Ideal S64 .f32)
    (wr : FVec Ideal S64x64 .f32) : FVec Ideal S100000x64 .f32 :=
  fun i => Spec.sageRelu (Spec.meanDiv (Spec.cur agg) (Spec.floorOne (Spec.cur1 (deg ei)))) (Spec.cur h) (Spec.cur wl)
    (Spec.cur1 bl) (Spec.cur wr) (i 0) (i 1)

/-- The last layer: eighteen columns, no clamp. -/
def last (h agg : FVec Ideal S100000x64 .f32) (ei : Edges) (wl : FVec Ideal S64x18 .f32) (bl : FVec Ideal S18 .f32)
    (wr : FVec Ideal S64x18 .f32) : FVec Ideal S100000x18 .f32 :=
  fun i => Spec.sage (Spec.meanDiv (Spec.cur agg) (Spec.floorOne (Spec.cur1 (deg ei)))) (Spec.cur h) (Spec.cur wl)
    (Spec.cur1 bl) (Spec.cur wr) (i 0) (i 1)

/-- The features after the embedding and after each of the three clamped layers. -/
def g0 (a0 : FVec Ideal S100000x100 .f32) (a3 : FVec Ideal S100x64 .f32) (a4 : FVec Ideal S64 .f32) : FVec Ideal S100000x64 .f32 :=
  h0 a0 a3 a4
def g1 (a0 : FVec Ideal S100000x100 .f32) (a1 : Edges) (a2 : FVec Ideal S3200000 .f32) (a3 : FVec Ideal S100x64 .f32) (a4 : FVec Ideal S64 .f32)
    (a5 : FVec Ideal S64x64 .f32) (a6 : FVec Ideal S64 .f32) (a7 : FVec Ideal S64x64 .f32) : FVec Ideal S100000x64 .f32 :=
  layer (g0 a0 a3 a4) (aggW (g0 a0 a3 a4) a1 a2) a1 a5 a6 a7
def g2 (a0 : FVec Ideal S100000x100 .f32) (a1 : Edges) (a2 : FVec Ideal S3200000 .f32) (a3 : FVec Ideal S100x64 .f32) (a4 : FVec Ideal S64 .f32)
    (a5 : FVec Ideal S64x64 .f32) (a6 : FVec Ideal S64 .f32) (a7 : FVec Ideal S64x64 .f32)
    (a8 : FVec Ideal S64x64 .f32) (a9 : FVec Ideal S64 .f32) (a10 : FVec Ideal S64x64 .f32) : FVec Ideal S100000x64 .f32 :=
  layer (g1 a0 a1 a2 a3 a4 a5 a6 a7) (aggW (g1 a0 a1 a2 a3 a4 a5 a6 a7) a1 a2) a1 a8 a9 a10
def g3 (a0 : FVec Ideal S100000x100 .f32) (a1 : Edges) (a2 : FVec Ideal S3200000 .f32) (a3 : FVec Ideal S100x64 .f32) (a4 : FVec Ideal S64 .f32)
    (a5 : FVec Ideal S64x64 .f32) (a6 : FVec Ideal S64 .f32) (a7 : FVec Ideal S64x64 .f32)
    (a8 : FVec Ideal S64x64 .f32) (a9 : FVec Ideal S64 .f32) (a10 : FVec Ideal S64x64 .f32)
    (a11 : FVec Ideal S64x64 .f32) (a12 : FVec Ideal S64 .f32) (a13 : FVec Ideal S64x64 .f32) : FVec Ideal S100000x64 .f32 :=
  layer (g2 a0 a1 a2 a3 a4 a5 a6 a7 a8 a9 a10) (aggW (g2 a0 a1 a2 a3 a4 a5 a6 a7 a8 a9 a10) a1 a2) a1 a11 a12 a13
/-- The network's result: the last layer over the third layer's features. -/
def out (a0 : FVec Ideal S100000x100 .f32) (a1 : Edges) (a2 : FVec Ideal S3200000 .f32) (a3 : FVec Ideal S100x64 .f32) (a4 : FVec Ideal S64 .f32)
    (a5 : FVec Ideal S64x64 .f32) (a6 : FVec Ideal S64 .f32) (a7 : FVec Ideal S64x64 .f32)
    (a8 : FVec Ideal S64x64 .f32) (a9 : FVec Ideal S64 .f32) (a10 : FVec Ideal S64x64 .f32)
    (a11 : FVec Ideal S64x64 .f32) (a12 : FVec Ideal S64 .f32) (a13 : FVec Ideal S64x64 .f32)
    (a14 : FVec Ideal S64x18 .f32) (a15 : FVec Ideal S18 .f32) (a16 : FVec Ideal S64x18 .f32) : FVec Ideal S100000x18 .f32 :=
  last (g3 a0 a1 a2 a3 a4 a5 a6 a7 a8 a9 a10 a11 a12 a13) (aggU (g3 a0 a1 a2 a3 a4 a5 a6 a7 a8 a9 a10 a11 a12 a13) a1) a1 a14 a15 a16

end Cert.Net

end
-- ==== Proof.Stretch.lean ====
/-
  The host operations between the kernel regions, read back.

  @main's buffer contents are folded through ten segments (`W0` at the launch, `W10` at the return).
  Two kinds of fact are collected here. A buffer that no operation of a stretch writes, and that is no
  array of a region, holds across that segment what it held before (`keep_…`: the buffer, the
  boundary it is read at, the boundary it was last written before). And what each stretch writes, for
  ANY contents `W` it starts from, as the shared host operations of those contents (`stretch…`): the
  first stretch cuts the edge array into its two rows, counts the degrees and takes the reciprocals,
  and reshapes the first bias; each later stretch adds up the gathered (and, before the last layer,
  weighted) rows of the previous region's result and reshapes the layer's bias.
-/
import proofs.«101096_j17824114278988_1_alg».proof.Proof.Gen.KernelIdeal.Frame
import proofs.«101096_j17824114278988_1_alg».proof.Proof.Net
import Idealize.ShloMosaic.Lib.StableHlo.Run

set_option maxRecDepth 16384

noncomputable section

namespace Cert.KernelIdeal.Stretch

open Cert.KernelIdeal Cert.KernelIdeal.Gen Cert.KernelIdeal.Facts₀ Cert.KernelIdeal.Facts
open Idealize.ShloMosaic Idealize.ShloMosaic.TcCoe Idealize.ShloMosaic.Tactic Idealize.SL.Sem Idealize.ShloMosaic.StableHlo

/-- A buffer that none of a stretch's operations writes keeps its contents across the stretch. -/
macro "host_keeps" : tactic => `(tactic|
  exact StableHlo.after_of_forall_not_mem _ _ (List.forall_iff_forall_mem.mp (by
    simp only [hostOps0, hostOps1, hostOps2, hostOps3, hostOps4, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

/-! ## What each stretch writes, from any contents -/

section Stretches
variable (W : Valuation τ sig (Elt Ideal))

theorem s0_src : StableHlo.after (hostOps0 (F := Ideal)) W (Proc.devRef .tc main_v1) = Net.src (W (Proc.devRef .tc main_arg1)) := by
  after_results; rfl
theorem s0_dst : StableHlo.after (hostOps0 (F := Ideal)) W (Proc.devRef .tc main_v3) = Net.dst (W (Proc.devRef .tc main_arg1)) := by
  after_results; rfl
theorem s0_inv : StableHlo.after (hostOps0 (F := Ideal)) W (Proc.devRef .tc main_v12) = Net.inv (W (Proc.devRef .tc main_arg1)) := by
  after_results; rfl
theorem s0_bias : StableHlo.after (hostOps0 (F := Ideal)) W (Proc.devRef .tc main_v13)
    = shapeCast S1x64 (W (Proc.devRef .tc main_arg4)) Facts₀.shapeCasts_S64_S1x64 := by
  after_results; rfl

set_option maxHeartbeats 4000000 in
theorem s1_agg (a1 : Net.Edges) (h1 : W (Proc.devRef .tc main_v1) = Net.src a1) (h3 : W (Proc.devRef .tc main_v3) = Net.dst a1) :
    StableHlo.after (hostOps1 (F := Ideal)) W (Proc.devRef .tc main_v27)
      = Net.aggW (W (Proc.devRef .tc main_v14)) a1 (W (Proc.devRef .tc main_arg2)) := by
  after_results; rw [h1, h3]; rfl
theorem s1_bias : StableHlo.after (hostOps1 (F := Ideal)) W (Proc.devRef .tc main_v28)
    = shapeCast S1x64 (W (Proc.devRef .tc main_arg6)) Facts₀.shapeCasts_S64_S1x64 := by
  after_results; rfl
set_option maxHeartbeats 4000000 in
theorem s2_agg (a1 : Net.Edges) (h1 : W (Proc.devRef .tc main_v1) = Net.src a1) (h3 : W (Proc.devRef .tc main_v3) = Net.dst a1) :
    StableHlo.after (hostOps2 (F := Ideal)) W (Proc.devRef .tc main_v42)
      = Net.aggW (W (Proc.devRef .tc main_v29)) a1 (W (Proc.devRef .tc main_arg2)) := by
  after_results; rw [h1, h3]; rfl
theorem s2_bias : StableHlo.after (hostOps2 (F := Ideal)) W (Proc.devRef .tc main_v43)
    = shapeCast S1x64 (W (Proc.devRef .tc main_arg9)) Facts₀.shapeCasts_S64_S1x64 := by
  after_results; rfl
set_option maxHeartbeats 4000000 in
theorem s3_agg (a1 : Net.Edges) (h1 : W (Proc.devRef .tc main_v1) = Net.src a1) (h3 : W (Proc.devRef .tc main_v3) = Net.dst a1) :
    StableHlo.after (hostOps3 (F := Ideal)) W (Proc.devRef .tc main_v57)
      = Net.aggW (W (Proc.devRef .tc main_v44)) a1 (W (Proc.devRef .tc main_arg2)) := by
  after_results; rw [h1, h3]; rfl
theorem s3_bias : StableHlo.after (hostOps3 (F := Ideal)) W (Proc.devRef .tc main_v58)
    = shapeCast S1x64 (W (Proc.devRef .tc main_arg12)) Facts₀.shapeCasts_S64_S1x64 := by
  after_results; rfl
set_option maxHeartbeats 4000000 in
theorem s4_agg (a1 : Net.Edges) (h1 : W (Proc.devRef .tc main_v1) = Net.src a1) (h3 : W (Proc.devRef .tc main_v3) = Net.dst a1) :
    StableHlo.after (hostOps4 (F := Ideal)) W (Proc.devRef .tc main_v69)
      = Net.aggU (W (Proc.devRef .tc main_v59)) a1 := by
  after_results; rw [h1, h3]; rfl
theorem s4_bias : StableHlo.after (hostOps4 (F := Ideal)) W (Proc.devRef .tc main_v70)
    = shapeCast S1x18 (W (Proc.devRef .tc main_arg15)) Facts₀.shapeCasts_S18_S1x18 := by
  after_results; rfl

end Stretches

/-! ## Buffers that a segment leaves alone -/

section Keeps
variable (m : (ℓ : Loc nD τ sig) → Buf (Elt Ideal) ℓ) (ρ : Dev nD → PrngReg) (c : Dev nD)

theorem keep_main_arg0_1_0 : W1 m ρ c (Proc.devRef .tc main_arg0) = W0 m ρ c (Proc.devRef .tc main_arg0) :=
  (by host_keeps : W1 m ρ c (Proc.devRef .tc main_arg0) = W0 m ρ c (Proc.devRef .tc main_arg0))
theorem keep_main_arg3_1_0 : W1 m ρ c (Proc.devRef .tc main_arg3) = W0 m ρ c (Proc.devRef .tc main_arg3) :=
  (by host_keeps : W1 m ρ c (Proc.devRef .tc main_arg3) = W0 m ρ c (Proc.devRef .tc main_arg3))
theorem keep_main_v1_2_1 : W2 m ρ c (Proc.devRef .tc main_v1) = W1 m ρ c (Proc.devRef .tc main_v1) :=
  (W2_of_ne m ρ c main_v1 (by decide))
theorem keep_main_v1_4_1 : W4 m ρ c (Proc.devRef .tc main_v1) = W1 m ρ c (Proc.devRef .tc main_v1) :=
  (W4_of_ne m ρ c main_v1 (by decide)).trans ((by host_keeps : W3 m ρ c (Proc.devRef .tc main_v1) = W2 m ρ c (Proc.devRef .tc main_v1)).trans ((W2_of_ne m ρ c main_v1 (by decide))))
theorem keep_main_v1_6_1 : W6 m ρ c (Proc.devRef .tc main_v1) = W1 m ρ c (Proc.devRef .tc main_v1) :=
  (W6_of_ne m ρ c main_v1 (by decide)).trans ((by host_keeps : W5 m ρ c (Proc.devRef .tc main_v1) = W4 m ρ c (Proc.devRef .tc main_v1)).trans ((W4_of_ne m ρ c main_v1 (by decide)).trans ((by host_keeps : W3 m ρ c (Proc.devRef .tc main_v1) = W2 m ρ c (Proc.devRef .tc main_v1)).trans ((W2_of_ne m ρ c main_v1 (by decide))))))
theorem keep_main_v1_8_1 : W8 m ρ c (Proc.devRef .tc main_v1) = W1 m ρ c (Proc.devRef .tc main_v1) :=
  (W8_of_ne m ρ c main_v1 (by decide)).trans ((by host_keeps : W7 m ρ c (Proc.devRef .tc main_v1) = W6 m ρ c (Proc.devRef .tc main_v1)).trans ((W6_of_ne m ρ c main_v1 (by decide)).trans ((by host_keeps : W5 m ρ c (Proc.devRef .tc main_v1) = W4 m ρ c (Proc.devRef .tc main_v1)).trans ((W4_of_ne m ρ c main_v1 (by decide)).trans ((by host_keeps : W3 m ρ c (Proc.devRef .tc main_v1) = W2 m ρ c (Proc.devRef .tc main_v1)).trans ((W2_of_ne m ρ c main_v1 (by decide))))))))
theorem keep_main_v3_2_1 : W2 m ρ c (Proc.devRef .tc main_v3) = W1 m ρ c (Proc.devRef .tc main_v3) :=
  (W2_of_ne m ρ c main_v3 (by decide))
theorem keep_main_v3_4_1 : W4 m ρ c (Proc.devRef .tc main_v3) = W1 m ρ c (Proc.devRef .tc main_v3) :=
  (W4_of_ne m ρ c main_v3 (by decide)).trans ((by host_keeps : W3 m ρ c (Proc.devRef .tc main_v3) = W2 m ρ c (Proc.devRef .tc main_v3)).trans ((W2_of_ne m ρ c main_v3 (by decide))))
theorem keep_main_v3_6_1 : W6 m ρ c (Proc.devRef .tc main_v3) = W1 m ρ c (Proc.devRef .tc main_v3) :=
  (W6_of_ne m ρ c main_v3 (by decide)).trans ((by host_keeps : W5 m ρ c (Proc.devRef .tc main_v3) = W4 m ρ c (Proc.devRef .tc main_v3)).trans ((W4_of_ne m ρ c main_v3 (by decide)).trans ((by host_keeps : W3 m ρ c (Proc.devRef .tc main_v3) = W2 m ρ c (Proc.devRef .tc main_v3)).trans ((W2_of_ne m ρ c main_v3 (by decide))))))
theorem keep_main_v3_8_1 : W8 m ρ c (Proc.devRef .tc main_v3) = W1 m ρ c (Proc.devRef .tc main_v3) :=
  (W8_of_ne m ρ c main_v3 (by decide)).trans ((by host_keeps : W7 m ρ c (Proc.devRef .tc main_v3) = W6 m ρ c (Proc.devRef .tc main_v3)).trans ((W6_of_ne m ρ c main_v3 (by decide)).trans ((by host_keeps : W5 m ρ c (Proc.devRef .tc main_v3) = W4 m ρ c (Proc.devRef .tc main_v3)).trans ((W4_of_ne m ρ c main_v3 (by decide)).trans ((by host_keeps : W3 m ρ c (Proc.devRef .tc main_v3) = W2 m ρ c (Proc.devRef .tc main_v3)).trans ((W2_of_ne m ρ c main_v3 (by decide))))))))
theorem keep_main_arg2_2_0 : W2 m ρ c (Proc.devRef .tc main_arg2) = W0 m ρ c (Proc.devRef .tc main_arg2) :=
  (W2_of_ne m ρ c main_arg2 (by decide)).trans ((by host_keeps : W1 m ρ c (Proc.devRef .tc main_arg2) = W0 m ρ c (Proc.devRef .tc main_arg2)))
theorem keep_main_arg2_4_0 : W4 m ρ c (Proc.devRef .tc main_arg2) = W0 m ρ c (Proc.devRef .tc main_arg2) :=
  (W4_of_ne m ρ c main_arg2 (by decide)).trans ((by host_keeps : W3 m ρ c (Proc.devRef .tc main_arg2) = W2 m ρ c (Proc.devRef .tc main_arg2)).trans ((W2_of_ne m ρ c main_arg2 (by decide)).trans ((by host_keeps : W1 m ρ c (Proc.devRef .tc main_arg2) = W0 m ρ c (Proc.devRef .tc main_arg2)))))
theorem keep_main_arg2_6_0 : W6 m ρ c (Proc.devRef .tc main_arg2) = W0 m ρ c (Proc.devRef .tc main_arg2) :=
  (W6_of_ne m ρ c main_arg2 (by decide)).trans ((by host_keeps : W5 m ρ c (Proc.devRef .tc main_arg2) = W4 m ρ c (Proc.devRef .tc main_arg2)).trans ((W4_of_ne m ρ c main_arg2 (by decide)).trans ((by host_keeps : W3 m ρ c (Proc.devRef .tc main_arg2) = W2 m ρ c (Proc.devRef .tc main_arg2)).trans ((W2_of_ne m ρ c main_arg2 (by decide)).trans ((by host_keeps : W1 m ρ c (Proc.devRef .tc main_arg2) = W0 m ρ c (Proc.devRef .tc main_arg2)))))))
theorem keep_main_v12_3_1 : W3 m ρ c (Proc.devRef .tc main_v12) = W1 m ρ c (Proc.devRef .tc main_v12) :=
  (by host_keeps : W3 m ρ c (Proc.devRef .tc main_v12) = W2 m ρ c (Proc.devRef .tc main_v12)).trans ((W2_of_ne m ρ c main_v12 (by decide)))
theorem keep_main_v12_5_1 : W5 m ρ c (Proc.devRef .tc main_v12) = W1 m ρ c (Proc.devRef .tc main_v12) :=
  (by host_keeps : W5 m ρ c (Proc.devRef .tc main_v12) = W4 m ρ c (Proc.devRef .tc main_v12)).trans ((show W4 m ρ c (Proc.devRef .tc main_v12) = W3 m ρ c (Proc.devRef .tc main_v12) from (W4_arr m ρ c 1).trans (((dat1 (V3 m ρ) c).arrAt_in 1 rfl _).trans (A_eq1 (V3 m ρ) c 1))).trans ((by host_keeps : W3 m ρ c (Proc.devRef .tc main_v12) = W2 m ρ c (Proc.devRef .tc main_v12)).trans ((W2_of_ne m ρ c main_v12 (by decide)))))
theorem keep_main_v12_7_1 : W7 m ρ c (Proc.devRef .tc main_v12) = W1 m ρ c (Proc.devRef .tc main_v12) :=
  (by host_keeps : W7 m ρ c (Proc.devRef .tc main_v12) = W6 m ρ c (Proc.devRef .tc main_v12)).trans ((show W6 m ρ c (Proc.devRef .tc main_v12) = W5 m ρ c (Proc.devRef .tc main_v12) from (W6_arr m ρ c 1).trans (((dat2 (V5 m ρ) c).arrAt_in 1 rfl _).trans (A_eq2 (V5 m ρ) c 1))).trans ((by host_keeps : W5 m ρ c (Proc.devRef .tc main_v12) = W4 m ρ c (Proc.devRef .tc main_v12)).trans ((show W4 m ρ c (Proc.devRef .tc main_v12) = W3 m ρ c (Proc.devRef .tc main_v12) from (W4_arr m ρ c 1).trans (((dat1 (V3 m ρ) c).arrAt_in 1 rfl _).trans (A_eq1 (V3 m ρ) c 1))).trans ((by host_keeps : W3 m ρ c (Proc.devRef .tc main_v12) = W2 m ρ c (Proc.devRef .tc main_v12)).trans ((W2_of_ne m ρ c main_v12 (by decide)))))))
theorem keep_main_v12_9_1 : W9 m ρ c (Proc.devRef .tc main_v12) = W1 m ρ c (Proc.devRef .tc main_v12) :=
  (by host_keeps : W9 m ρ c (Proc.devRef .tc main_v12) = W8 m ρ c (Proc.devRef .tc main_v12)).trans ((show W8 m ρ c (Proc.devRef .tc main_v12) = W7 m ρ c (Proc.devRef .tc main_v12) from (W8_arr m ρ c 1).trans (((dat3 (V7 m ρ) c).arrAt_in 1 rfl _).trans (A_eq3 (V7 m ρ) c 1))).trans ((by host_keeps : W7 m ρ c (Proc.devRef .tc main_v12) = W6 m ρ c (Proc.devRef .tc main_v12)).trans ((show W6 m ρ c (Proc.devRef .tc main_v12) = W5 m ρ c (Proc.devRef .tc main_v12) from (W6_arr m ρ c 1).trans (((dat2 (V5 m ρ) c).arrAt_in 1 rfl _).trans (A_eq2 (V5 m ρ) c 1))).trans ((by host_keeps : W5 m ρ c (Proc.devRef .tc main_v12) = W4 m ρ c (Proc.devRef .tc main_v12)).trans ((show W4 m ρ c (Proc.devRef .tc main_v12) = W3 m ρ c (Proc.devRef .tc main_v12) from (W4_arr m ρ c 1).trans (((dat1 (V3 m ρ) c).arrAt_in 1 rfl _).trans (A_eq1 (V3 m ρ) c 1))).trans ((by host_keeps : W3 m ρ c (Proc.devRef .tc main_v12) = W2 m ρ c (Proc.devRef .tc main_v12)).trans ((W2_of_ne m ρ c main_v12 (by decide)))))))))
theorem keep_main_v14_3_2 : W3 m ρ c (Proc.devRef .tc main_v14) = W2 m ρ c (Proc.devRef .tc main_v14) :=
  (by host_keeps : W3 m ρ c (Proc.devRef .tc main_v14) = W2 m ρ c (Proc.devRef .tc main_v14))
theorem keep_main_v29_5_4 : W5 m ρ c (Proc.devRef .tc main_v29) = W4 m ρ c (Proc.devRef .tc main_v29) :=
  (by host_keeps : W5 m ρ c (Proc.devRef .tc main_v29) = W4 m ρ c (Proc.devRef .tc main_v29))
theorem keep_main_v44_7_6 : W7 m ρ c (Proc.devRef .tc main_v44) = W6 m ρ c (Proc.devRef .tc main_v44) :=
  (by host_keeps : W7 m ρ c (Proc.devRef .tc main_v44) = W6 m ρ c (Proc.devRef .tc main_v44))
theorem keep_main_v59_9_8 : W9 m ρ c (Proc.devRef .tc main_v59) = W8 m ρ c (Proc.devRef .tc main_v59) :=
  (by host_keeps : W9 m ρ c (Proc.devRef .tc main_v59) = W8 m ρ c (Proc.devRef .tc main_v59))
theorem keep_main_arg5_3_0 : W3 m ρ c (Proc.devRef .tc main_arg5) = W0 m ρ c (Proc.devRef .tc main_arg5) :=
  (by host_keeps : W3 m ρ c (Proc.devRef .tc main_arg5) = W2 m ρ c (Proc.devRef .tc main_arg5)).trans ((W2_of_ne m ρ c main_arg5 (by decide)).trans ((by host_keeps : W1 m ρ c (Proc.devRef .tc main_arg5) = W0 m ρ c (Proc.devRef .tc main_arg5))))
theorem keep_main_arg7_3_0 : W3 m ρ c (Proc.devRef .tc main_arg7) = W0 m ρ c (Proc.devRef .tc main_arg7) :=
  (by host_keeps : W3 m ρ c (Proc.devRef .tc main_arg7) = W2 m ρ c (Proc.devRef .tc main_arg7)).trans ((W2_of_ne m ρ c main_arg7 (by decide)).trans ((by host_keeps : W1 m ρ c (Proc.devRef .tc main_arg7) = W0 m ρ c (Proc.devRef .tc main_arg7))))
theorem keep_main_arg6_2_0 : W2 m ρ c (Proc.devRef .tc main_arg6) = W0 m ρ c (Proc.devRef .tc main_arg6) :=
  (W2_of_ne m ρ c main_arg6 (by decide)).trans ((by host_keeps : W1 m ρ c (Proc.devRef .tc main_arg6) = W0 m ρ c (Proc.devRef .tc main_arg6)))
theorem keep_main_arg8_5_0 : W5 m ρ c (Proc.devRef .tc main_arg8) = W0 m ρ c (Proc.devRef .tc main_arg8) :=
  (by host_keeps : W5 m ρ c (Proc.devRef .tc main_arg8) = W4 m ρ c (Proc.devRef .tc main_arg8)).trans ((W4_of_ne m ρ c main_arg8 (by decide)).trans ((by host_keeps : W3 m ρ c (Proc.devRef .tc main_arg8) = W2 m ρ c (Proc.devRef .tc main_arg8)).trans ((W2_of_ne m ρ c main_arg8 (by decide)).trans ((by host_keeps : W1 m ρ c (Proc.devRef .tc main_arg8) = W0 m ρ c (Proc.devRef .tc main_arg8))))))
theorem keep_main_arg10_5_0 : W5 m ρ c (Proc.devRef .tc main_arg10) = W0 m ρ c (Proc.devRef .tc main_arg10) :=
  (by host_keeps : W5 m ρ c (Proc.devRef .tc main_arg10) = W4 m ρ c (Proc.devRef .tc main_arg10)).trans ((W4_of_ne m ρ c main_arg10 (by decide)).trans ((by host_keeps : W3 m ρ c (Proc.devRef .tc main_arg10) = W2 m ρ c (Proc.devRef .tc main_arg10)).trans ((W2_of_ne m ρ c main_arg10 (by decide)).trans ((by host_keeps : W1 m ρ c (Proc.devRef .tc main_arg10) = W0 m ρ c (Proc.devRef .tc main_arg10))))))
theorem keep_main_arg9_4_0 : W4 m ρ c (Proc.devRef .tc main_arg9) = W0 m ρ c (Proc.devRef .tc main_arg9) :=
  (W4_of_ne m ρ c main_arg9 (by decide)).trans ((by host_keeps : W3 m ρ c (Proc.devRef .tc main_arg9) = W2 m ρ c (Proc.devRef .tc main_arg9)).trans ((W2_of_ne m ρ c main_arg9 (by decide)).trans ((by host_keeps : W1 m ρ c (Proc.devRef .tc main_arg9) = W0 m ρ c (Proc.devRef .tc main_arg9)))))
theorem keep_main_arg11_7_0 : W7 m ρ c (Proc.devRef .tc main_arg11) = W0 m ρ c (Proc.devRef .tc main_arg11) :=
  (by host_keeps : W7 m ρ c (Proc.devRef .tc main_arg11) = W6 m ρ c (Proc.devRef .tc main_arg11)).trans ((W6_of_ne m ρ c main_arg11 (by decide)).trans ((by host_keeps : W5 m ρ c (Proc.devRef .tc main_arg11) = W4 m ρ c (Proc.devRef .tc main_arg11)).trans ((W4_of_ne m ρ c main_arg11 (by decide)).trans ((by host_keeps : W3 m ρ c (Proc.devRef .tc main_arg11) = W2 m ρ c (Proc.devRef .tc main_arg11)).trans ((W2_of_ne m ρ c main_arg11 (by decide)).trans ((by host_keeps : W1 m ρ c (Proc.devRef .tc main_arg11) = W0 m ρ c (Proc.devRef .tc main_arg11))))))))
theorem keep_main_arg13_7_0 : W7 m ρ c (Proc.devRef .tc main_arg13) = W0 m ρ c (Proc.devRef .tc main_arg13) :=
  (by host_keeps : W7 m ρ c (Proc.devRef .tc main_arg13) = W6 m ρ c (Proc.devRef .tc main_arg13)).trans ((W6_of_ne m ρ c main_arg13 (by decide)).trans ((by host_keeps : W5 m ρ c (Proc.devRef .tc main_arg13) = W4 m ρ c (Proc.devRef .tc main_arg13)).trans ((W4_of_ne m ρ c main_arg13 (by decide)).trans ((by host_keeps : W3 m ρ c (Proc.devRef .tc main_arg13) = W2 m ρ c (Proc.devRef .tc main_arg13)).trans ((W2_of_ne m ρ c main_arg13 (by decide)).trans ((by host_keeps : W1 m ρ c (Proc.devRef .tc main_arg13) = W0 m ρ c (Proc.devRef .tc main_arg13))))))))
theorem keep_main_arg12_6_0 : W6 m ρ c (Proc.devRef .tc main_arg12) = W0 m ρ c (Proc.devRef .tc main_arg12) :=
  (W6_of_ne m ρ c main_arg12 (by decide)).trans ((by host_keeps : W5 m ρ c (Proc.devRef .tc main_arg12) = W4 m ρ c (Proc.devRef .tc main_arg12)).trans ((W4_of_ne m ρ c main_arg12 (by decide)).trans ((by host_keeps : W3 m ρ c (Proc.devRef .tc main_arg12) = W2 m ρ c (Proc.devRef .tc main_arg12)).trans ((W2_of_ne m ρ c main_arg12 (by decide)).trans ((by host_keeps : W1 m ρ c (Proc.devRef .tc main_arg12) = W0 m ρ c (Proc.devRef .tc main_arg12)))))))
theorem keep_main_arg14_9_0 : W9 m ρ c (Proc.devRef .tc main_arg14) = W0 m ρ c (Proc.devRef .tc main_arg14) :=
  (by host_keeps : W9 m ρ c (Proc.devRef .tc main_arg14) = W8 m ρ c (Proc.devRef .tc main_arg14)).trans ((W8_of_ne m ρ c main_arg14 (by decide)).trans ((by host_keeps : W7 m ρ c (Proc.devRef .tc main_arg14) = W6 m ρ c (Proc.devRef .tc main_arg14)).trans ((W6_of_ne m ρ c main_arg14 (by decide)).trans ((by host_keeps : W5 m ρ c (Proc.devRef .tc main_arg14) = W4 m ρ c (Proc.devRef .tc main_arg14)).trans ((W4_of_ne m ρ c main_arg14 (by decide)).trans ((by host_keeps : W3 m ρ c (Proc.devRef .tc main_arg14) = W2 m ρ c (Proc.devRef .tc main_arg14)).trans ((W2_of_ne m ρ c main_arg14 (by decide)).trans ((by host_keeps : W1 m ρ c (Proc.devRef .tc main_arg14) = W0 m ρ c (Proc.devRef .tc main_arg14))))))))))
theorem keep_main_arg16_9_0 : W9 m ρ c (Proc.devRef .tc main_arg16) = W0 m ρ c (Proc.devRef .tc main_arg16) :=
  (by host_keeps : W9 m ρ c (Proc.devRef .tc main_arg16) = W8 m ρ c (Proc.devRef .tc main_arg16)).trans ((W8_of_ne m ρ c main_arg16 (by decide)).trans ((by host_keeps : W7 m ρ c (Proc.devRef .tc main_arg16) = W6 m ρ c (Proc.devRef .tc main_arg16)).trans ((W6_of_ne m ρ c main_arg16 (by decide)).trans ((by host_keeps : W5 m ρ c (Proc.devRef .tc main_arg16) = W4 m ρ c (Proc.devRef .tc main_arg16)).trans ((W4_of_ne m ρ c main_arg16 (by decide)).trans ((by host_keeps : W3 m ρ c (Proc.devRef .tc main_arg16) = W2 m ρ c (Proc.devRef .tc main_arg16)).trans ((W2_of_ne m ρ c main_arg16 (by decide)).trans ((by host_keeps : W1 m ρ c (Proc.devRef .tc main_arg16) = W0 m ρ c (Proc.devRef .tc main_arg16))))))))))
theorem keep_main_arg15_8_0 : W8 m ρ c (Proc.devRef .tc main_arg15) = W0 m ρ c (Proc.devRef .tc main_arg15) :=
  (W8_of_ne m ρ c main_arg15 (by decide)).trans ((by host_keeps : W7 m ρ c (Proc.devRef .tc main_arg15) = W6 m ρ c (Proc.devRef .tc main_arg15)).trans ((W6_of_ne m ρ c main_arg15 (by decide)).trans ((by host_keeps : W5 m ρ c (Proc.devRef .tc main_arg15) = W4 m ρ c (Proc.devRef .tc main_arg15)).trans ((W4_of_ne m ρ c main_arg15 (by decide)).trans ((by host_keeps : W3 m ρ c (Proc.devRef .tc main_arg15) = W2 m ρ c (Proc.devRef .tc main_arg15)).trans ((W2_of_ne m ρ c main_arg15 (by decide)).trans ((by host_keeps : W1 m ρ c (Proc.devRef .tc main_arg15) = W0 m ρ c (Proc.devRef .tc main_arg15)))))))))

end Keeps

end Cert.KernelIdeal.Stretch

end
-- ==== Proof.NetFacts.lean ====
/-
  Small facts that join the kernel's regions to the network in its quotient form.

  The kernel's regions take the neighbourhood mean as the product of the row sums with a column of
  reciprocals `1 / max (deg r) 1` prepared on the host, and take each bias as a one-row matrix; the
  network is written with the quotient by `max (deg r) 1` and with the bias as a vector. Here: the
  host's column read at a row is that reciprocal (a vector stood up as a column reads the vector, a
  quotient of vectors is taken entry by entry, the vector of ones reads the word of `1.0` everywhere);
  a vector laid down as a one-row matrix reads the vector; and with these, and the law that a product
  with `1 / d` is the quotient by `d` when `d` is not zero, each layer in the product form is the layer
  in the quotient form.
-/
import proofs.«101096_j17824114278988_1_alg».proof.Proof.Net
import Idealize.ShloMosaic.Lib.Pipeline.Value
import Idealize.ShloMosaic.Lib.ValueIdx
import Idealize.ShloMosaic.Lib.ValueLayout

noncomputable section

namespace Cert.NetFacts

open Cert.KernelIdeal Cert.KernelIdeal.Facts₀ Cert.KernelIdeal.Facts Idealize.ShloMosaic Idealize.ShloMosaic.ValueIdx

/-! ## Layout steps -/

/-- An `[a]` array cast to `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The vector of ones reads the single-precision word of `1.0` at every node. -/
theorem onesN_apply (j : S100000.Idx) : Net.onesN j = Spec.one := by
  unfold Net.onesN
  exact broadcastInDim_apply (![] : Fin 0 → Fin S100000.rank) bcast_S_S100000
    (constant (F := Ideal) S_ .f32 0x3F800000#32) j (fun a => a.elim0) (fun a => a.elim0)

/-! ## The reciprocal column and the bias rows -/

/-- A quotient of a vector by the entrywise maximum of two vectors, read at an entry. -/
theorem hostDivf_max_apply (a d o : FVec Ideal S100000 .f32) (j : S100000.Idx) :
    Host.divf (F := Ideal) a (maximumf (F := Ideal) d o) j = Ideal.div (a j) (max (d j) (o j)) := rfl

/-- The floored degree is the entrywise maximum of the degree and the vector of ones. -/
theorem dmax_eq (ei : Net.Edges) : Net.dmax ei = maximumf (F := Ideal) (Net.deg ei) Net.onesN := rfl

/-- The host's column of reciprocals at row `r`: the word of `1.0` over the degree floored at that word. -/
theorem inv_apply (ei : Net.Edges) (r : Fin 100000) :
    Net.inv ei (ix2 r 0) = Ideal.div Spec.one (max (Net.deg ei (ix1 r)) Spec.one) := by
  unfold Net.inv
  rw [shapeCast_a_a1_apply, dmax_eq, hostDivf_max_apply, onesN_apply]

/-- (F1) The host's column of reciprocals, read at a row, is one over the degree floored at one. -/
theorem col_inv (ei : Net.Edges) : Spec.col (Net.inv ei) = Spec.recip (Spec.floorOne (Spec.cur1 (Net.deg ei))) := by
  funext r
  unfold Spec.recip Spec.floorOne
  exact inv_apply ei r

/-- (F2) A sixty-four-entry bias laid down as a one-row matrix reads the bias. -/
theorem row_bias64 (b : FVec Ideal S64 .f32) : Spec.row (shapeCast S1x64 b shapeCasts_S64_S1x64) = Spec.cur1 b := by
  funext q
  exact shapeCast_a_1a_apply b shapeCasts_S64_S1x64 0 q

/-- (F2) An eighteen-entry bias laid down as a one-row matrix reads the bias. -/
theorem row_bias18 (b : FVec Ideal S18 .f32) : Spec.row (shapeCast S1x18 b shapeCasts_S18_S1x18) = Spec.cur1 b := by
  funext q
  exact shapeCast_a_1a_apply b shapeCasts_S18_S1x18 0 q

/-! ## The layers in the product form are the layers in the quotient form -/

/-- (F3) The embedding with the bias as a one-row matrix is the network's embedding. -/
theorem h0_of_row (x : FVec Ideal S100000x100 .f32) (w : FVec Ideal S100x64 .f32) (b : FVec Ideal S64 .f32) :
    (fun i => Spec.embed (Spec.cur x) (Spec.cur w) (Spec.row (shapeCast S1x64 b shapeCasts_S64_S1x64)) (i 0) (i 1))
      = Net.h0 x w b := by
  unfold Net.h0
  rw [row_bias64]

/-- (F4) A clamped layer whose mean is the product with the host's reciprocal column is the network's layer. -/
theorem layer_of_mul (h agg : FVec Ideal S100000x64 .f32) (ei : Net.Edges) (wl : FVec Ideal S64x64 .f32)
    (bl : FVec Ideal S64 .f32) (wr : FVec Ideal S64x64 .f32) :
    (fun i => Spec.sageRelu (Spec.meanMul (Spec.cur agg) (Spec.col (Net.inv ei))) (Spec.cur h) (Spec.cur wl)
        (Spec.row (shapeCast S1x64 bl shapeCasts_S64_S1x64)) (Spec.cur wr) (i 0) (i 1))
      = Net.layer h agg ei wl bl wr := by
  unfold Net.layer
  rw [col_inv, row_bias64, Spec.meanMul_floorOne]

/-- (F5) The last layer whose mean is the product with the host's reciprocal column is the network's last layer. -/
theorem last_of_mul (h agg : FVec Ideal S100000x64 .f32) (ei : Net.Edges) (wl : FVec Ideal S64x18 .f32)
    (bl : FVec Ideal S18 .f32) (wr : FVec Ideal S64x18 .f32) :
    (fun i => Spec.sage (Spec.meanMul (Spec.cur agg) (Spec.col (Net.inv ei))) (Spec.cur h) (Spec.cur wl)
        (Spec.row (shapeCast S1x18 bl shapeCasts_S18_S1x18)) (Spec.cur wr) (i 0) (i 1))
      = Net.last h agg ei wl bl wr := by
  unfold Net.last
  rw [col_inv, row_bias18, Spec.meanMul_floorOne]

end Cert.NetFacts

end
-- ==== Proof.Region0.lean ====
/-
  The embedding region of the kernel, read as one function of whole arrays.

  The region has twenty grid points. Point `t` takes rows `5000·t … 5000·t + 4999` of the input
  matrix, the whole weight matrix and the whole bias row, and writes the same rows of the output.
  Its body forms, for a row `p` of the block and a column `q`,

      max (Σ_k x p k · w k q + b q) 0 :

  the change of format before the product is the identity on the extended reals, a product
  accumulated into a zero matrix is the plain sum over the contracted coordinate (the zero word is
  the extended real `0`), and the one-row bias is repeated down the rows. So what a point writes back
  is the rows `5000·t …` of the embedding of the whole arrays, the twenty blocks tile the output, and
  the output array ends holding the embedding at every index.
-/
import proofs.«101096_j17824114278988_1_alg».proof.Proof.Gen.KernelIdeal.Frame
import proofs.«101096_j17824114278988_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx

/-! ## The body's product at an index -/

/-- The product's left index keeps the output's row. -/
theorem lhs_row (i : S5000x64.Idx) (k : dot_S5000x100_S100x64_S5000x64_1_0_0_1_n_n.contr.Idx) :
    (dot_S5000x100_S100x64_S5000x64_1_0_0_1_n_n.lhsIdx i k 0).val = (i 0).val := by
  unfold DotDims.lhsIdx
  rw [dif_neg (show ¬(0 : Fin S5000x100.rank) ∈ dot_S5000x100_S100x64_S5000x64_1_0_0_1_n_n.lhsBatch by decide),
    dif_pos (show (0 : Fin S5000x100.rank) ∈ dot_S5000x100_S100x64_S5000x64_1_0_0_1_n_n.lhsNonContracting by decide)]
  rfl

/-- The product's right index keeps the output's column. -/
theorem rhs_col (i : S5000x64.Idx) (k : dot_S5000x100_S100x64_S5000x64_1_0_0_1_n_n.contr.Idx) :
    (dot_S5000x100_S100x64_S5000x64_1_0_0_1_n_n.rhsIdx i k 1).val = (i 1).val := by
  unfold DotDims.rhsIdx
  rw [dif_neg (show ¬(1 : Fin S100x64.rank) ∈ dot_S5000x100_S100x64_S5000x64_1_0_0_1_n_n.rhsBatch by decide),
    dif_pos (show (1 : Fin S100x64.rank) ∈ dot_S5000x100_S100x64_S5000x64_1_0_0_1_n_n.rhsNonContracting by decide)]
  rfl

/-- A product accumulated into the zero matrix, at row `p` and column `q`: the sum over the
    contracted coordinate of row `p` of the left factor against column `q` of the right one. -/
theorem matmul_at (x : FVec Ideal S5000x100 .bf16) (w : FVec Ideal S100x64 .bf16) (p : Fin 5000) (q : Fin 64) :
    matmul dot_S5000x100_S100x64_S5000x64_1_0_0_1_n_n none x w (constant S5000x64 .f32 0x00000000#32) (ix2 p q)
      = ∑ k : Fin 100, x (ix2 p k) * w (ix2 k q) := by
  show FloatOps.matmul dot_S5000x100_S100x64_S5000x64_1_0_0_1_n_n none x w (constant S5000x64 .f32 0x00000000#32) (ix2 p q) = _
  rw [Ideal.matmul_constant_zero_apply,
    ← Equiv.sum_comp (contrEquiv1 dot_S5000x100_S100x64_S5000x64_1_0_0_1_n_n 100 rfl rfl).symm]
  refine Finset.sum_congr rfl fun k _ => ?_
  have hk := contrEquiv1_symm_val dot_S5000x100_S100x64_S5000x64_1_0_0_1_n_n 100 rfl rfl k
  have el : dot_S5000x100_S100x64_S5000x64_1_0_0_1_n_n.lhsIdx (ix2 p q)
      ((contrEquiv1 dot_S5000x100_S100x64_S5000x64_1_0_0_1_n_n 100 rfl rfl).symm k) = ix2 p k :=
    funext fun a => Fin.ext (by
      match a with
      | ⟨0, _⟩ => exact lhs_row _ _
      | ⟨1, _⟩ => exact (dot_S5000x100_S100x64_S5000x64_1_0_0_1_n_n.lhsIdx_val_of_single rfl _ _).trans hk)
  have er : dot_S5000x100_S100x64_S5000x64_1_0_0_1_n_n.rhsIdx (ix2 p q)
      ((contrEquiv1 dot_S5000x100_S100x64_S5000x64_1_0_0_1_n_n 100 rfl rfl).symm k) = ix2 k q :=
    funext fun a => Fin.ext (by
      match a with
      | ⟨0, _⟩ => exact (dot_S5000x100_S100x64_S5000x64_1_0_0_1_n_n.rhsIdx_val_of_single rfl _ _).trans hk
      | ⟨1, _⟩ => exact rhs_col _ _)
  rw [el, er]

/-! ## The body's result at an index -/

/-- What the body stores, at row `p` and column `q` of the block: the embedding of the three loaded
    blocks there. -/
theorem pay_at (x : Vec Ideal S5000x100 .f32) (w : Vec Ideal S100x64 .f32) (b : Vec Ideal S1x64 .f32)
    (p : Fin 5000) (q : Fin 64) :
    Gen.k0_pay1 (F := Ideal) x w b (ix2 p q) = Spec.embed (Spec.cur x) (Spec.cur w) (Spec.row b) p q := by
  have h1 : Gen.k0_pay1 (F := Ideal) x w b (ix2 p q)
      = max (matmul dot_S5000x100_S100x64_S5000x64_1_0_0_1_n_n none
                (truncf .bf16 x bitsLt_bf16_f32 : FVec Ideal S5000x100 .bf16)
                (truncf .bf16 w bitsLt_bf16_f32 : FVec Ideal S100x64 .bf16)
                (constant S5000x64 .f32 0x00000000#32) (ix2 p q)
              + broadcastTo S5000x64 (shapeCast S1x64 b shapeCasts_S1x64_S1x64) broadcasts_S1x64_S5000x64 (ix2 p q))
            (Ideal.ofBits .f32 0x00000000#32) := rfl
  rw [h1, matmul_at, broadcastTo_1b_ab_apply, shapeCast_self, Ideal.ofBits_zero_f32]
  rfl

/-! ## The blocks as rows of the arrays -/

theorem hz : (![0, 0] : Fin 2 → Nat) = fun _ => 0 := funext fun a => by fin_cases a <;> rfl

/-- Row `p` of the block at a point `n` below twenty is row `5000·n + p` of the array. -/
def rowOf (n : ℕ) (hn : n < 20) (p : Fin 5000) : Fin 100000 := ⟨n * 5000 + p.val, by have := p.isLt; omega⟩

theorem lt20 (t : Fin cfg0.N) : t.val < 20 := by
  have h := t.isLt; have hN : cfg0.N = 20 := Gen.N_0; omega

/-- Where the blocks sit, decided over the twenty points: the input's and the output's block at point `t`
    is the `t`-th block of rows and all columns; the weights' and the bias's block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Arrays

variable (V : (c : Dev nD) → (b : Ref sig .tc) → Buf (Elt Ideal) ((c : Thread nD τ).loc b))

/-- The three input blocks at point `t`, at their literal shapes. -/
abbrev bX (c : Dev nD) (t : Fin cfg0.N) : Vec Ideal S5000x100 .f32 := Gen.iblk0 V c 0 t
abbrev bW (c : Dev nD) (t : Fin cfg0.N) : Vec Ideal S100x64 .f32 := Gen.iblk0 V c 1 t
abbrev bB (c : Dev nD) (t : Fin cfg0.N) : Vec Ideal S1x64 .f32 := Gen.iblk0 V c 2 t

/-- The three arrays as the region finds them, at their literal shapes. -/
abbrev aX (c : Dev nD) : S100000x100.Idx → EReal := V c main_arg0
abbrev aW (c : Dev nD) : S100x64.Idx → EReal := V c main_arg3
abbrev aB (c : Dev nD) : S1x64.Idx → EReal := V c main_v13

/-- The input's block at point `t`: rows `5000·t …` of the input array. -/
theorem blk_x (c : Dev nD) (t : Fin cfg0.N) (p : Fin 5000) (k : Fin 100) :
    bX V c t (ix2 p k) = aX V c (ix2 (rowOf t.val (lt20 t) p) k) := by
  obtain ⟨e0, e1, -⟩ := idx_facts t
  unfold bX Gen.iblk0
  rw [View.read_apply]
  show aX V c _ = _
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 100 + 1 * k.val = k.val; rw [e1]; omega

/-- The weights' block at every point is the weight array. -/
theorem blk_w (c : Dev nD) (t : Fin cfg0.N) (k : Fin 100) (q : Fin 64) :
    bW V c t (ix2 k q) = aW V c (ix2 k q) := by
  obtain ⟨-, -, e0, e1, -⟩ := idx_facts t
  unfold bW Gen.iblk0
  rw [View.read_apply]
  show aW V c _ = _
  congr 1
  funext a
  apply Fin.ext
  match a with
  | ⟨0, _⟩ => show win0_1.index t (0 : Fin 2) * 100 + 1 * k.val = k.val; rw [e0]; omega
  | ⟨1, _⟩ => show win0_1.index t (1 : Fin 2) * 64 + 1 * q.val = q.val; rw [e1]; omega

/-- The bias's block at every point is the bias row. -/
theorem blk_b (c : Dev nD) (t : Fin cfg0.N) (q : Fin 64) :
    bB V c t (ix2 0 q) = aB V c (ix2 0 q) := by
  obtain ⟨-, -, -, -, e0, e1, -⟩ := idx_facts t
  unfold bB Gen.iblk0
  rw [View.read_apply]
  show aB V c _ = _
  congr 1
  funext a
  apply Fin.ext
  match a with
  | ⟨0, _⟩ => show win0_2.index t (0 : Fin 2) * 1 + 1 * (0 : Fin 1).val = (0 : Fin 1).val; rw [e0]; rfl
  | ⟨1, _⟩ => show win0_2.index t (1 : Fin 2) * 64 + 1 * q.val = q.val; rw [e1]; omega

/-! ## From the blocks to the array -/

/-- The embedding of the whole arrays as the region finds them. -/
abbrev arr (c : Dev nD) : S100000x64.Idx → EReal := fun i =>
  Spec.embed (Spec.cur (aX V c)) (Spec.cur (aW V c)) (Spec.row (aB V c)) (i 0) (i 1)

/-- The body's result at point `t`, at row `p` and column `q` of the block, is the embedding of the whole
    arrays at row `5000·t + p` and column `q`. -/
theorem point_at (c : Dev nD) (t : Fin cfg0.N) (p : Fin 5000) (q : Fin 64) :
    Gen.k0_pay1 (F := Ideal) (bX V c t) (bW V c t) (bB V c t) (ix2 p q)
      = Spec.embed (Spec.cur (aX V c)) (Spec.cur (aW V c)) (Spec.row (aB V c)) (rowOf t.val (lt20 t) p) q := by
  refine (pay_at (bX V c t) (bW V c t) (bB V c t) p q).trans ?_
  unfold Spec.embed Spec.lin
  show max ((∑ k : Fin 100, bX V c t (ix2 p k) * bW V c t (ix2 k q)) + bB V c t (ix2 0 q)) 0
    = max ((∑ k : Fin 100, aX V c (ix2 (rowOf t.val (lt20 t) p) k) * aW V c (ix2 k q)) + aB V c (ix2 0 q)) 0
  rw [blk_b V c t q, Finset.sum_congr rfl fun k _ => by rw [blk_x V c t p k, blk_w V c t k q]]

/-- An index of the output array is in point `t`'s block iff each coordinate is in the block's range. -/
theorem mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v14).slice (win0_3.rect t)).set ↔ _
  rw [View.set_slice_whole, Rect.mem_set_unit]
  exact Iff.rfl

/-- What point `t` writes back is block `t` of the embedding of the whole arrays. -/
theorem flushed_eq (c : Dev nD) (t : Fin cfg0.N) :
    (Gen.dat0 (F := Ideal) V c).flushed 3 t = ((cfg0.win 3).blk t).view.read (Elt Ideal) (arr V c) := by
  show (cfg0.win 3).cut (grid0.coords t) ((Gen.dat0 (F := Ideal) V c).after 3 t) = _
  rw [Gen.after0_3]
  unfold Gen.out0_3
  rw [View.canon_unit_zero hz]
  simp only [View.ld_unit_zero (S := S5000x100) hz, View.ld_unit_zero (S := S100x64) hz, View.ld_unit_zero (S := S1x64) hz]
  obtain ⟨-, -, -, -, -, -, e0, e1⟩ := idx_facts t
  funext j
  have h0 : (j 0).val < 5000 := (j 0).isLt
  have h1 : (j 1).val < 64 := (j 1).isLt
  have ej : j = ix2 (⟨(j 0).val, h0⟩ : Fin 5000) (⟨(j 1).val, h1⟩ : Fin 64) := by
    funext a; match a with | ⟨0, _⟩ => rfl | ⟨1, _⟩ => rfl
  have hemb : ((cfg0.win 3).blk t).view.emb j
      = ix2 (rowOf t.val (lt20 t) ⟨(j 0).val, h0⟩) (⟨(j 1).val, h1⟩ : Fin 64) := by
    funext a
    apply Fin.ext
    match a with
    | ⟨0, _⟩ => show win0_3.index t (0 : Fin 2) * 5000 + 1 * (j 0).val = t.val * 5000 + (j 0).val; rw [e0]; omega
    | ⟨1, _⟩ => show win0_3.index t (1 : Fin 2) * 64 + 1 * (j 1).val = (j 1).val; rw [e1]; omega
  show Gen.k0_pay1 (F := Ideal) (bX V c t) (bW V c t) (bB V c t) j = arr V c (((cfg0.win 3).blk t).view.emb j)
  refine (congrArg (Gen.k0_pay1 (F := Ideal) (bX V c t) (bW V c t) (bB V c t)) ej).trans ?_
  refine (point_at V c t ⟨(j 0).val, h0⟩ ⟨(j 1).val, h1⟩).trans ?_
  exact (congrArg (arr V c) hemb).symm

/-- The output array after the region: the embedding of the input, the weights and the bias row as the
    region finds them, at every index — the twenty blocks of rows tile the array. -/
theorem final (c : Dev nD) : (Gen.dat0 (F := Ideal) V c).arrAt 3 cfg0.N = fun i =>
    Spec.embed (Spec.cur (V c main_arg0 : S100000x100.Idx → EReal)) (Spec.cur (V c main_arg3 : S100x64.Idx → EReal))
      (Spec.row (V c main_v13 : S1x64.Idx → EReal)) (i 0) (i 1) :=
  (Gen.dat0 (F := Ideal) V c).arrAt_eq_of_cover 3 (arr V c) (fun t _ => flushed_eq V c t) fun i => by
    have hi0 : (i 0).val < 100000 := (i 0).isLt
    have hi1 : (i 1).val < 64 := (i 1).isLt
    have hN : cfg0.N = 20 := Gen.N_0
    have ht : (i 0).val / 5000 < cfg0.N := by omega
    obtain ⟨-, -, -, -, -, -, e0, e1⟩ := idx_facts ⟨(i 0).val / 5000, ht⟩
    refine ⟨⟨(i 0).val / 5000, ht⟩, Gen.flush0_3 _, ?_⟩
    rw [mem_blk]
    intro a
    match a with
    | ⟨0, _⟩ =>
      show win0_3.index ⟨(i 0).val / 5000, ht⟩ (0 : Fin 2) * 5000 ≤ (i 0).val
        ∧ (i 0).val < win0_3.index ⟨(i 0).val / 5000, ht⟩ (0 : Fin 2) * 5000 + 5000
      rw [e0]; show (i 0).val / 5000 * 5000 ≤ (i 0).val ∧ (i 0).val < (i 0).val / 5000 * 5000 + 5000; omega
    | ⟨1, _⟩ =>
      show win0_3.index ⟨(i 0).val / 5000, ht⟩ (1 : Fin 2) * 64 ≤ (i 1).val
        ∧ (i 1).val < win0_3.index ⟨(i 0).val / 5000, ht⟩ (1 : Fin 2) * 64 + 64
      rw [e1]; omega

end Arrays

end Cert.KernelIdeal.Region0

end
-- ==== Proof.Region1.lean ====
/-
  Layer one of the graph network, on the kernel's side: what the region leaves in its output array.

  At every one of its 20 grid points the body loads a block of 5000 rows of the aggregated features, the
  matching 5000 entries of the column of reciprocal degrees and 5000 rows of the node features, together
  with the whole of two 64 × 64 weight matrices and of a bias row, and stores ONE value: with
  `mean r k = agg r k · inv r`,

      out r q = (Σ_k mean r k · Wl k q + bl q) + Σ_k h r k · Wr k q,
      stored r q = max (out r q / max (sqrt (Σ_j out r j ²)) ε) 0.

  On the extended reals a change of float format is the identity, a matrix product accumulated into a zero
  block is the plain sum over the contraction index, and the sum along the lanes is the sum over the 64
  columns; so the stored value at (p, q) is the specification's clamped layer at (p, q) of the blocks (\`pay_at\`).
  Row `p` of that layer reads row `p` of the mean and of the features only, and point `t`'s blocks are rows
  `5000 t … 5000 t + 4999` of the arrays, so what point `t` writes back is block `t` of the layer of the
  whole arrays (`flushed_eq`); the 20 blocks tile the 100000 rows (`cover`), hence the output array ends
  holding that layer (`final`), whatever the contents the region is entered at.
-/
import proofs.«101096_j17824114278988_1_alg».proof.Proof.Gen.KernelIdeal.Frame
import proofs.«101096_j17824114278988_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region1

open Idealize.ShloMosaic Idealize.ShloMosaic.TcCoe Idealize.ShloMosaic.ValueIdx Idealize.SL.Sem Cert.KernelIdeal Cert.KernelIdeal.Gen
open Idealize.ShloMosaic.Pipeline (Dat)

variable {α : Type}

/-! ## Layout operations the body uses, read at an index given by its coordinates -/

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the lanes of a `[5000, 64]` block, at row `p`: the sum over the 64 columns of that row. -/
theorem laneSum (src : FVec Ideal S5000x64 .f32) (h : S5000x64.Reduces [1] S5000)
    (hacc : (0x00000000#32 : BitVec 32) = 0x00000000#32) (p : Fin 5000) :
    multiReduction .add [1] S5000 src 0x00000000#32 h (.inl rfl) hacc (ix1 p) = ∑ k : Fin 64, src (ix2 p k) := by
  refine (Ideal.multiReduction_add_single src 0x00000000#32 h (.inl rfl) hacc (ix1 p)).trans ?_
  refine Finset.sum_congr rfl fun k _ => congrArg src ?_
  funext a
  match a with
  | ⟨0, _⟩ => exact Fin.ext rfl
  | ⟨1, _⟩ => exact Fin.ext rfl

/-- The left operand's index of the `[5000, 64] × [64, 64]` product, row coordinate: the output's row. -/
theorem lhs_0 (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … column coordinate: the contraction index. -/
theorem lhs_1 (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k
/-- The right operand's index, row coordinate: the contraction index. -/
theorem rhs_0 (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k
/-- … column coordinate: the output's column. -/
theorem rhs_1 (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A `[5000, 64]` block times a `[64, 64]` matrix, accumulated into zero, at `(p, q)`: row `p` against column `q`. -/
theorem matmul_at (x : FVec Ideal S5000x64 .bf16) (w : FVec Ideal S64x64 .bf16) (p : Fin 5000) (q : Fin 64) :
    matmul dot_S5000x64_S64x64_S5000x64_1_0_0_1_n_n none x w (constant S5000x64 .f32 0x00000000#32) (ix2 p q)
      = ∑ k : Fin 64, x (ix2 p k) * w (ix2 k q) := by
  refine (Ideal.matmul_constant_zero_apply dot_S5000x64_S64x64_S5000x64_1_0_0_1_n_n none x w (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ => exact lhs_0 _ _
      | ⟨1, _⟩ => exact (lhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (rhs_0 _ _).trans hk
      | ⟨1, _⟩ => exact rhs_1 _ _)
  rw [el, er]

/-! ## The body's arithmetic at an index -/

/-- The layer before its normalisation, as the body computes it from its loaded blocks: the rows of `agg` scaled by
    the reciprocal column, through `wl`, plus the bias row, plus the features through `wr`. -/
def preV (agg : Vec Ideal S5000x64 .f32) (inv : Vec Ideal S5000x1 .f32) (h : Vec Ideal S5000x64 .f32)
    (wl wr : Vec Ideal S64x64 .f32) (bl : Vec Ideal S1x64 .f32) : FVec Ideal S5000x64 .f32 :=
  addf (addf
      (matmul dot_S5000x64_S64x64_S5000x64_1_0_0_1_n_n none
        (truncf .bf16 (mulf (shapeCast S5000x64 agg shapeCasts_S5000x64_S5000x64)
          (broadcastTo S5000x64 (shapeCast S5000x1 inv shapeCasts_S5000x1_S5000x1) broadcasts_S5000x1_S5000x64)) bitsLt_bf16_f32)
        (truncf .bf16 wl bitsLt_bf16_f32) (constant S5000x64 .f32 0x00000000#32))
      (broadcastTo S5000x64 (shapeCast S1x64 bl shapeCasts_S1x64_S1x64) broadcasts_S1x64_S5000x64))
    (matmul dot_S5000x64_S64x64_S5000x64_1_0_0_1_n_n none
      (truncf .bf16 (shapeCast S5000x64 h shapeCasts_S5000x64_S5000x64) bitsLt_bf16_f32)
      (truncf .bf16 wr bitsLt_bf16_f32) (constant S5000x64 .f32 0x00000000#32))

/-- The payload is the clamp at zero of `preV` divided, row by row, by its floored length. -/
theorem pay_eq (agg : Vec Ideal S5000x64 .f32) (inv : Vec Ideal S5000x1 .f32) (h : Vec Ideal S5000x64 .f32)
    (wl wr : Vec Ideal S64x64 .f32) (bl : Vec Ideal S1x64 .f32) :
    Gen.k1_pay1 (F := Ideal) agg inv h wl wr bl
      = maximumf (divf (preV agg inv h wl wr bl)
          (broadcastTo S5000x64
            (maximumf (sqrt (shapeCast S5000x1
                (multiReduction .add [1] S5000 (mulf (preV agg inv h wl wr bl) (preV agg inv h wl wr bl)) 0x00000000#32
                  reduces_S5000x64_S5000 (.inl rfl) rfl) shapeCasts_S5000_S5000x1))
              (broadcast S5000x1 (Scalar.ofBits .f32 0x2B8CBCCC#32)))
            broadcasts_S5000x1_S5000x64))
          (broadcast S5000x64 (Scalar.ofBits .f32 0x00000000#32)) := rfl

/-- `preV` at `(p, q)` is the specification's layer before its normalisation. -/
theorem preV_apply (agg : Vec Ideal S5000x64 .f32) (inv : Vec Ideal S5000x1 .f32) (h : Vec Ideal S5000x64 .f32)
    (wl wr : Vec Ideal S64x64 .f32) (bl : Vec Ideal S1x64 .f32) (p : Fin 5000) (q : Fin 64) :
    preV agg inv h wl wr bl (ix2 p q)
      = Spec.pre (Spec.meanMul (Spec.cur agg) (Spec.col inv)) (Spec.cur h) (Spec.cur wl) (Spec.row bl) (Spec.cur wr) p q := by
  unfold preV
  simp only [shapeCast_self]
  rw [addf_apply, addf_apply, matmul_at, matmul_at, broadcastTo_1b_ab_apply]
  unfold Spec.pre Spec.lin Spec.meanMul
  refine congrArg₂ (· + ·) (congrArg₂ (· + ·) (Finset.sum_congr rfl fun k _ => ?_) rfl) (Finset.sum_congr rfl fun k _ => ?_)
  · rw [truncf_apply, truncf_apply, mulf_apply, broadcastTo_a1_ab_apply]
  · rw [truncf_apply, truncf_apply]

/-- The square root of a vector, at an index. -/
theorem sqrt_apply {s : Shape} {φ : FTy} (a : FVec Ideal s φ) (i : s.Idx) : sqrt a i = Ideal.sqrt (a i) := rfl

/-- THE PAYLOAD AT AN INDEX: the body's one stored value at `(p, q)` is the clamped, normalised layer of the specification,
    of the neighbourhood mean `agg · inv`, the features, the two weight matrices and the bias, at row `p`, column `q`. -/
theorem pay_at (agg : Vec Ideal S5000x64 .f32) (inv : Vec Ideal S5000x1 .f32) (h : Vec Ideal S5000x64 .f32)
    (wl : Vec Ideal S64x64 .f32) (wr : Vec Ideal S64x64 .f32) (bl : Vec Ideal S1x64 .f32) (p : Fin 5000) (q : Fin 64) :
    Gen.k1_pay1 (F := Ideal) agg inv h wl wr bl (ValueIdx.ix2 p q)
      = Spec.sageRelu (Spec.meanMul (Spec.cur agg) (Spec.col inv)) (Spec.cur h) (Spec.cur wl) (Spec.row bl) (Spec.cur wr) p q := by
  rw [pay_eq, maximumf_apply, divf_apply, broadcast_apply, broadcastTo_a1_ab_apply, maximumf_apply, broadcast_apply,
    sqrt_apply, shapeCast_a_a1_apply, laneSum, preV_apply]
  simp only [mulf_apply, preV_apply]
  unfold Spec.sageRelu Spec.sage Spec.normalize Spec.len Spec.eps
  show max (Ideal.div _ (max (Ideal.sqrt _) (Ideal.ofBits .f32 0x2B8CBCCC#32))) (Ideal.ofBits .f32 0x00000000#32) = _
  rw [Ideal.ofBits_zero_f32]

/-- A layer's entry in row `r` reads the mean and the features in row `r` only. -/
theorem sageRelu_congr {N N' K C : ℕ} (mean : Fin N → Fin K → EReal) (mean' : Fin N' → Fin K → EReal)
    (h : Fin N → Fin K → EReal) (h' : Fin N' → Fin K → EReal) (wl : Fin K → Fin C → EReal) (bl : Fin C → EReal)
    (wr : Fin K → Fin C → EReal) (r : Fin N) (r' : Fin N') (hm : ∀ k, mean r k = mean' r' k) (hh : ∀ k, h r k = h' r' k)
    (q : Fin C) : Spec.sageRelu mean h wl bl wr r q = Spec.sageRelu mean' h' wl bl wr r' q := by
  unfold Spec.sageRelu Spec.sage Spec.normalize Spec.len Spec.pre Spec.lin
  simp only [hm, hh]

/-- One clamped layer as a function of whole arrays, index by index: the aggregated rows `A`, the reciprocal column `I`,
    the features `H`, the weights `Wl`, `Wr` and the bias row `B`. -/
def layer (A : S100000x64.Idx → EReal) (I : S100000x1.Idx → EReal) (H : S100000x64.Idx → EReal)
    (Wl : S64x64.Idx → EReal) (B : S1x64.Idx → EReal) (Wr : S64x64.Idx → EReal) : S100000x64.Idx → EReal :=
  fun i => Spec.sageRelu (Spec.meanMul (Spec.cur A) (Spec.col I)) (Spec.cur H) (Spec.cur Wl) (Spec.row B) (Spec.cur Wr) (i 0) (i 1)

/-- AT ONE GRID POINT: if the three row blocks are rows `5000 n …` of the arrays and the weight and bias blocks are the whole
    arrays, the body's value at a block index is the layer of the arrays at the array index `5000 n` rows further down. -/
theorem point_eq (A : S100000x64.Idx → EReal) (I : S100000x1.Idx → EReal) (H : S100000x64.Idx → EReal)
    (Wl : S64x64.Idx → EReal) (B : S1x64.Idx → EReal) (Wr : S64x64.Idx → EReal)
    (agg : Vec Ideal S5000x64 .f32) (inv : Vec Ideal S5000x1 .f32) (h : Vec Ideal S5000x64 .f32)
    (wl : Vec Ideal S64x64 .f32) (wr : Vec Ideal S64x64 .f32) (bl : Vec Ideal S1x64 .f32) (n : ℕ)
    (hagg : ∀ (y : S5000x64.Idx) (i : S100000x64.Idx), (i 0).val = 5000 * n + (y 0).val → (i 1).val = (y 1).val → agg y = A i)
    (hinv : ∀ (y : S5000x1.Idx) (i : S100000x1.Idx), (i 0).val = 5000 * n + (y 0).val → (i 1).val = (y 1).val → inv y = I i)
    (hh : ∀ (y : S5000x64.Idx) (i : S100000x64.Idx), (i 0).val = 5000 * n + (y 0).val → (i 1).val = (y 1).val → h y = H i)
    (hwl : wl = Wl) (hbl : bl = B) (hwr : wr = Wr)
    (y : S5000x64.Idx) (i : S100000x64.Idx) (h0 : (i 0).val = 5000 * n + (y 0).val) (h1 : (i 1).val = (y 1).val) :
    Gen.k1_pay1 (F := Ideal) agg inv h wl wr bl y = layer A I H Wl B Wr i := by
  subst hwl hbl hwr
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  have hr : r.val = 5000 * n + p.val := h0
  obtain rfl : s = q := Fin.ext h1
  rw [pay_at]
  show Spec.sageRelu _ _ _ _ _ p s = Spec.sageRelu _ _ _ _ _ r s
  refine sageRelu_congr _ _ _ _ _ _ _ p r (fun k => ?_) (fun k => ?_) s
  · show agg (ix2 p k) * inv (ix2 p 0) = A (ix2 r k) * I (ix2 r 0)
    rw [hagg (ix2 p k) (ix2 r k) hr rfl, hinv (ix2 p 0) (ix2 r 0) hr rfl]
  · exact hh (ix2 p k) (ix2 r k) hr rfl

/-! ## From the blocks to the array -/

section Array

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 grid points: the three row-blocked inputs and the output sit at block row
    `t`, block column 0; the two weight matrices and the bias row at block (0, 0) throughout. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 0's block at point `t` is rows `5000 t …` of the aggregated array. -/
theorem blk0_apply (c : Dev nD) (t : Fin cfg1.N) (y : S5000x64.Idx) (i : S100000x64.Idx)
    (h0 : (i 0).val = 5000 * t.val + (y 0).val) (h1 : (i 1).val = (y 1).val) :
    (iblk1 V c 0 t : Vec Ideal S5000x64 .f32) y = (V c main_v27 : S100000x64.Idx → EReal) i := by
  obtain ⟨e0, e1, -⟩ := idx_facts t
  unfold iblk1
  rw [View.read_apply]
  show V c main_v27 _ = V c main_v27 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 64 + 1 * (y 1).val = (i 1).val; rw [e1, h1]; omega

/-- Window 1's block at point `t` is rows `5000 t …` of the reciprocal column. -/
theorem blk1_apply (c : Dev nD) (t : Fin cfg1.N) (y : S5000x1.Idx) (i : S100000x1.Idx)
    (h0 : (i 0).val = 5000 * t.val + (y 0).val) (h1 : (i 1).val = (y 1).val) :
    (iblk1 V c 1 t : Vec Ideal S5000x1 .f32) y = (V c main_v12 : S100000x1.Idx → EReal) i := by
  obtain ⟨-, -, e0, e1, -⟩ := idx_facts t
  unfold iblk1
  rw [View.read_apply]
  show V c main_v12 _ = V c main_v12 _
  congr 1
  funext a
  apply Fin.ext
  match a with
  | ⟨0, _⟩ => show win1_1.index t (0 : Fin 2) * 5000 + 1 * (y 0).val = (i 0).val; rw [e0, h0]; omega
  | ⟨1, _⟩ => show win1_1.index t (1 : Fin 2) * 1 + 1 * (y 1).val = (i 1).val; rw [e1, h1]; omega

/-- Window 2's block at point `t` is rows `5000 t …` of the feature array. -/
theorem blk2_apply (c : Dev nD) (t : Fin cfg1.N) (y : S5000x64.Idx) (i : S100000x64.Idx)
    (h0 : (i 0).val = 5000 * t.val + (y 0).val) (h1 : (i 1).val = (y 1).val) :
    (iblk1 V c 2 t : Vec Ideal S5000x64 .f32) y = (V c main_v14 : S100000x64.Idx → EReal) i := by
  obtain ⟨-, -, -, -, e0, e1, -⟩ := idx_facts t
  unfold iblk1
  rw [View.read_apply]
  show V c main_v14 _ = V c main_v14 _
  congr 1
  funext a
  apply Fin.ext
  match a with
  | ⟨0, _⟩ => show win1_2.index t (0 : Fin 2) * 5000 + 1 * (y 0).val = (i 0).val; rw [e0, h0]; omega
  | ⟨1, _⟩ => show win1_2.index t (1 : Fin 2) * 64 + 1 * (y 1).val = (i 1).val; rw [e1, h1]; omega

/-- Window 3's block is the whole first weight matrix at every point. -/
theorem blk3_eq (c : Dev nD) (t : Fin cfg1.N) :
    (iblk1 V c 3 t : Vec Ideal S64x64 .f32) = (V c main_arg5 : S64x64.Idx → EReal) := by
  obtain ⟨-, -, -, -, -, -, e0, e1, -⟩ := idx_facts t
  funext y
  unfold iblk1
  rw [View.read_apply]
  show V c main_arg5 _ = V c main_arg5 _
  congr 1
  funext a
  apply Fin.ext
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

/-- Window 4's block is the whole bias row at every point. -/
theorem blk4_eq (c : Dev nD) (t : Fin cfg1.N) :
    (iblk1 V c 4 t : Vec Ideal S1x64 .f32) = (V c main_v28 : S1x64.Idx → EReal) := by
  obtain ⟨-, -, -, -, -, -, -, -, e0, e1, -⟩ := idx_facts t
  funext y
  unfold iblk1
  rw [View.read_apply]
  show V c main_v28 _ = V c main_v28 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-- Window 5's block is the whole second weight matrix at every point. -/
theorem blk5_eq (c : Dev nD) (t : Fin cfg1.N) :
    (iblk1 V c 5 t : Vec Ideal S64x64 .f32) = (V c main_arg7 : S64x64.Idx → EReal) := by
  obtain ⟨-, -, -, -, -, -, -, -, -, -, e0, e1, -⟩ := idx_facts t
  funext y
  unfold iblk1
  rw [View.read_apply]
  show V c main_arg7 _ = V c main_arg7 _
  congr 1
  funext a
  apply Fin.ext
  match a with
  | ⟨0, _⟩ => show win1_5.index t (0 : Fin 2) * 64 + 1 * (y 0).val = (y 0).val; rw [e0]; omega
  | ⟨1, _⟩ => show win1_5.index t (1 : Fin 2) * 64 + 1 * (y 1).val = (y 1).val; rw [e1]; omega

/-- WHAT POINT `t` WRITES BACK is block `t` of the layer of the six arrays as the region finds them. -/
theorem flushed_eq (c : Dev nD) (t : Fin cfg1.N) :
    (dat1 V c).flushed 6 t = ((cfg1.win 6).blk t).view.read (Elt Ideal)
      (layer (V c main_v27) (V c main_v12) (V c main_v14) (V c main_arg5) (V c main_v28) (V c main_arg7)) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz,
    View.ld_unit_zero (S := S64x64) hz, View.ld_unit_zero (S := S1x64) hz]
  obtain ⟨-, -, -, -, -, -, -, -, -, -, -, -, e0, e1⟩ := idx_facts t
  funext j
  refine point_eq (V c main_v27) (V c main_v12) (V c main_v14) (V c main_arg5) (V c main_v28) (V c main_arg7)
    (iblk1 V c 0 t) (iblk1 V c 1 t) (iblk1 V c 2 t) (iblk1 V c 3 t) (iblk1 V c 5 t) (iblk1 V c 4 t) t.val
    (blk0_apply V c t) (blk1_apply V c t) (blk2_apply V c t) (blk3_eq V c t) (blk4_eq V c t) (blk5_eq V c t) _ _ ?_ ?_
  · show win1_6.index t (0 : Fin 2) * 5000 + 1 * (j 0).val = 5000 * t.val + (j 0).val; rw [e0]; omega
  · show win1_6.index t (1 : Fin 2) * 64 + 1 * (j 1).val = (j 1).val; rw [e1]; omega

/-- An index of the output array is in point `t`'s block iff each coordinate is in the block's range on its axis. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v29).slice (win1_6.rect t)).set ↔ _
  rw [View.set_slice_whole, Rect.mem_set_unit]
  exact Iff.rfl

/-- Every index of the output array is in some point's block: row `r` is in the block of point `r / 5000`. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : grid1.N = 20 := N_1
  have hlt : (i 0).val / 5000 < cfg1.N := by show (i 0).val / 5000 < grid1.N; rw [hN]; omega
  obtain ⟨-, -, -, -, -, -, -, -, -, -, -, -, e0, e1⟩ := idx_facts ⟨(i 0).val / 5000, hlt⟩
  have e0' : win1_6.index ⟨(i 0).val / 5000, hlt⟩ (0 : Fin 2) = (i 0).val / 5000 := e0
  refine ⟨⟨(i 0).val / 5000, hlt⟩, flush1_6 _, ?_⟩
  rw [mem_blk]
  intro a
  match a with
  | ⟨0, _⟩ =>
    show win1_6.index ⟨(i 0).val / 5000, hlt⟩ (0 : Fin 2) * 5000 ≤ (i 0).val ∧ (i 0).val < win1_6.index ⟨(i 0).val / 5000, hlt⟩ (0 : Fin 2) * 5000 + 5000
    rw [e0']; omega
  | ⟨1, _⟩ =>
    show win1_6.index ⟨(i 0).val / 5000, hlt⟩ (1 : Fin 2) * 64 ≤ (i 1).val ∧ (i 1).val < win1_6.index ⟨(i 0).val / 5000, hlt⟩ (1 : Fin 2) * 64 + 64
    rw [e1]; omega

/-- THE OUTPUT ARRAY after the region, whatever the contents `V` it is entered at: the clamped, normalised layer of the
    aggregated rows scaled by the reciprocal column, the features, the two weight matrices and the bias row, index by index. -/
theorem final (c : Dev nD) :
    (Gen.dat1 (F := Ideal) V c).arrAt 6 cfg1.N = fun i =>
      Spec.sageRelu (Spec.meanMul (Spec.cur (V c main_v27)) (Spec.col (V c main_v12))) (Spec.cur (V c main_v14))
        (Spec.cur (V c main_arg5)) (Spec.row (V c main_v28)) (Spec.cur (V c main_arg7)) (i 0) (i 1) :=
  (dat1 V c).arrAt_eq_of_cover 6
    (layer (V c main_v27) (V c main_v12) (V c main_v14) (V c main_arg5) (V c main_v28) (V c main_arg7))
    (fun t _ => flushed_eq V c t) cover

end Array

end Cert.KernelIdeal.Region1

end
-- ==== Proof.Region2.lean ====
/-
  Layer two of the graph network, on the kernel's side: what the region leaves in its output array.

  At every one of its 20 grid points the body loads a block of 5000 rows of the aggregated features, the
  matching 5000 entries of the column of reciprocal degrees and 5000 rows of the node features, together
  with the whole of two 64 × 64 weight matrices and of a bias row, and stores ONE value: with
  `mean r k = agg r k · inv r`,

      out r q = (Σ_k mean r k · Wl k q + bl q) + Σ_k h r k · Wr k q,
      stored r q = max (out r q / max (sqrt (Σ_j out r j ²)) ε) 0.

  On the extended reals a change of float format is the identity, a matrix product accumulated into a zero
  block is the plain sum over the contraction index, and the sum along the lanes is the sum over the 64
  columns; so the stored value at (p, q) is the specification's clamped layer at (p, q) of the blocks.
  Row `p` of that layer reads row `p` of the mean and of the features only, and point `t`'s blocks are rows
  `5000 t … 5000 t + 4999` of the arrays, so what point `t` writes back is block `t` of the layer of the
  whole arrays (`flushed_eq`); the 20 blocks tile the 100000 rows (`cover`), hence the output array ends
  holding that layer (`final`), whatever the contents the region is entered at.
-/
import proofs.«101096_j17824114278988_1_alg».proof.Proof.Gen.KernelIdeal.Frame
import proofs.«101096_j17824114278988_1_alg».proof.Proof.Spec
import proofs.«101096_j17824114278988_1_alg».proof.Proof.Region1
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region2

open Idealize.ShloMosaic Idealize.ShloMosaic.TcCoe Idealize.ShloMosaic.ValueIdx Idealize.SL.Sem Cert.KernelIdeal Cert.KernelIdeal.Gen
open Idealize.ShloMosaic.Pipeline (Dat)

/-! ## From the blocks to the array -/

/-- This region's body is the first layer's body, operation for operation: one payload lemma serves both. -/
theorem pay_same : @Gen.k2_pay1 = @Gen.k1_pay1 := rfl

section Array

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 grid points: the three row-blocked inputs and the output sit at block row
    `t`, block column 0; the two weight matrices and the bias row at block (0, 0) throughout. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Window 0's block at point `t` is rows `5000 t …` of the aggregated array. -/
theorem blk0_apply (c : Dev nD) (t : Fin cfg2.N) (y : S5000x64.Idx) (i : S100000x64.Idx)
    (h0 : (i 0).val = 5000 * t.val + (y 0).val) (h1 : (i 1).val = (y 1).val) :
    (iblk2 V c 0 t : Vec Ideal S5000x64 .f32) y = (V c main_v42 : S100000x64.Idx → EReal) i := by
  obtain ⟨e0, e1, -⟩ := idx_facts t
  unfold iblk2
  rw [View.read_apply]
  show V c main_v42 _ = V c main_v42 _
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 64 + 1 * (y 1).val = (i 1).val; rw [e1, h1]; omega

/-- Window 1's block at point `t` is rows `5000 t …` of the reciprocal column. -/
theorem blk1_apply (c : Dev nD) (t : Fin cfg2.N) (y : S5000x1.Idx) (i : S100000x1.Idx)
    (h0 : (i 0).val = 5000 * t.val + (y 0).val) (h1 : (i 1).val = (y 1).val) :
    (iblk2 V c 1 t : Vec Ideal S5000x1 .f32) y = (V c main_v12 : S100000x1.Idx → EReal) i := by
  obtain ⟨-, -, e0, e1, -⟩ := idx_facts t
  unfold iblk2
  rw [View.read_apply]
  show V c main_v12 _ = V c main_v12 _
  congr 1
  funext a
  apply Fin.ext
  match a with
  | ⟨0, _⟩ => show win2_1.index t (0 : Fin 2) * 5000 + 1 * (y 0).val = (i 0).val; rw [e0, h0]; omega
  | ⟨1, _⟩ => show win2_1.index t (1 : Fin 2) * 1 + 1 * (y 1).val = (i 1).val; rw [e1, h1]; omega

/-- Window 2's block at point `t` is rows `5000 t …` of the feature array. -/
theorem blk2_apply (c : Dev nD) (t : Fin cfg2.N) (y : S5000x64.Idx) (i : S100000x64.Idx)
    (h0 : (i 0).val = 5000 * t.val + (y 0).val) (h1 : (i 1).val = (y 1).val) :
    (iblk2 V c 2 t : Vec Ideal S5000x64 .f32) y = (V c main_v29 : S100000x64.Idx → EReal) i := by
  obtain ⟨-, -, -, -, e0, e1, -⟩ := idx_facts t
  unfold iblk2
  rw [View.read_apply]
  show V c main_v29 _ = V c main_v29 _
  congr 1
  funext a
  apply Fin.ext
  match a with
  | ⟨0, _⟩ => show win2_2.index t (0 : Fin 2) * 5000 + 1 * (y 0).val = (i 0).val; rw [e0, h0]; omega
  | ⟨1, _⟩ => show win2_2.index t (1 : Fin 2) * 64 + 1 * (y 1).val = (i 1).val; rw [e1, h1]; omega

/-- Window 3's block is the whole first weight matrix at every point. -/
theorem blk3_eq (c : Dev nD) (t : Fin cfg2.N) :
    (iblk2 V c 3 t : Vec Ideal S64x64 .f32) = (V c main_arg8 : S64x64.Idx → EReal) := by
  obtain ⟨-, -, -, -, -, -, e0, e1, -⟩ := idx_facts t
  funext y
  unfold iblk2
  rw [View.read_apply]
  show V c main_arg8 _ = V c main_arg8 _
  congr 1
  funext a
  apply Fin.ext
  match a with
  | ⟨0, _⟩ => show win2_3.index t (0 : Fin 2) * 64 + 1 * (y 0).val = (y 0).val; rw [e0]; omega
  | ⟨1, _⟩ => show win2_3.index t (1 : Fin 2) * 64 + 1 * (y 1).val = (y 1).val; rw [e1]; omega

/-- Window 4's block is the whole bias row at every point. -/
theorem blk4_eq (c : Dev nD) (t : Fin cfg2.N) :
    (iblk2 V c 4 t : Vec Ideal S1x64 .f32) = (V c main_v43 : S1x64.Idx → EReal) := by
  obtain ⟨-, -, -, -, -, -, -, -, e0, e1, -⟩ := idx_facts t
  funext y
  unfold iblk2
  rw [View.read_apply]
  show V c main_v43 _ = V c main_v43 _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 64 + 1 * (y 1).val = (y 1).val; rw [e1]; omega

/-- Window 5's block is the whole second weight matrix at every point. -/
theorem blk5_eq (c : Dev nD) (t : Fin cfg2.N) :
    (iblk2 V c 5 t : Vec Ideal S64x64 .f32) = (V c main_arg10 : S64x64.Idx → EReal) := by
  obtain ⟨-, -, -, -, -, -, -, -, -, -, e0, e1, -⟩ := idx_facts t
  funext y
  unfold iblk2
  rw [View.read_apply]
  show V c main_arg10 _ = V c main_arg10 _
  congr 1
  funext a
  apply Fin.ext
  match a with
  | ⟨0, _⟩ => show win2_5.index t (0 : Fin 2) * 64 + 1 * (y 0).val = (y 0).val; rw [e0]; omega
  | ⟨1, _⟩ => show win2_5.index t (1 : Fin 2) * 64 + 1 * (y 1).val = (y 1).val; rw [e1]; omega

/-- WHAT POINT `t` WRITES BACK is block `t` of the layer of the six arrays as the region finds them. -/
theorem flushed_eq (c : Dev nD) (t : Fin cfg2.N) :
    (dat2 V c).flushed 6 t = ((cfg2.win 6).blk t).view.read (Elt Ideal)
      (Region1.layer (V c main_v42) (V c main_v12) (V c main_v29) (V c main_arg8) (V c main_v43) (V c main_arg10)) := by
  show (cfg2.win 6).cut (grid2.coords t) ((dat2 V c).after 6 t) = _
  rw [after2_6]
  unfold out2_6
  rw [View.canon_unit_zero hz]
  simp only [View.ld_unit_zero (S := S5000x64) hz, View.ld_unit_zero (S := S5000x1) hz,
    View.ld_unit_zero (S := S64x64) hz, View.ld_unit_zero (S := S1x64) hz]
  rw [pay_same]
  obtain ⟨-, -, -, -, -, -, -, -, -, -, -, -, e0, e1⟩ := idx_facts t
  funext j
  refine Region1.point_eq (V c main_v42) (V c main_v12) (V c main_v29) (V c main_arg8) (V c main_v43) (V c main_arg10)
    (iblk2 V c 0 t) (iblk2 V c 1 t) (iblk2 V c 2 t) (iblk2 V c 3 t) (iblk2 V c 5 t) (iblk2 V c 4 t) t.val
    (blk0_apply V c t) (blk1_apply V c t) (blk2_apply V c t) (blk3_eq V c t) (blk4_eq V c t) (blk5_eq V c t) _ _ ?_ ?_
  · show win2_6.index t (0 : Fin 2) * 5000 + 1 * (j 0).val = 5000 * t.val + (j 0).val; rw [e0]; omega
  · show win2_6.index t (1 : Fin 2) * 64 + 1 * (j 1).val = (j 1).val; rw [e1]; omega

/-- An index of the output array is in point `t`'s block iff each coordinate is in the block's range on its axis. -/
theorem mem_blk (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v44).slice (win2_6.rect t)).set ↔ _
  rw [View.set_slice_whole, Rect.mem_set_unit]
  exact Iff.rfl

/-- Every index of the output array is in some point's block: row `r` is in the block of point `r / 5000`. -/
theorem cover (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : grid2.N = 20 := N_2
  have hlt : (i 0).val / 5000 < cfg2.N := by show (i 0).val / 5000 < grid2.N; rw [hN]; omega
  obtain ⟨-, -, -, -, -, -, -, -, -, -, -, -, e0, e1⟩ := idx_facts ⟨(i 0).val / 5000, hlt⟩
  have e0' : win2_6.index ⟨(i 0).val / 5000, hlt⟩ (0 : Fin 2) = (i 0).val / 5000 := e0
  refine ⟨⟨(i 0).val / 5000, hlt⟩, flush2_6 _, ?_⟩
  rw [mem_blk]
  intro a
  match a with
  | ⟨0, _⟩ =>
    show win2_6.index ⟨(i 0).val / 5000, hlt⟩ (0 : Fin 2) * 5000 ≤ (i 0).val ∧ (i 0).val < win2_6.index ⟨(i 0).val / 5000, hlt⟩ (0 : Fin 2) * 5000 + 5000
    rw [e0']; omega
  | ⟨1, _⟩ =>
    show win2_6.index ⟨(i 0).val / 5000, hlt⟩ (1 : Fin 2) * 64 ≤ (i 1).val ∧ (i 1).val < win2_6.index ⟨(i 0).val / 5000, hlt⟩ (1 : Fin 2) * 64 + 64
    rw [e1]; omega

/-- THE OUTPUT ARRAY after the region, whatever the contents `V` it is entered at: the clamped, normalised layer of the
    aggregated rows scaled by the reciprocal column, the features, the two weight matrices and the bias row, index by index. -/
theorem final (c : Dev nD) :
    (Gen.dat2 (F := Ideal) V c).arrAt 6 cfg2.N = fun i =>
      Spec.sageRelu (Spec.meanMul (Spec.cur (V c main_v42)) (Spec.col (V c main_v12))) (Spec.cur (V c main_v29))
        (Spec.cur (V c main_arg8)) (Spec.row (V c main_v43)) (Spec.cur (V c main_arg10)) (i 0) (i 1) :=
  (dat2 V c).arrAt_eq_of_cover 6
    (Region1.layer (V c main_v42) (V c main_v12) (V c main_v29) (V c main_arg8) (V c main_v43) (V c main_arg10))
    (fun t _ => flushed_eq V c t) cover

end Array

end Cert.KernelIdeal.Region2

end
-- ==== Proof.Region3.lean ====
/-
  Layer three of the graph network, on the kernel's side: what the region leaves in its output array.

  At every one of its 20 grid points the body loads a block of 5000 rows of the aggregated features, the
  matching 5000 entries of the column of reciprocal degrees and 5000 rows of the node features, together
  with the whole of two 64 × 64 weight matrices and of a bias row, and stores ONE value: with
  `mean r k = agg r k · inv r`,

      out r q = (Σ_k mean r k · Wl k q + bl q) + Σ_k h r k · Wr k q,
      stored r q = max (out r q / max (sqrt (Σ_j out r j ²)) ε) 0.

  On the extended reals a change of float format is the identity, a matrix product accumulated into a zero
  block is the plain sum over the contraction index, and the sum along the lanes is the sum over the 64
  columns; so the stored value at (p, q) is the specification's clamped layer at (p, q) of the blocks.
  Row `p` of that layer reads row `p` of the mean and of the features only, and point `t`'s blocks are rows
  `5000 t … 5000 t + 4999` of the arrays, so what point `t` writes back is block `t` of the layer of the
  whole arrays (`flushed_eq`); the 20 blocks tile the 100000 rows (`cover`), hence the output array ends
  holding that layer (`final`), whatever the contents the region is entered at.
-/
import proofs.«101096_j17824114278988_1_alg».proof.Proof.Gen.KernelIdeal.Frame
import proofs.«101096_j17824114278988_1_alg».proof.Proof.Spec
import proofs.«101096_j17824114278988_1_alg».proof.Proof.Region1
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region3

open Idealize.ShloMosaic Idealize.ShloMosaic.TcCoe Idealize.ShloMosaic.ValueIdx Idealize.SL.Sem Cert.KernelIdeal Cert.KernelIdeal.Gen
open Idealize.ShloMosaic.Pipeline (Dat)

/-! ## From the blocks to the array -/

/-- This region's body is the first layer's body, operation for operation: one payload lemma serves both. -/
theorem pay_same : @Gen.k3_pay1 = @Gen.k1_pay1 := rfl

section Array

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 grid points: the three row-blocked inputs and the output sit at block row
    `t`, block column 0; the two weight matrices and the bias row at block (0, 0) throughout. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Window 0's block at point `t` is rows `5000 t …` of the aggregated array. -/
theorem blk0_apply (c : Dev nD) (t : Fin cfg3.N) (y : S5000x64.Idx) (i : S100000x64.Idx)
    (h0 : (i 0).val = 5000 * t.val + (y 0).val) (h1 : (i 1).val = (y 1).val) :
    (iblk3 V c 0 t : Vec Ideal S5000x64 .f32) y = (V c main_v57 : S100000x64.Idx → EReal) i := by
  obtain ⟨e0, e1, -⟩ := idx_facts t
  unfold iblk3
  rw [View.read_apply]
  show V c main_v57 _ = V c main_v57 _
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 64 + 1 * (y 1).val = (i 1).val; rw [e1, h1]; omega

/-- Window 1's block at point `t` is rows `5000 t …` of the reciprocal column. -/
theorem blk1_apply (c : Dev nD) (t : Fin cfg3.N) (y : S5000x1.Idx) (i : S100000x1.Idx)
    (h0 : (i 0).val = 5000 * t.val + (y 0).val) (h1 : (i 1).val = (y 1).val) :
    (iblk3 V c 1 t : Vec Ideal S5000x1 .f32) y = (V c main_v12 : S100000x1.Idx → EReal) i := by
  obtain ⟨-, -, e0, e1, -⟩ := idx_facts t
  unfold iblk3
  rw [View.read_apply]
  show V c main_v12 _ = V c main_v12 _
  congr 1
  funext a
  apply Fin.ext
  match a with
  | ⟨0, _⟩ => show win3_1.index t (0 : Fin 2) * 5000 + 1 * (y 0).val = (i 0).val; rw [e0, h0]; omega
  | ⟨1, _⟩ => show win3_1.index t (1 : Fin 2) * 1 + 1 * (y 1).val = (i 1).val; rw [e1, h1]; omega

/-- Window 2's block at point `t` is rows `5000 t …` of the feature array. -/
theorem blk2_apply (c : Dev nD) (t : Fin cfg3.N) (y : S5000x64.Idx) (i : S100000x64.Idx)
    (h0 : (i 0).val = 5000 * t.val + (y 0).val) (h1 : (i 1).val = (y 1).val) :
    (iblk3 V c 2 t : Vec Ideal S5000x64 .f32) y = (V c main_v44 : S100000x64.Idx → EReal) i := by
  obtain ⟨-, -, -, -, e0, e1, -⟩ := idx_facts t
  unfold iblk3
  rw [View.read_apply]
  show V c main_v44 _ = V c main_v44 _
  congr 1
  funext a
  apply Fin.ext
  match a with
  | ⟨0, _⟩ => show win3_2.index t (0 : Fin 2) * 5000 + 1 * (y 0).val = (i 0).val; rw [e0, h0]; omega
  | ⟨1, _⟩ => show win3_2.index t (1 : Fin 2) * 64 + 1 * (y 1).val = (i 1).val; rw [e1, h1]; omega

/-- Window 3's block is the whole first weight matrix at every point. -/
theorem blk3_eq (c : Dev nD) (t : Fin cfg3.N) :
    (iblk3 V c 3 t : Vec Ideal S64x64 .f32) = (V c main_arg11 : S64x64.Idx → EReal) := by
  obtain ⟨-, -, -, -, -, -, e0, e1, -⟩ := idx_facts t
  funext y
  unfold iblk3
  rw [View.read_apply]
  show V c main_arg11 _ = V c main_arg11 _
  congr 1
  funext a
  apply Fin.ext
  match a with
  | ⟨0, _⟩ => show win3_3.index t (0 : Fin 2) * 64 + 1 * (y 0).val = (y 0).val; rw [e0]; omega
  | ⟨1, _⟩ => show win3_3.index t (1 : Fin 2) * 64 + 1 * (y 1).val = (y 1).val; rw [e1]; omega

/-- Window 4's block is the whole bias row at every point. -/
theorem blk4_eq (c : Dev nD) (t : Fin cfg3.N) :
    (iblk3 V c 4 t : Vec Ideal S1x64 .f32) = (V c main_v58 : S1x64.Idx → EReal) := by
  obtain ⟨-, -, -, -, -, -, -, -, e0, e1, -⟩ := idx_facts t
  funext y
  unfold iblk3
  rw [View.read_apply]
  show V c main_v58 _ = V c main_v58 _
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 64 + 1 * (y 1).val = (y 1).val; rw [e1]; omega

/-- Window 5's block is the whole second weight matrix at every point. -/
theorem blk5_eq (c : Dev nD) (t : Fin cfg3.N) :
    (iblk3 V c 5 t : Vec Ideal S64x64 .f32) = (V c main_arg13 : S64x64.Idx → EReal) := by
  obtain ⟨-, -, -, -, -, -, -, -, -, -, e0, e1, -⟩ := idx_facts t
  funext y
  unfold iblk3
  rw [View.read_apply]
  show V c main_arg13 _ = V c main_arg13 _
  congr 1
  funext a
  apply Fin.ext
  match a with
  | ⟨0, _⟩ => show win3_5.index t (0 : Fin 2) * 64 + 1 * (y 0).val = (y 0).val; rw [e0]; omega
  | ⟨1, _⟩ => show win3_5.index t (1 : Fin 2) * 64 + 1 * (y 1).val = (y 1).val; rw [e1]; omega

/-- WHAT POINT `t` WRITES BACK is block `t` of the layer of the six arrays as the region finds them. -/
theorem flushed_eq (c : Dev nD) (t : Fin cfg3.N) :
    (dat3 V c).flushed 6 t = ((cfg3.win 6).blk t).view.read (Elt Ideal)
      (Region1.layer (V c main_v57) (V c main_v12) (V c main_v44) (V c main_arg11) (V c main_v58) (V c main_arg13)) := by
  show (cfg3.win 6).cut (grid3.coords t) ((dat3 V c).after 6 t) = _
  rw [after3_6]
  unfold out3_6
  rw [View.canon_unit_zero hz]
  simp only [View.ld_unit_zero (S := S5000x64) hz, View.ld_unit_zero (S := S5000x1) hz,
    View.ld_unit_zero (S := S64x64) hz, View.ld_unit_zero (S := S1x64) hz]
  rw [pay_same]
  obtain ⟨-, -, -, -, -, -, -, -, -, -, -, -, e0, e1⟩ := idx_facts t
  funext j
  refine Region1.point_eq (V c main_v57) (V c main_v12) (V c main_v44) (V c main_arg11) (V c main_v58) (V c main_arg13)
    (iblk3 V c 0 t) (iblk3 V c 1 t) (iblk3 V c 2 t) (iblk3 V c 3 t) (iblk3 V c 5 t) (iblk3 V c 4 t) t.val
    (blk0_apply V c t) (blk1_apply V c t) (blk2_apply V c t) (blk3_eq V c t) (blk4_eq V c t) (blk5_eq V c t) _ _ ?_ ?_
  · show win3_6.index t (0 : Fin 2) * 5000 + 1 * (j 0).val = 5000 * t.val + (j 0).val; rw [e0]; omega
  · show win3_6.index t (1 : Fin 2) * 64 + 1 * (j 1).val = (j 1).val; rw [e1]; omega

/-- An index of the output array is in point `t`'s block iff each coordinate is in the block's range on its axis. -/
theorem mem_blk (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v59).slice (win3_6.rect t)).set ↔ _
  rw [View.set_slice_whole, Rect.mem_set_unit]
  exact Iff.rfl

/-- Every index of the output array is in some point's block: row `r` is in the block of point `r / 5000`. -/
theorem cover (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have hN : grid3.N = 20 := N_3
  have hlt : (i 0).val / 5000 < cfg3.N := by show (i 0).val / 5000 < grid3.N; rw [hN]; omega
  obtain ⟨-, -, -, -, -, -, -, -, -, -, -, -, e0, e1⟩ := idx_facts ⟨(i 0).val / 5000, hlt⟩
  have e0' : win3_6.index ⟨(i 0).val / 5000, hlt⟩ (0 : Fin 2) = (i 0).val / 5000 := e0
  refine ⟨⟨(i 0).val / 5000, hlt⟩, flush3_6 _, ?_⟩
  rw [mem_blk]
  intro a
  match a with
  | ⟨0, _⟩ =>
    show win3_6.index ⟨(i 0).val / 5000, hlt⟩ (0 : Fin 2) * 5000 ≤ (i 0).val ∧ (i 0).val < win3_6.index ⟨(i 0).val / 5000, hlt⟩ (0 : Fin 2) * 5000 + 5000
    rw [e0']; omega
  | ⟨1, _⟩ =>
    show win3_6.index ⟨(i 0).val / 5000, hlt⟩ (1 : Fin 2) * 64 ≤ (i 1).val ∧ (i 1).val < win3_6.index ⟨(i 0).val / 5000, hlt⟩ (1 : Fin 2) * 64 + 64
    rw [e1]; omega

/-- THE OUTPUT ARRAY after the region, whatever the contents `V` it is entered at: the clamped, normalised layer of the
    aggregated rows scaled by the reciprocal column, the features, the two weight matrices and the bias row, index by index. -/
theorem final (c : Dev nD) :
    (Gen.dat3 (F := Ideal) V c).arrAt 6 cfg3.N = fun i =>
      Spec.sageRelu (Spec.meanMul (Spec.cur (V c main_v57)) (Spec.col (V c main_v12))) (Spec.cur (V c main_v44))
        (Spec.cur (V c main_arg11)) (Spec.row (V c main_v58)) (Spec.cur (V c main_arg13)) (i 0) (i 1) :=
  (dat3 V c).arrAt_eq_of_cover 6
    (Region1.layer (V c main_v57) (V c main_v12) (V c main_v44) (V c main_arg11) (V c main_v58) (V c main_arg13))
    (fun t _ => flushed_eq V c t) cover

end Array

end Cert.KernelIdeal.Region3

end
-- ==== Proof.Region4.lean ====
/-
  The last layer of the kernel, read as one function of whole arrays.

  The region has twenty grid points. Point `t` takes rows `5000·t … 5000·t + 4999` of the summed
  neighbour features, of the column of reciprocal degrees and of the nodes' own features, the two
  whole weight matrices and the whole bias row, and writes the same rows of the output. For a row `p`
  of the block and a column `q` its body forms

      out p q = (Σ_k (agg p k · inv p) · Wl k q + bl q) + Σ_k h p k · Wr k q

  and divides it by `max (sqrt (Σ_j out p j ²)) ε`: the reciprocal-degree column is repeated across
  the sixty-four lanes before the product, a change of format is the identity on the extended reals,
  a product accumulated into a zero matrix is the plain sum over the contracted coordinate, the sum
  of squares runs along the eighteen lanes of the row and is stood up as a column, and that column
  is repeated across the lanes before the division. So what a point writes back is the rows
  `5000·t …` of the layer of the whole arrays, the twenty blocks tile the output, and the output
  array ends holding the layer at every index.
-/
import proofs.«101096_j17824114278988_1_alg».proof.Proof.Gen.KernelIdeal.Frame
import proofs.«101096_j17824114278988_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.Pipeline (Dat)

namespace Cert.KernelIdeal.Region4

open Cert.KernelIdeal Cert.KernelIdeal.Gen Idealize.ShloMosaic.ValueIdx

/-! ## Columns: one column repeated across, and a vector stood up as a column -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The body's products, lane sum and division at an index -/

/-- The product's left index keeps the output's row. -/
theorem lhs_row (i : S5000x18.Idx) (k : dot_S5000x64_S64x18_S5000x18_1_0_0_1_n_n.contr.Idx) :
    (dot_S5000x64_S64x18_S5000x18_1_0_0_1_n_n.lhsIdx i k 0).val = (i 0).val := by
  unfold DotDims.lhsIdx
  rw [dif_neg (show ¬(0 : Fin S5000x64.rank) ∈ dot_S5000x64_S64x18_S5000x18_1_0_0_1_n_n.lhsBatch by decide),
    dif_pos (show (0 : Fin S5000x64.rank) ∈ dot_S5000x64_S64x18_S5000x18_1_0_0_1_n_n.lhsNonContracting by decide)]
  rfl

/-- The product's right index keeps the output's column. -/
theorem rhs_col (i : S5000x18.Idx) (k : dot_S5000x64_S64x18_S5000x18_1_0_0_1_n_n.contr.Idx) :
    (dot_S5000x64_S64x18_S5000x18_1_0_0_1_n_n.rhsIdx i k 1).val = (i 1).val := by
  unfold DotDims.rhsIdx
  rw [dif_neg (show ¬(1 : Fin S64x18.rank) ∈ dot_S5000x64_S64x18_S5000x18_1_0_0_1_n_n.rhsBatch by decide),
    dif_pos (show (1 : Fin S64x18.rank) ∈ dot_S5000x64_S64x18_S5000x18_1_0_0_1_n_n.rhsNonContracting by decide)]
  rfl

/-- A product accumulated into the zero matrix, at row `p` and column `q`: the sum over the
    contracted coordinate of row `p` of the left factor against column `q` of the right one. -/
theorem matmul_at (x : FVec Ideal S5000x64 .bf16) (w : FVec Ideal S64x18 .bf16) (p : Fin 5000) (q : Fin 18) :
    matmul dot_S5000x64_S64x18_S5000x18_1_0_0_1_n_n none x w (constant S5000x18 .f32 0x00000000#32) (ix2 p q)
      = ∑ k : Fin 64, x (ix2 p k) * w (ix2 k q) := by
  show FloatOps.matmul dot_S5000x64_S64x18_S5000x18_1_0_0_1_n_n none x w (constant S5000x18 .f32 0x00000000#32) (ix2 p q) = _
  rw [Ideal.matmul_constant_zero_apply,
    ← Equiv.sum_comp (contrEquiv1 dot_S5000x64_S64x18_S5000x18_1_0_0_1_n_n 64 rfl rfl).symm]
  refine Finset.sum_congr rfl fun k _ => ?_
  have hk := contrEquiv1_symm_val dot_S5000x64_S64x18_S5000x18_1_0_0_1_n_n 64 rfl rfl k
  have el : dot_S5000x64_S64x18_S5000x18_1_0_0_1_n_n.lhsIdx (ix2 p q)
      ((contrEquiv1 dot_S5000x64_S64x18_S5000x18_1_0_0_1_n_n 64 rfl rfl).symm k) = ix2 p k :=
    funext fun a => Fin.ext (by
      match a with
      | ⟨0, _⟩ => exact lhs_row _ _
      | ⟨1, _⟩ => exact (dot_S5000x64_S64x18_S5000x18_1_0_0_1_n_n.lhsIdx_val_of_single rfl _ _).trans hk)
  have er : dot_S5000x64_S64x18_S5000x18_1_0_0_1_n_n.rhsIdx (ix2 p q)
      ((contrEquiv1 dot_S5000x64_S64x18_S5000x18_1_0_0_1_n_n 64 rfl rfl).symm k) = ix2 k q :=
    funext fun a => Fin.ext (by
      match a with
      | ⟨0, _⟩ => exact (dot_S5000x64_S64x18_S5000x18_1_0_0_1_n_n.rhsIdx_val_of_single rfl _ _).trans hk
      | ⟨1, _⟩ => exact rhs_col _ _)
  rw [el, er]

/-- The sum along the lanes of an eighteen-column block, at row `p`. -/
theorem rowsum_at (src : FVec Ideal S5000x18 .f32) (hφ : FKind.Formats .f32)
    (hacc : (0x00000000#32 : BitVec 32) = FKind.add.neutral .f32 hφ) (p : Fin 5000) :
    multiReduction (F := Ideal) .add [1] S5000 src 0x00000000#32 reduces_S5000x18_S5000 hφ hacc (ix1 p)
      = ∑ j : Fin 18, src (ix2 p j) := by
  refine (Ideal.multiReduction_add_single src 0x00000000#32 reduces_S5000x18_S5000 hφ hacc (ix1 p)).trans ?_
  refine Finset.sum_congr rfl fun j _ => congrArg src ?_
  funext a
  apply Fin.ext
  match a with
  | ⟨0, _⟩ => rfl
  | ⟨1, _⟩ => rfl

/-- The layer before its normalisation, as the body forms it from the six loaded blocks. -/
def preBody (agg : Vec Ideal S5000x64 .f32) (inv : Vec Ideal S5000x1 .f32) (h : Vec Ideal S5000x64 .f32)
    (wl : Vec Ideal S64x18 .f32) (wr : Vec Ideal S64x18 .f32) (bl : Vec Ideal S1x18 .f32) : FVec Ideal S5000x18 .f32 :=
  addf
    (addf
      (matmul dot_S5000x64_S64x18_S5000x18_1_0_0_1_n_n none
        (truncf .bf16
          (mulf (shapeCast S5000x64 agg shapeCasts_S5000x64_S5000x64)
            (broadcastTo S5000x64 (shapeCast S5000x1 inv shapeCasts_S5000x1_S5000x1) broadcasts_S5000x1_S5000x64))
          bitsLt_bf16_f32 : FVec Ideal S5000x64 .bf16)
        (truncf .bf16 wl bitsLt_bf16_f32 : FVec Ideal S64x18 .bf16)
        (constant S5000x18 .f32 0x00000000#32))
      (broadcastTo S5000x18 (shapeCast S1x18 bl shapeCasts_S1x18_S1x18) broadcasts_S1x18_S5000x18))
    (matmul dot_S5000x64_S64x18_S5000x18_1_0_0_1_n_n none
      (truncf .bf16 (shapeCast S5000x64 h shapeCasts_S5000x64_S5000x64) bitsLt_bf16_f32 : FVec Ideal S5000x64 .bf16)
      (truncf .bf16 wr bitsLt_bf16_f32 : FVec Ideal S64x18 .bf16)
      (constant S5000x18 .f32 0x00000000#32))

/-- A block divided, row by row, by the floored length of the row, as the body forms it. -/
def normBody (o : FVec Ideal S5000x18 .f32) : FVec Ideal S5000x18 .f32 :=
  divf o (broadcastTo S5000x18
    (maximumf (sqrt (shapeCast S5000x1
        (multiReduction .add [1] S5000 (mulf o o) 0x00000000#32 reduces_S5000x18_S5000 (.inl rfl) rfl)
        shapeCasts_S5000_S5000x1))
      (broadcast S5000x1 (Scalar.ofBits .f32 0x2B8CBCCC#32)))
    broadcasts_S5000x1_S5000x18)

/-- What the body stores is the one divided by the other. -/
theorem pay_eq (agg : Vec Ideal S5000x64 .f32) (inv : Vec Ideal S5000x1 .f32) (h : Vec Ideal S5000x64 .f32)
    (wl : Vec Ideal S64x18 .f32) (wr : Vec Ideal S64x18 .f32) (bl : Vec Ideal S1x18 .f32) :
    Gen.k4_pay1 (F := Ideal) agg inv h wl wr bl = normBody (preBody agg inv h wl wr bl) := rfl

/-- The layer before its normalisation at row `p` and column `q`: the mean (the summed features times the
    reciprocal degree of the row) through `Wl`, the bias, and the node's own features through `Wr`. -/
theorem preBody_at (agg : Vec Ideal S5000x64 .f32) (inv : Vec Ideal S5000x1 .f32) (h : Vec Ideal S5000x64 .f32)
    (wl : Vec Ideal S64x18 .f32) (wr : Vec Ideal S64x18 .f32) (bl : Vec Ideal S1x18 .f32) (p : Fin 5000) (q : Fin 18) :
    preBody agg inv h wl wr bl (ix2 p q)
      = Spec.pre (Spec.meanMul (Spec.cur agg) (Spec.col inv)) (Spec.cur h) (Spec.cur wl) (Spec.row bl) (Spec.cur wr) p q := by
  unfold preBody
  simp only [shapeCast_self]
  rw [addf_apply, addf_apply, matmul_at, matmul_at, broadcastTo_1b_ab_apply]
  unfold Spec.pre Spec.lin Spec.meanMul
  refine congrArg₂ (· + ·) (congrArg₂ (· + ·) (Finset.sum_congr rfl fun k _ => ?_) rfl) rfl
  show (agg (ix2 p k) * broadcastTo S5000x64 inv broadcasts_S5000x1_S5000x64 (ix2 p k)) * wl (ix2 k q)
    = (agg (ix2 p k) * inv (ix2 p 0)) * wl (ix2 k q)
  rw [broadcastTo_a1_ab_apply]

/-- A block divided, row by row, by the floored length of the row, at row `p` and column `q`. -/
theorem normBody_at (o : FVec Ideal S5000x18 .f32) (p : Fin 5000) (q : Fin 18) :
    normBody o (ix2 p q)
      = Ideal.div (o (ix2 p q)) (max (Ideal.sqrt (∑ j : Fin 18, o (ix2 p j) * o (ix2 p j))) Spec.eps) := by
  unfold normBody
  show Ideal.div (o (ix2 p q)) (broadcastTo S5000x18 _ broadcasts_S5000x1_S5000x18 (ix2 p q)) = _
  rw [broadcastTo_a1_ab_apply]
  show Ideal.div _ (max (Ideal.sqrt (shapeCast S5000x1 _ shapeCasts_S5000_S5000x1 (ix2 p (0 : Fin 1)))) Spec.eps) = _
  rw [shapeCast_a_a1_apply]
  refine congrArg (fun z => Ideal.div (o (ix2 p q)) (max (Ideal.sqrt z) Spec.eps)) ?_
  exact rowsum_at (mulf o o) _ _ p

/-! ## The body's result at an index -/

/-- What the body stores, at row `p` and column `q` of the block: the last layer of the six loaded blocks
    there. -/
theorem pay_at (agg : Vec Ideal S5000x64 .f32) (inv : Vec Ideal S5000x1 .f32) (h : Vec Ideal S5000x64 .f32)
    (wl : Vec Ideal S64x18 .f32) (wr : Vec Ideal S64x18 .f32) (bl : Vec Ideal S1x18 .f32) (p : Fin 5000) (q : Fin 18) :
    Gen.k4_pay1 (F := Ideal) agg inv h wl wr bl (ix2 p q)
      = Spec.sage (Spec.meanMul (Spec.cur agg) (Spec.col inv)) (Spec.cur h) (Spec.cur wl) (Spec.row bl) (Spec.cur wr) p q := by
  rw [pay_eq, normBody_at]
  simp only [preBody_at]
  rfl

/-! ## The layer read along one row -/

/-- The layer at a row depends on the mean and the features along that row only: two sets of arrays
    that agree along a row of each, and in the weights and the bias, give the same layer there. -/
theorem sage_congr {N N' K C : ℕ} (mean : Fin N → Fin K → EReal) (mean' : Fin N' → Fin K → EReal)
    (h : Fin N → Fin K → EReal) (h' : Fin N' → Fin K → EReal) (wl wl' : Fin K → Fin C → EReal)
    (bl bl' : Fin C → EReal) (wr wr' : Fin K → Fin C → EReal) (r : Fin N) (r' : Fin N')
    (hm : ∀ k, mean r k = mean' r' k) (hh : ∀ k, h r k = h' r' k) (hwl : ∀ k q, wl k q = wl' k q)
    (hbl : ∀ q, bl q = bl' q) (hwr : ∀ k q, wr k q = wr' k q) (q : Fin C) :
    Spec.sage mean h wl bl wr r q = Spec.sage mean' h' wl' bl' wr' r' q := by
  obtain rfl : wl = wl' := funext fun k => funext fun q => hwl k q
  obtain rfl : bl = bl' := funext hbl
  obtain rfl : wr = wr' := funext fun k => funext fun q => hwr k q
  have hp : ∀ q, Spec.pre mean h wl bl wr r q = Spec.pre mean' h' wl bl wr r' q := fun q => by
    unfold Spec.pre Spec.lin
    simp only [hm, hh]
  unfold Spec.sage Spec.normalize Spec.len
  simp only [hp]

/-! ## The blocks as rows of the arrays -/

theorem hz : (![0, 0] : Fin 2 → Nat) = fun _ => 0 := funext fun a => by fin_cases a <;> rfl

/-- Row `p` of the block at a point `n` below twenty is row `5000·n + p` of the array. -/
def rowOf (n : ℕ) (hn : n < 20) (p : Fin 5000) : Fin 100000 := ⟨n * 5000 + p.val, by have := p.isLt; omega⟩

theorem lt20 (t : Fin cfg4.N) : t.val < 20 := by
  have h := t.isLt; have hN : cfg4.N = 20 := Gen.N_4; omega

/-- Where the blocks sit, decided over the twenty points: the block at point `t` of the summed features,
    of the reciprocal degrees, of the nodes' features and of the output is the `t`-th block of rows and all
    columns; the blocks of the two weight matrices and of the bias are the whole arrays. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

section Arrays

variable (V : (c : Dev nD) → (b : Ref sig .tc) → Buf (Elt Ideal) ((c : Thread nD τ).loc b))

/-- The six input blocks at point `t`, at their literal shapes. -/
abbrev bAgg (c : Dev nD) (t : Fin cfg4.N) : Vec Ideal S5000x64 .f32 := Gen.iblk4 V c 0 t
abbrev bInv (c : Dev nD) (t : Fin cfg4.N) : Vec Ideal S5000x1 .f32 := Gen.iblk4 V c 1 t
abbrev bH (c : Dev nD) (t : Fin cfg4.N) : Vec Ideal S5000x64 .f32 := Gen.iblk4 V c 2 t
abbrev bWl (c : Dev nD) (t : Fin cfg4.N) : Vec Ideal S64x18 .f32 := Gen.iblk4 V c 3 t
abbrev bBl (c : Dev nD) (t : Fin cfg4.N) : Vec Ideal S1x18 .f32 := Gen.iblk4 V c 4 t
abbrev bWr (c : Dev nD) (t : Fin cfg4.N) : Vec Ideal S64x18 .f32 := Gen.iblk4 V c 5 t

/-- The six arrays as the region finds them, at their literal shapes. -/
abbrev aAgg (c : Dev nD) : S100000x64.Idx → EReal := V c main_v69
abbrev aInv (c : Dev nD) : S100000x1.Idx → EReal := V c main_v12
abbrev aH (c : Dev nD) : S100000x64.Idx → EReal := V c main_v59
abbrev aWl (c : Dev nD) : S64x18.Idx → EReal := V c main_arg14
abbrev aBl (c : Dev nD) : S1x18.Idx → EReal := V c main_v70
abbrev aWr (c : Dev nD) : S64x18.Idx → EReal := V c main_arg16

/-- The summed features' block at point `t`: rows `5000·t …` of the array. -/
theorem blk_agg (c : Dev nD) (t : Fin cfg4.N) (p : Fin 5000) (k : Fin 64) :
    bAgg V c t (ix2 p k) = aAgg V c (ix2 (rowOf t.val (lt20 t) p) k) := by
  obtain ⟨e0, e1, -⟩ := idx_facts t
  unfold bAgg Gen.iblk4
  rw [View.read_apply]
  show aAgg V c _ = _
  congr 1
  funext a
  apply Fin.ext
  match a with
  | ⟨0, _⟩ => show win4_0.index t (0 : Fin 2) * 5000 + 1 * p.val = t.val * 5000 + p.val; rw [e0]; omega
  | ⟨1, _⟩ => show win4_0.index t (1 : Fin 2) * 64 + 1 * k.val = k.val; rw [e1]; omega

/-- The reciprocal degrees' block at point `t`: rows `5000·t …` of the column. -/
theorem blk_inv (c : Dev nD) (t : Fin cfg4.N) (p : Fin 5000) :
    bInv V c t (ix2 p 0) = aInv V c (ix2 (rowOf t.val (lt20 t) p) 0) := by
  obtain ⟨-, -, e0, e1, -⟩ := idx_facts t
  unfold bInv Gen.iblk4
  rw [View.read_apply]
  show aInv V c _ = _
  congr 1
  funext a
  apply Fin.ext
  match a with
  | ⟨0, _⟩ => show win4_1.index t (0 : Fin 2) * 5000 + 1 * p.val = t.val * 5000 + p.val; rw [e0]; omega
  | ⟨1, _⟩ => show win4_1.index t (1 : Fin 2) * 1 + 1 * (0 : Fin 1).val = (0 : Fin 1).val; rw [e1]; rfl

/-- The nodes' features' block at point `t`: rows `5000·t …` of the array. -/
theorem blk_h (c : Dev nD) (t : Fin cfg4.N) (p : Fin 5000) (k : Fin 64) :
    bH V c t (ix2 p k) = aH V c (ix2 (rowOf t.val (lt20 t) p) k) := by
  obtain ⟨-, -, -, -, e0, e1, -⟩ := idx_facts t
  unfold bH Gen.iblk4
  rw [View.read_apply]
  show aH V c _ = _
  congr 1
  funext a
  apply Fin.ext
  match a with
  | ⟨0, _⟩ => show win4_2.index t (0 : Fin 2) * 5000 + 1 * p.val = t.val * 5000 + p.val; rw [e0]; omega
  | ⟨1, _⟩ => show win4_2.index t (1 : Fin 2) * 64 + 1 * k.val = k.val; rw [e1]; omega

/-- The first weight matrix's block at every point is the whole matrix. -/
theorem blk_wl (c : Dev nD) (t : Fin cfg4.N) (k : Fin 64) (q : Fin 18) :
    bWl V c t (ix2 k q) = aWl V c (ix2 k q) := by
  obtain ⟨-, -, -, -, -, -, e0, e1, -⟩ := idx_facts t
  unfold bWl Gen.iblk4
  rw [View.read_apply]
  show aWl V c _ = _
  congr 1
  funext a
  apply Fin.ext
  match a with
  | ⟨0, _⟩ => show win4_3.index t (0 : Fin 2) * 64 + 1 * k.val = k.val; rw [e0]; omega
  | ⟨1, _⟩ => show win4_3.index t (1 : Fin 2) * 18 + 1 * q.val = q.val; rw [e1]; omega

/-- The bias's block at every point is the bias row. -/
theorem blk_bl (c : Dev nD) (t : Fin cfg4.N) (q : Fin 18) :
    bBl V c t (ix2 0 q) = aBl V c (ix2 0 q) := by
  obtain ⟨-, -, -, -, -, -, -, -, e0, e1, -⟩ := idx_facts t
  unfold bBl Gen.iblk4
  rw [View.read_apply]
  show aBl V c _ = _
  congr 1
  funext a
  apply Fin.ext
  match a with
  | ⟨0, _⟩ => show win4_4.index t (0 : Fin 2) * 1 + 1 * (0 : Fin 1).val = (0 : Fin 1).val; rw [e0]; rfl
  | ⟨1, _⟩ => show win4_4.index t (1 : Fin 2) * 18 + 1 * q.val = q.val; rw [e1]; omega

/-- The second weight matrix's block at every point is the whole matrix. -/
theorem blk_wr (c : Dev nD) (t : Fin cfg4.N) (k : Fin 64) (q : Fin 18) :
    bWr V c t (ix2 k q) = aWr V c (ix2 k q) := by
  obtain ⟨-, -, -, -, -, -, -, -, -, -, e0, e1, -⟩ := idx_facts t
  unfold bWr Gen.iblk4
  rw [View.read_apply]
  show aWr V c _ = _
  congr 1
  funext a
  apply Fin.ext
  match a with
  | ⟨0, _⟩ => show win4_5.index t (0 : Fin 2) * 64 + 1 * k.val = k.val; rw [e0]; omega
  | ⟨1, _⟩ => show win4_5.index t (1 : Fin 2) * 18 + 1 * q.val = q.val; rw [e1]; omega

/-! ## From the blocks to the array -/

/-- The last layer of the whole arrays as the region finds them. -/
abbrev arr (c : Dev nD) : S100000x18.Idx → EReal := fun i =>
  Spec.sage (Spec.meanMul (Spec.cur (aAgg V c)) (Spec.col (aInv V c))) (Spec.cur (aH V c)) (Spec.cur (aWl V c))
    (Spec.row (aBl V c)) (Spec.cur (aWr V c)) (i 0) (i 1)

/-- The body's result at point `t`, at row `p` and column `q` of the block, is the last layer of the whole
    arrays at row `5000·t + p` and column `q`. -/
theorem point_at (c : Dev nD) (t : Fin cfg4.N) (p : Fin 5000) (q : Fin 18) :
    Gen.k4_pay1 (F := Ideal) (bAgg V c t) (bInv V c t) (bH V c t) (bWl V c t) (bWr V c t) (bBl V c t) (ix2 p q)
      = Spec.sage (Spec.meanMul (Spec.cur (aAgg V c)) (Spec.col (aInv V c))) (Spec.cur (aH V c)) (Spec.cur (aWl V c))
          (Spec.row (aBl V c)) (Spec.cur (aWr V c)) (rowOf t.val (lt20 t) p) q := by
  refine (pay_at (bAgg V c t) (bInv V c t) (bH V c t) (bWl V c t) (bWr V c t) (bBl V c t) p q).trans ?_
  refine sage_congr (Spec.meanMul (Spec.cur (bAgg V c t)) (Spec.col (bInv V c t)))
    (Spec.meanMul (Spec.cur (aAgg V c)) (Spec.col (aInv V c))) (Spec.cur (bH V c t)) (Spec.cur (aH V c))
    (Spec.cur (bWl V c t)) (Spec.cur (aWl V c)) (Spec.row (bBl V c t)) (Spec.row (aBl V c))
    (Spec.cur (bWr V c t)) (Spec.cur (aWr V c)) p (rowOf t.val (lt20 t) p)
    (fun k => ?_) (fun k => blk_h V c t p k) (fun k q => blk_wl V c t k q) (fun q => blk_bl V c t q)
    (fun k q => blk_wr V c t k q) q
  show bAgg V c t (ix2 p k) * bInv V c t (ix2 p 0)
    = aAgg V c (ix2 (rowOf t.val (lt20 t) p) k) * aInv V c (ix2 (rowOf t.val (lt20 t) p) 0)
  rw [blk_agg V c t p k, blk_inv V c t p]

/-- An index of the output array is in point `t`'s block iff each coordinate is in the block's range. -/
theorem mem_blk (t : Fin cfg4.N) (i : S100000x18.Idx) :
    i ∈ ((cfg4.win 6).blk t).view.set ↔ ∀ a : Fin 2, win4_6.index t a * S5000x18.size a ≤ (i a).val
      ∧ (i a).val < win4_6.index t a * S5000x18.size a + S5000x18.size a := by
  show i ∈ ((View.whole main_v71).slice (win4_6.rect t)).set ↔ _
  rw [View.set_slice_whole, Rect.mem_set_unit]
  exact Iff.rfl

/-- What point `t` writes back is block `t` of the last layer of the whole arrays. -/
theorem flushed_eq (c : Dev nD) (t : Fin cfg4.N) :
    (Gen.dat4 (F := Ideal) V c).flushed 6 t = ((cfg4.win 6).blk t).view.read (Elt Ideal) (arr V c) := by
  show (cfg4.win 6).cut (grid4.coords t) ((Gen.dat4 (F := Ideal) V c).after 6 t) = _
  rw [Gen.after4_6]
  unfold Gen.out4_6
  rw [View.canon_unit_zero hz]
  simp only [View.ld_unit_zero (S := S5000x64) hz, View.ld_unit_zero (S := S5000x1) hz,
    View.ld_unit_zero (S := S64x18) hz, View.ld_unit_zero (S := S1x18) hz]
  obtain ⟨-, -, -, -, -, -, -, -, -, -, -, -, e0, e1⟩ := idx_facts t
  funext j
  have h0 : (j 0).val < 5000 := (j 0).isLt
  have h1 : (j 1).val < 18 := (j 1).isLt
  have ej : j = ix2 (⟨(j 0).val, h0⟩ : Fin 5000) (⟨(j 1).val, h1⟩ : Fin 18) := by
    funext a; match a with | ⟨0, _⟩ => rfl | ⟨1, _⟩ => rfl
  have hemb : ((cfg4.win 6).blk t).view.emb j
      = ix2 (rowOf t.val (lt20 t) ⟨(j 0).val, h0⟩) (⟨(j 1).val, h1⟩ : Fin 18) := by
    funext a
    apply Fin.ext
    match a with
    | ⟨0, _⟩ => show win4_6.index t (0 : Fin 2) * 5000 + 1 * (j 0).val = t.val * 5000 + (j 0).val; rw [e0]; omega
    | ⟨1, _⟩ => show win4_6.index t (1 : Fin 2) * 18 + 1 * (j 1).val = (j 1).val; rw [e1]; omega
  show Gen.k4_pay1 (F := Ideal) (bAgg V c t) (bInv V c t) (bH V c t) (bWl V c t) (bWr V c t) (bBl V c t) j
    = arr V c (((cfg4.win 6).blk t).view.emb j)
  refine (congrArg (Gen.k4_pay1 (F := Ideal) (bAgg V c t) (bInv V c t) (bH V c t) (bWl V c t) (bWr V c t) (bBl V c t)) ej).trans ?_
  refine (point_at V c t ⟨(j 0).val, h0⟩ ⟨(j 1).val, h1⟩).trans ?_
  exact (congrArg (arr V c) hemb).symm

/-- The output array after the region: the last layer of the six arrays as the region finds them, at
    every index — the twenty blocks of rows tile the array. -/
theorem final (c : Dev nD) : (Gen.dat4 (F := Ideal) V c).arrAt 6 cfg4.N = fun i =>
    Spec.sage (Spec.meanMul (Spec.cur (V c main_v69 : S100000x64.Idx → EReal)) (Spec.col (V c main_v12 : S100000x1.Idx → EReal)))
      (Spec.cur (V c main_v59 : S100000x64.Idx → EReal)) (Spec.cur (V c main_arg14 : S64x18.Idx → EReal))
      (Spec.row (V c main_v70 : S1x18.Idx → EReal)) (Spec.cur (V c main_arg16 : S64x18.Idx → EReal)) (i 0) (i 1) :=
  (Gen.dat4 (F := Ideal) V c).arrAt_eq_of_cover 6 (arr V c) (fun t _ => flushed_eq V c t) fun i => by
    have hi0 : (i 0).val < 100000 := (i 0).isLt
    have hi1 : (i 1).val < 18 := (i 1).isLt
    have hN : cfg4.N = 20 := Gen.N_4
    have ht : (i 0).val / 5000 < cfg4.N := by omega
    obtain ⟨-, -, -, -, -, -, -, -, -, -, -, -, e0, e1⟩ := idx_facts ⟨(i 0).val / 5000, ht⟩
    refine ⟨⟨(i 0).val / 5000, ht⟩, Gen.flush4_6 _, ?_⟩
    rw [mem_blk]
    intro a
    match a with
    | ⟨0, _⟩ =>
      show win4_6.index ⟨(i 0).val / 5000, ht⟩ (0 : Fin 2) * 5000 ≤ (i 0).val
        ∧ (i 0).val < win4_6.index ⟨(i 0).val / 5000, ht⟩ (0 : Fin 2) * 5000 + 5000
      rw [e0]; show (i 0).val / 5000 * 5000 ≤ (i 0).val ∧ (i 0).val < (i 0).val / 5000 * 5000 + 5000; omega
    | ⟨1, _⟩ =>
      show win4_6.index ⟨(i 0).val / 5000, ht⟩ (1 : Fin 2) * 18 ≤ (i 1).val
        ∧ (i 1).val < win4_6.index ⟨(i 0).val / 5000, ht⟩ (1 : Fin 2) * 18 + 18
      rw [e1]; omega

end Arrays

end Cert.KernelIdeal.Region4

end
-- ==== Proof.Chain.lean ====
/-
  The kernel's result as the network of the launch arguments.

  Region by region: a region's result array at its exit is what its grid points wrote back, which is
  the layer's function of the arrays the region found at its entry; those are the previous region's
  result (kept across the stretch between), its gathered-and-added row sums (what the stretch
  computes from it), the reciprocal-degree column and the edge rows (computed by the first stretch
  and never written again), and argument arrays (never written at all). The layer's mean by the
  reciprocal is the mean by the quotient, so each region's result is the network's next feature map.
-/
import proofs.«101096_j17824114278988_1_alg».proof.Proof.Stretch
import proofs.«101096_j17824114278988_1_alg».proof.Proof.NetFacts
import proofs.«101096_j17824114278988_1_alg».proof.Proof.Region0
import proofs.«101096_j17824114278988_1_alg».proof.Proof.Region1
import proofs.«101096_j17824114278988_1_alg».proof.Proof.Region2
import proofs.«101096_j17824114278988_1_alg».proof.Proof.Region3
import proofs.«101096_j17824114278988_1_alg».proof.Proof.Region4

set_option maxRecDepth 16384

noncomputable section

namespace Cert.KernelIdeal.Chain

open Cert.KernelIdeal Cert.KernelIdeal.Gen Cert.KernelIdeal.Facts₀ Cert.KernelIdeal.Facts Cert.KernelIdeal.Stretch
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Argument 0 as launched. -/
abbrev A0 := m ((c : Thread nD τ).loc main_arg0)
/-- Argument 1 as launched. -/
abbrev A1 := m ((c : Thread nD τ).loc main_arg1)
/-- Argument 2 as launched. -/
abbrev A2 := m ((c : Thread nD τ).loc main_arg2)
/-- Argument 3 as launched. -/
abbrev A3 := m ((c : Thread nD τ).loc main_arg3)
/-- Argument 4 as launched. -/
abbrev A4 := m ((c : Thread nD τ).loc main_arg4)
/-- Argument 5 as launched. -/
abbrev A5 := m ((c : Thread nD τ).loc main_arg5)
/-- Argument 6 as launched. -/
abbrev A6 := m ((c : Thread nD τ).loc main_arg6)
/-- Argument 7 as launched. -/
abbrev A7 := m ((c : Thread nD τ).loc main_arg7)
/-- Argument 8 as launched. -/
abbrev A8 := m ((c : Thread nD τ).loc main_arg8)
/-- Argument 9 as launched. -/
abbrev A9 := m ((c : Thread nD τ).loc main_arg9)
/-- Argument 10 as launched. -/
abbrev A10 := m ((c : Thread nD τ).loc main_arg10)
/-- Argument 11 as launched. -/
abbrev A11 := m ((c : Thread nD τ).loc main_arg11)
/-- Argument 12 as launched. -/
abbrev A12 := m ((c : Thread nD τ).loc main_arg12)
/-- Argument 13 as launched. -/
abbrev A13 := m ((c : Thread nD τ).loc main_arg13)
/-- Argument 14 as launched. -/
abbrev A14 := m ((c : Thread nD τ).loc main_arg14)
/-- Argument 15 as launched. -/
abbrev A15 := m ((c : Thread nD τ).loc main_arg15)
/-- Argument 16 as launched. -/
abbrev A16 := m ((c : Thread nD τ).loc main_arg16)

/-- Region 0's result array, at the region's exit, is the embedding of the launch arguments. -/
theorem g0_at : W2 m ρ c (Proc.devRef .tc main_v14) = (Net.g0 (A0 m c) (A3 m c) (A4 m c)) := by
  refine (W2_arr m ρ c 3).trans ?_
  refine (Region0.final (V1 m ρ) c).trans ?_
  have e0 : V1 m ρ c main_arg0 = (A0 m c) := keep_main_arg0_1_0 m ρ c
  have e3 : V1 m ρ c main_arg3 = (A3 m c) := keep_main_arg3_1_0 m ρ c
  have eb : V1 m ρ c main_v13 = shapeCast S1x64 (A4 m c) Facts₀.shapeCasts_S64_S1x64 := s0_bias (W0 m ρ c)
  rw [e0, e3, eb]
  exact NetFacts.h0_of_row _ _ _

/-- Region 1's result array, at the region's exit, is the features after layer 1 of the launch arguments. -/
theorem g1_at : W4 m ρ c (Proc.devRef .tc main_v29) = (Net.g1 (A0 m c) (A1 m c) (A2 m c) (A3 m c) (A4 m c) (A5 m c) (A6 m c) (A7 m c)) := by
  refine (W4_arr m ρ c 6).trans ?_
  refine (Region1.final (V3 m ρ) c).trans ?_
  have hs : W2 m ρ c (Proc.devRef .tc main_v1) = Net.src (A1 m c) := (keep_main_v1_2_1 m ρ c).trans (s0_src (W0 m ρ c))
  have hd : W2 m ρ c (Proc.devRef .tc main_v3) = Net.dst (A1 m c) := (keep_main_v3_2_1 m ρ c).trans (s0_dst (W0 m ρ c))
  have eA : V3 m ρ c main_v27 = Net.aggW (Net.g0 (A0 m c) (A3 m c) (A4 m c)) (A1 m c) (A2 m c) := by
    refine (s1_agg (W2 m ρ c) (A1 m c) hs hd).trans ?_
    rw [g0_at m ρ c, keep_main_arg2_2_0 m ρ c]
    try rfl
  have eI : V3 m ρ c main_v12 = Net.inv (A1 m c) := (keep_main_v12_3_1 m ρ c).trans (s0_inv (W0 m ρ c))
  have eH : V3 m ρ c main_v14 = (Net.g0 (A0 m c) (A3 m c) (A4 m c)) := (keep_main_v14_3_2 m ρ c).trans (g0_at m ρ c)
  have eWl : V3 m ρ c main_arg5 = (A5 m c) := keep_main_arg5_3_0 m ρ c
  have eB : V3 m ρ c main_v28 = shapeCast S1x64 (A6 m c) Facts₀.shapeCasts_S64_S1x64 := by
    refine (s1_bias (W2 m ρ c)).trans ?_
    rw [keep_main_arg6_2_0 m ρ c]
    try rfl
  have eWr : V3 m ρ c main_arg7 = (A7 m c) := keep_main_arg7_3_0 m ρ c
  rw [eA, eI, eH, eWl, eB, eWr]
  exact NetFacts.layer_of_mul _ _ _ _ _ _

/-- Region 2's result array, at the region's exit, is the features after layer 2 of the launch arguments. -/
theorem g2_at : W6 m ρ c (Proc.devRef .tc main_v44) = (Net.g2 (A0 m c) (A1 m c) (A2 m c) (A3 m c) (A4 m c) (A5 m c) (A6 m c) (A7 m c) (A8 m c) (A9 m c) (A10 m c)) := by
  refine (W6_arr m ρ c 6).trans ?_
  refine (Region2.final (V5 m ρ) c).trans ?_
  have hs : W4 m ρ c (Proc.devRef .tc main_v1) = Net.src (A1 m c) := (keep_main_v1_4_1 m ρ c).trans (s0_src (W0 m ρ c))
  have hd : W4 m ρ c (Proc.devRef .tc main_v3) = Net.dst (A1 m c) := (keep_main_v3_4_1 m ρ c).trans (s0_dst (W0 m ρ c))
  have eA : V5 m ρ c main_v42 = Net.aggW (Net.g1 (A0 m c) (A1 m c) (A2 m c) (A3 m c) (A4 m c) (A5 m c) (A6 m c) (A7 m c)) (A1 m c) (A2 m c) := by
    refine (s2_agg (W4 m ρ c) (A1 m c) hs hd).trans ?_
    rw [g1_at m ρ c, keep_main_arg2_4_0 m ρ c]
    try rfl
  have eI : V5 m ρ c main_v12 = Net.inv (A1 m c) := (keep_main_v12_5_1 m ρ c).trans (s0_inv (W0 m ρ c))
  have eH : V5 m ρ c main_v29 = (Net.g1 (A0 m c) (A1 m c) (A2 m c) (A3 m c) (A4 m c) (A5 m c) (A6 m c) (A7 m c)) := (keep_main_v29_5_4 m ρ c).trans (g1_at m ρ c)
  have eWl : V5 m ρ c main_arg8 = (A8 m c) := keep_main_arg8_5_0 m ρ c
  have eB : V5 m ρ c main_v43 = shapeCast S1x64 (A9 m c) Facts₀.shapeCasts_S64_S1x64 := by
    refine (s2_bias (W4 m ρ c)).trans ?_
    rw [keep_main_arg9_4_0 m ρ c]
    try rfl
  have eWr : V5 m ρ c main_arg10 = (A10 m c) := keep_main_arg10_5_0 m ρ c
  rw [eA, eI, eH, eWl, eB, eWr]
  exact NetFacts.layer_of_mul _ _ _ _ _ _

/-- Region 3's result array, at the region's exit, is the features after layer 3 of the launch arguments. -/
theorem g3_at : W8 m ρ c (Proc.devRef .tc main_v59) = (Net.g3 (A0 m c) (A1 m c) (A2 m c) (A3 m c) (A4 m c) (A5 m c) (A6 m c) (A7 m c) (A8 m c) (A9 m c) (A10 m c) (A11 m c) (A12 m c) (A13 m c)) := by
  refine (W8_arr m ρ c 6).trans ?_
  refine (Region3.final (V7 m ρ) c).trans ?_
  have hs : W6 m ρ c (Proc.devRef .tc main_v1) = Net.src (A1 m c) := (keep_main_v1_6_1 m ρ c).trans (s0_src (W0 m ρ c))
  have hd : W6 m ρ c (Proc.devRef .tc main_v3) = Net.dst (A1 m c) := (keep_main_v3_6_1 m ρ c).trans (s0_dst (W0 m ρ c))
  have eA : V7 m ρ c main_v57 = Net.aggW (Net.g2 (A0 m c) (A1 m c) (A2 m c) (A3 m c) (A4 m c) (A5 m c) (A6 m c) (A7 m c) (A8 m c) (A9 m c) (A10 m c)) (A1 m c) (A2 m c) := by
    refine (s3_agg (W6 m ρ c) (A1 m c) hs hd).trans ?_
    rw [g2_at m ρ c, keep_main_arg2_6_0 m ρ c]
    try rfl
  have eI : V7 m ρ c main_v12 = Net.inv (A1 m c) := (keep_main_v12_7_1 m ρ c).trans (s0_inv (W0 m ρ c))
  have eH : V7 m ρ c main_v44 = (Net.g2 (A0 m c) (A1 m c) (A2 m c) (A3 m c) (A4 m c) (A5 m c) (A6 m c) (A7 m c) (A8 m c) (A9 m c) (A10 m c)) := (keep_main_v44_7_6 m ρ c).trans (g2_at m ρ c)
  have eWl : V7 m ρ c main_arg11 = (A11 m c) := keep_main_arg11_7_0 m ρ c
  have eB : V7 m ρ c main_v58 = shapeCast S1x64 (A12 m c) Facts₀.shapeCasts_S64_S1x64 := by
    refine (s3_bias (W6 m ρ c)).trans ?_
    rw [keep_main_arg12_6_0 m ρ c]
    try rfl
  have eWr : V7 m ρ c main_arg13 = (A13 m c) := keep_main_arg13_7_0 m ρ c
  rw [eA, eI, eH, eWl, eB, eWr]
  exact NetFacts.layer_of_mul _ _ _ _ _ _

set_option maxHeartbeats 2000000 in
/-- Region 4's result array, at the region's exit, is the network's result of the launch arguments. -/
theorem result : W10 m ρ c (Proc.devRef .tc main_v71) = Net.out (A0 m c) (A1 m c) (A2 m c) (A3 m c) (A4 m c) (A5 m c) (A6 m c) (A7 m c) (A8 m c) (A9 m c) (A10 m c) (A11 m c) (A12 m c) (A13 m c) (A14 m c) (A15 m c) (A16 m c) := by
  refine (W10_arr m ρ c 6).trans ?_
  refine (Region4.final (V9 m ρ) c).trans ?_
  have hs : W8 m ρ c (Proc.devRef .tc main_v1) = Net.src (A1 m c) := (keep_main_v1_8_1 m ρ c).trans (s0_src (W0 m ρ c))
  have hd : W8 m ρ c (Proc.devRef .tc main_v3) = Net.dst (A1 m c) := (keep_main_v3_8_1 m ρ c).trans (s0_dst (W0 m ρ c))
  have eA : V9 m ρ c main_v69 = Net.aggU (Net.g3 (A0 m c) (A1 m c) (A2 m c) (A3 m c) (A4 m c) (A5 m c) (A6 m c) (A7 m c) (A8 m c) (A9 m c) (A10 m c) (A11 m c) (A12 m c) (A13 m c)) (A1 m c) := by
    refine (s4_agg (W8 m ρ c) (A1 m c) hs hd).trans ?_
    rw [g3_at m ρ c]
  have eI : V9 m ρ c main_v12 = Net.inv (A1 m c) := (keep_main_v12_9_1 m ρ c).trans (s0_inv (W0 m ρ c))
  have eH : V9 m ρ c main_v59 = (Net.g3 (A0 m c) (A1 m c) (A2 m c) (A3 m c) (A4 m c) (A5 m c) (A6 m c) (A7 m c) (A8 m c) (A9 m c) (A10 m c) (A11 m c) (A12 m c) (A13 m c)) := (keep_main_v59_9_8 m ρ c).trans (g3_at m ρ c)
  have eWl : V9 m ρ c main_arg14 = (A14 m c) := keep_main_arg14_9_0 m ρ c
  have eB : V9 m ρ c main_v70 = shapeCast S1x18 (A15 m c) Facts₀.shapeCasts_S18_S1x18 := by
    refine (s4_bias (W8 m ρ c)).trans ?_
    rw [keep_main_arg15_8_0 m ρ c]
    try rfl
  have eWr : V9 m ρ c main_arg16 = (A16 m c) := keep_main_arg16_9_0 m ρ c
  rw [eA]
  rw [eI]
  rw [eH]
  rw [eWl]
  rw [eB]
  rw [eWr]
  exact NetFacts.last_of_mul _ _ _ _ _ _

end Cert.KernelIdeal.Chain

end
-- ==== Proof.RefLayers.lean ====
/-
  The reference program, layer by layer, as the functions of the specification.

  Every stage of the reference is an array given as a function of its index. Read at an index
  (row `r`, column `q`), the stages of one layer compose to the specification's layer:

  * the degree floored at one is read at row `r` through two broadcasts ([n] → [n,1] → [n,c]),
    so the mean at `(r, k)` is the row sum at `(r, k)` divided by `max (deg r) 1`;
  * a matrix product at `(r, q)` is the sum over `k` of the left factor at `(r, k)` times the
    right factor at `(k, q)`; the bias is read at column `q` through two broadcasts;
  * the sum of squares of row `r` starts from the zero word, which is `0`, so it is the plain sum;
    its square root is floored at ε, broadcast along the row, and divides the entry at `(r, q)`;
  * the clamp at zero is a maximum against a broadcast zero word.

  The row sums, the degree and the previous layer's features enter each layer as whole arrays:
  nothing is said here about how they were computed.
-/
import proofs.«101096_j17824114278988_1_alg».proof.Proof.RefReadP
import proofs.«101096_j17824114278988_1_alg».proof.Proof.Spec

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

/-! ## The embedding -/

/-- The embedding at an entry: the product with the weights, the bias, the clamp at zero. -/
theorem embed_at (x0 : (⟨S100000x100, .f32⟩ : BufTy).Contents (Elt Ideal)) (x3 : (⟨S100x64, .f32⟩ : BufTy).Contents (Elt Ideal)) (x4 : (⟨S64, .f32⟩ : BufTy).Contents (Elt Ideal)) (r : Fin 100000) (q : Fin 64) :
    val_main_v8 (F := Ideal) x0 x3 x4 (ValueIdx.ix2 r q) = Spec.embed (Spec.cur x0) (Spec.cur x3) (Spec.cur1 x4) r q := by
  have e1 : ∀ k : Fin 100, lidx_main_v4 (ValueIdx.ix2 r q) k = ValueIdx.ix2 r k := fun k => funext fun a => Fin.ext (by match a with | ⟨0, _⟩ => rfl | ⟨1, _⟩ => rfl)
  have e2 : ∀ k : Fin 100, ridx_main_v4 (ValueIdx.ix2 r q) k = ValueIdx.ix2 k q := fun k => funext fun a => Fin.ext (by match a with | ⟨0, _⟩ => rfl | ⟨1, _⟩ => rfl)
  have e3 : idx_main_v5 (idx_main_v6 (ValueIdx.ix2 r q)) = ValueIdx.ix1 q := funext fun a => Fin.ext (by match a with | ⟨0, _⟩ => rfl)
  rw [val_main_v8_apply, val_main_v7_apply, val_main_v4_apply, val_main_v6_apply, val_main_v5_apply, val_main_call0_v0_apply, val_main_call0_cst_apply, e3]
  simp only [e1, e2, Ideal.maximumf_def, Ideal.addf_def, Ideal.ofBits_def, Ideal.ofBits_zero_f32]
  unfold Spec.embed Spec.lin
  rfl

/-- The embedding as a function of its index. -/
theorem embed (x0 : (⟨S100000x100, .f32⟩ : BufTy).Contents (Elt Ideal)) (x3 : (⟨S100x64, .f32⟩ : BufTy).Contents (Elt Ideal)) (x4 : (⟨S64, .f32⟩ : BufTy).Contents (Elt Ideal)) :
    val_main_v8 (F := Ideal) x0 x3 x4 = fun i => Spec.embed (Spec.cur x0) (Spec.cur x3) (Spec.cur1 x4) (i 0) (i 1) := by
  funext i
  obtain ⟨r, q, rfl⟩ : ∃ (r : Fin 100000) (q : Fin 64), i = ValueIdx.ix2 r q := ⟨i 0, i 1, ValueIdx.eq_ix2 i⟩
  exact embed_at x0 x3 x4 r q

/-! ## Layer 1 -/

/-- The neighbourhood mean of layer 1: the row sums divided by the degree floored at one. -/
theorem mean1_at (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (r : Fin 100000) (k : Fin 64) :
    val_main_v30 (F := Ideal) x0 x1 x2 x3 x4 (ValueIdx.ix2 r k) = (Spec.meanDiv (Spec.cur (val_main_v21 (F := Ideal) x0 x1 x2 x3 x4)) (Spec.floorOne (Spec.cur1 (val_main_v25 (F := Ideal) x1)))) r k := by
  have e : idx_main_v28 (idx_main_v29 (ValueIdx.ix2 r k)) = ValueIdx.ix1 r := funext fun a => Fin.ext (by match a with | ⟨0, _⟩ => rfl)
  rw [val_main_v30_apply, val_main_v29_apply, val_main_v28_apply, val_main_v27_apply, val_main_v26_apply, val_main_cst_3_apply, e]
  simp only [Ideal.hostDivf_def, Ideal.maximumf_def, Ideal.ofBits_def]
  unfold Spec.meanDiv Spec.floorOne Spec.one
  rfl

/-- Layer 1 before its normalisation: the mean through the left weights, the bias, the features through the right weights. -/
theorem pre1_at (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (r : Fin 100000) (q : Fin 64) :
    val_main_v36 (F := Ideal) x0 x1 x2 x3 x4 x5 x6 x7 (ValueIdx.ix2 r q) = Spec.pre (Spec.meanDiv (Spec.cur (val_main_v21 (F := Ideal) x0 x1 x2 x3 x4)) (Spec.floorOne (Spec.cur1 (val_main_v25 (F := Ideal) x1)))) (Spec.cur (val_main_v8 (F := Ideal) x0 x3 x4)) (Spec.cur x5) (Spec.cur1 x6) (Spec.cur x7) r q := by
  have e1 : ∀ k : Fin 64, lidx_main_v31 (ValueIdx.ix2 r q) k = ValueIdx.ix2 r k := fun k => funext fun a => Fin.ext (by match a with | ⟨0, _⟩ => rfl | ⟨1, _⟩ => rfl)
  have e2 : ∀ k : Fin 64, ridx_main_v31 (ValueIdx.ix2 r q) k = ValueIdx.ix2 k q := fun k => funext fun a => Fin.ext (by match a with | ⟨0, _⟩ => rfl | ⟨1, _⟩ => rfl)
  have e3 : idx_main_v32 (idx_main_v33 (ValueIdx.ix2 r q)) = ValueIdx.ix1 q := funext fun a => Fin.ext (by match a with | ⟨0, _⟩ => rfl)
  have e4 : ∀ k : Fin 64, lidx_main_v35 (ValueIdx.ix2 r q) k = ValueIdx.ix2 r k := fun k => funext fun a => Fin.ext (by match a with | ⟨0, _⟩ => rfl | ⟨1, _⟩ => rfl)
  have e5 : ∀ k : Fin 64, ridx_main_v35 (ValueIdx.ix2 r q) k = ValueIdx.ix2 k q := fun k => funext fun a => Fin.ext (by match a with | ⟨0, _⟩ => rfl | ⟨1, _⟩ => rfl)
  rw [val_main_v36_apply, val_main_v34_apply, val_main_v31_apply, val_main_v33_apply, val_main_v32_apply, val_main_v35_apply, e3]
  simp only [e1, e2, e4, e5, mean1_at, Ideal.addf_def]
  unfold Spec.pre Spec.lin
  rfl

/-- The sum of squares of a row of layer 1: the sum starts from the zero word, which is zero. -/
theorem sumsq1_at (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (r : Fin 100000) :
    val_main_v38 (F := Ideal) x0 x1 x2 x3 x4 x5 x6 x7 (ValueIdx.ix1 r) = ∑ j : Fin 64, Spec.pre (Spec.meanDiv (Spec.cur (val_main_v21 (F := Ideal) x0 x1 x2 x3 x4)) (Spec.floorOne (Spec.cur1 (val_main_v25 (F := Ideal) x1)))) (Spec.cur (val_main_v8 (F := Ideal) x0 x3 x4)) (Spec.cur x5) (Spec.cur1 x6) (Spec.cur x7) r j * Spec.pre (Spec.meanDiv (Spec.cur (val_main_v21 (F := Ideal) x0 x1 x2 x3 x4)) (Spec.floorOne (Spec.cur1 (val_main_v25 (F := Ideal) x1)))) (Spec.cur (val_main_v8 (F := Ideal) x0 x3 x4)) (Spec.cur x5) (Spec.cur1 x6) (Spec.cur x7) r j := by
  have e : ∀ j : Fin 64, idx_main_v38 (ValueIdx.ix1 r) j = ValueIdx.ix2 r j := fun j => funext fun a => Fin.ext (by match a with | ⟨0, _⟩ => rfl | ⟨1, _⟩ => rfl)
  rw [val_main_v38_apply, val_main_cst_4_apply, Ideal.ofBits_def, Ideal.ofBits_zero_f32, zero_add]
  refine Finset.sum_congr rfl fun j _ => ?_
  rw [e, val_main_v37_apply, pre1_at]
  rfl

/-- Layer 1 normalised: every row divided by its Euclidean length floored at ε. -/
theorem sage1_at (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (r : Fin 100000) (q : Fin 64) :
    val_main_v44 (F := Ideal) x0 x1 x2 x3 x4 x5 x6 x7 (ValueIdx.ix2 r q) = Spec.sage (Spec.meanDiv (Spec.cur (val_main_v21 (F := Ideal) x0 x1 x2 x3 x4)) (Spec.floorOne (Spec.cur1 (val_main_v25 (F := Ideal) x1)))) (Spec.cur (val_main_v8 (F := Ideal) x0 x3 x4)) (Spec.cur x5) (Spec.cur1 x6) (Spec.cur x7) r q := by
  have e : idx_main_v39 (idx_main_v43 (ValueIdx.ix2 r q)) = ValueIdx.ix1 r := funext fun a => Fin.ext (by match a with | ⟨0, _⟩ => rfl)
  rw [val_main_v44_apply, val_main_v43_apply, val_main_v42_apply, val_main_v40_apply, val_main_v39_apply, val_main_v41_apply, val_main_cst_5_apply, e, sumsq1_at, pre1_at]
  simp only [Ideal.hostDivf_def, Ideal.maximumf_def, Ideal.hostUnary_sqrt_def, Ideal.ofBits_def]
  unfold Spec.sage Spec.normalize Spec.len Spec.eps
  rfl

/-- Layer 1 clamped at zero, entry by entry. -/
theorem layer1_at (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (r : Fin 100000) (q : Fin 64) :
    val_main_v45 (F := Ideal) x0 x1 x2 x3 x4 x5 x6 x7 (ValueIdx.ix2 r q) = Spec.sageRelu (Spec.meanDiv (Spec.cur (val_main_v21 (F := Ideal) x0 x1 x2 x3 x4)) (Spec.floorOne (Spec.cur1 (val_main_v25 (F := Ideal) x1)))) (Spec.cur (val_main_v8 (F := Ideal) x0 x3 x4)) (Spec.cur x5) (Spec.cur1 x6) (Spec.cur x7) r q := by
  rw [val_main_v45_apply, val_main_call1_v0_apply, val_main_call1_cst_apply, sage1_at]
  simp only [Ideal.maximumf_def, Ideal.ofBits_def, Ideal.ofBits_zero_f32]
  unfold Spec.sageRelu
  rfl

/-- Layer 1 as a function of its index. -/
theorem layer1 (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v45 (F := Ideal) x0 x1 x2 x3 x4 x5 x6 x7 = fun i =>
      Spec.sageRelu (Spec.meanDiv (Spec.cur (val_main_v21 (F := Ideal) x0 x1 x2 x3 x4)) (Spec.floorOne (Spec.cur1 (val_main_v25 (F := Ideal) x1)))) (Spec.cur (val_main_v8 (F := Ideal) x0 x3 x4)) (Spec.cur x5) (Spec.cur1 x6) (Spec.cur x7) (i 0) (i 1) := by
  funext i
  obtain ⟨r, q, rfl⟩ : ∃ (r : Fin 100000) (q : Fin 64), i = ValueIdx.ix2 r q := ⟨i 0, i 1, ValueIdx.eq_ix2 i⟩
  exact layer1_at x0 x1 x2 x3 x4 x5 x6 x7 r q

/-! ## Layer 2 -/

/-- The neighbourhood mean of layer 2: the row sums divided by the degree floored at one. -/
theorem mean2_at (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (r : Fin 100000) (k : Fin 64) :
    val_main_v67 (F := Ideal) x0 x1 x2 x3 x4 x5 x6 x7 (ValueIdx.ix2 r k) = (Spec.meanDiv (Spec.cur (val_main_v58 (F := Ideal) x0 x1 x2 x3 x4 x5 x6 x7)) (Spec.floorOne (Spec.cur1 (val_main_v62 (F := Ideal) x1)))) r k := by
  have e : idx_main_v65 (idx_main_v66 (ValueIdx.ix2 r k)) = ValueIdx.ix1 r := funext fun a => Fin.ext (by match a with | ⟨0, _⟩ => rfl)
  rw [val_main_v67_apply, val_main_v66_apply, val_main_v65_apply, val_main_v64_apply, val_main_v63_apply, val_main_cst_11_apply, e]
  simp only [Ideal.hostDivf_def, Ideal.maximumf_def, Ideal.ofBits_def]
  unfold Spec.meanDiv Spec.floorOne Spec.one
  rfl

/-- Layer 2 before its normalisation: the mean through the left weights, the bias, the features through the right weights. -/
theorem pre2_at (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (r : Fin 100000) (q : Fin 64) :
    val_main_v73 (F := Ideal) x0 x1 x2 x3 x4 x5 x6 x7 x8 x9 x10 (ValueIdx.ix2 r q) = Spec.pre (Spec.meanDiv (Spec.cur (val_main_v58 (F := Ideal) x0 x1 x2 x3 x4 x5 x6 x7)) (Spec.floorOne (Spec.cur1 (val_main_v62 (F := Ideal) x1)))) (Spec.cur (val_main_v45 (F := Ideal) x0 x1 x2 x3 x4 x5 x6 x7)) (Spec.cur x8) (Spec.cur1 x9) (Spec.cur x10) r q := by
  have e1 : ∀ k : Fin 64, lidx_main_v68 (ValueIdx.ix2 r q) k = ValueIdx.ix2 r k := fun k => funext fun a => Fin.ext (by match a with | ⟨0, _⟩ => rfl | ⟨1, _⟩ => rfl)
  have e2 : ∀ k : Fin 64, ridx_main_v68 (ValueIdx.ix2 r q) k = ValueIdx.ix2 k q := fun k => funext fun a => Fin.ext (by match a with | ⟨0, _⟩ => rfl | ⟨1, _⟩ => rfl)
  have e3 : idx_main_v69 (idx_main_v70 (ValueIdx.ix2 r q)) = ValueIdx.ix1 q := funext fun a => Fin.ext (by match a with | ⟨0, _⟩ => rfl)
  have e4 : ∀ k : Fin 64, lidx_main_v72 (ValueIdx.ix2 r q) k = ValueIdx.ix2 r k := fun k => funext fun a => Fin.ext (by match a with | ⟨0, _⟩ => rfl | ⟨1, _⟩ => rfl)
  have e5 : ∀ k : Fin 64, ridx_main_v72 (ValueIdx.ix2 r q) k = ValueIdx.ix2 k q := fun k => funext fun a => Fin.ext (by match a with | ⟨0, _⟩ => rfl | ⟨1, _⟩ => rfl)
  rw [val_main_v73_apply, val_main_v71_apply, val_main_v68_apply, val_main_v70_apply, val_main_v69_apply, val_main_v72_apply, e3]
  simp only [e1, e2, e4, e5, mean2_at, Ideal.addf_def]
  unfold Spec.pre Spec.lin
  rfl

/-- The sum of squares of a row of layer 2: the sum starts from the zero word, which is zero. -/
theorem sumsq2_at (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (r : Fin 100000) :
    val_main_v75 (F := Ideal) x0 x1 x2 x3 x4 x5 x6 x7 x8 x9 x10 (ValueIdx.ix1 r) = ∑ j : Fin 64, Spec.pre (Spec.meanDiv (Spec.cur (val_main_v58 (F := Ideal) x0 x1 x2 x3 x4 x5 x6 x7)) (Spec.floorOne (Spec.cur1 (val_main_v62 (F := Ideal) x1)))) (Spec.cur (val_main_v45 (F := Ideal) x0 x1 x2 x3 x4 x5 x6 x7)) (Spec.cur x8) (Spec.cur1 x9) (Spec.cur x10) r j * Spec.pre (Spec.meanDiv (Spec.cur (val_main_v58 (F := Ideal) x0 x1 x2 x3 x4 x5 x6 x7)) (Spec.floorOne (Spec.cur1 (val_main_v62 (F := Ideal) x1)))) (Spec.cur (val_main_v45 (F := Ideal) x0 x1 x2 x3 x4 x5 x6 x7)) (Spec.cur x8) (Spec.cur1 x9) (Spec.cur x10) r j := by
  have e : ∀ j : Fin 64, idx_main_v75 (ValueIdx.ix1 r) j = ValueIdx.ix2 r j := fun j => funext fun a => Fin.ext (by match a with | ⟨0, _⟩ => rfl | ⟨1, _⟩ => rfl)
  rw [val_main_v75_apply, val_main_cst_12_apply, Ideal.ofBits_def, Ideal.ofBits_zero_f32, zero_add]
  refine Finset.sum_congr rfl fun j _ => ?_
  rw [e, val_main_v74_apply, pre2_at]
  rfl

/-- Layer 2 normalised: every row divided by its Euclidean length floored at ε. -/
theorem sage2_at (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (r : Fin 100000) (q : Fin 64) :
    val_main_v81 (F := Ideal) x0 x1 x2 x3 x4 x5 x6 x7 x8 x9 x10 (ValueIdx.ix2 r q) = Spec.sage (Spec.meanDiv (Spec.cur (val_main_v58 (F := Ideal) x0 x1 x2 x3 x4 x5 x6 x7)) (Spec.floorOne (Spec.cur1 (val_main_v62 (F := Ideal) x1)))) (Spec.cur (val_main_v45 (F := Ideal) x0 x1 x2 x3 x4 x5 x6 x7)) (Spec.cur x8) (Spec.cur1 x9) (Spec.cur x10) r q := by
  have e : idx_main_v76 (idx_main_v80 (ValueIdx.ix2 r q)) = ValueIdx.ix1 r := funext fun a => Fin.ext (by match a with | ⟨0, _⟩ => rfl)
  rw [val_main_v81_apply, val_main_v80_apply, val_main_v79_apply, val_main_v77_apply, val_main_v76_apply, val_main_v78_apply, val_main_cst_13_apply, e, sumsq2_at, pre2_at]
  simp only [Ideal.hostDivf_def, Ideal.maximumf_def, Ideal.hostUnary_sqrt_def, Ideal.ofBits_def]
  unfold Spec.sage Spec.normalize Spec.len Spec.eps
  rfl

/-- Layer 2 clamped at zero, entry by entry. -/
theorem layer2_at (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (r : Fin 100000) (q : Fin 64) :
    val_main_v82 (F := Ideal) x0 x1 x2 x3 x4 x5 x6 x7 x8 x9 x10 (ValueIdx.ix2 r q) = Spec.sageRelu (Spec.meanDiv (Spec.cur (val_main_v58 (F := Ideal) x0 x1 x2 x3 x4 x5 x6 x7)) (Spec.floorOne (Spec.cur1 (val_main_v62 (F := Ideal) x1)))) (Spec.cur (val_main_v45 (F := Ideal) x0 x1 x2 x3 x4 x5 x6 x7)) (Spec.cur x8) (Spec.cur1 x9) (Spec.cur x10) r q := by
  rw [val_main_v82_apply, val_main_call2_v0_apply, val_main_call2_cst_apply, sage2_at]
  simp only [Ideal.maximumf_def, Ideal.ofBits_def, Ideal.ofBits_zero_f32]
  unfold Spec.sageRelu
  rfl

/-- Layer 2 as a function of its index. -/
theorem layer2 (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) :
    val_main_v82 (F := Ideal) x0 x1 x2 x3 x4 x5 x6 x7 x8 x9 x10 = fun i =>
      Spec.sageRelu (Spec.meanDiv (Spec.cur (val_main_v58 (F := Ideal) x0 x1 x2 x3 x4 x5 x6 x7)) (Spec.floorOne (Spec.cur1 (val_main_v62 (F := Ideal) x1)))) (Spec.cur (val_main_v45 (F := Ideal) x0 x1 x2 x3 x4 x5 x6 x7)) (Spec.cur x8) (Spec.cur1 x9) (Spec.cur x10) (i 0) (i 1) := by
  funext i
  obtain ⟨r, q, rfl⟩ : ∃ (r : Fin 100000) (q : Fin 64), i = ValueIdx.ix2 r q := ⟨i 0, i 1, ValueIdx.eq_ix2 i⟩
  exact layer2_at x0 x1 x2 x3 x4 x5 x6 x7 x8 x9 x10 r q

/-! ## Layer 3 -/

/-- The neighbourhood mean of layer 3: the row sums divided by the degree floored at one. -/
theorem mean3_at (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (r : Fin 100000) (k : Fin 64) :
    val_main_v104 (F := Ideal) x0 x1 x2 x3 x4 x5 x6 x7 x8 x9 x10 (ValueIdx.ix2 r k) = (Spec.meanDiv (Spec.cur (val_main_v95 (F := Ideal) x0 x1 x2 x3 x4 x5 x6 x7 x8 x9 x10)) (Spec.floorOne (Spec.cur1 (val_main_v99 (F := Ideal) x1)))) r k := by
  have e : idx_main_v102 (idx_main_v103 (ValueIdx.ix2 r k)) = ValueIdx.ix1 r := funext fun a => Fin.ext (by match a with | ⟨0, _⟩ => rfl)
  rw [val_main_v104_apply, val_main_v103_apply, val_main_v102_apply, val_main_v101_apply, val_main_v100_apply, val_main_cst_19_apply, e]
  simp only [Ideal.hostDivf_def, Ideal.maximumf_def, Ideal.ofBits_def]
  unfold Spec.meanDiv Spec.floorOne Spec.one
  rfl

/-- Layer 3 before its normalisation: the mean through the left weights, the bias, the features through the right weights. -/
theorem pre3_at (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (r : Fin 100000) (q : Fin 64) :
    val_main_v110 (F := Ideal) x0 x1 x2 x3 x4 x5 x6 x7 x8 x9 x10 x11 x12 x13 (ValueIdx.ix2 r q) = Spec.pre (Spec.meanDiv (Spec.cur (val_main_v95 (F := Ideal) x0 x1 x2 x3 x4 x5 x6 x7 x8 x9 x10)) (Spec.floorOne (Spec.cur1 (val_main_v99 (F := Ideal) x1)))) (Spec.cur (val_main_v82 (F := Ideal) x0 x1 x2 x3 x4 x5 x6 x7 x8 x9 x10)) (Spec.cur x11) (Spec.cur1 x12) (Spec.cur x13) r q := by
  have e1 : ∀ k : Fin 64, lidx_main_v105 (ValueIdx.ix2 r q) k = ValueIdx.ix2 r k := fun k => funext fun a => Fin.ext (by match a with | ⟨0, _⟩ => rfl | ⟨1, _⟩ => rfl)
  have e2 : ∀ k : Fin 64, ridx_main_v105 (ValueIdx.ix2 r q) k = ValueIdx.ix2 k q := fun k => funext fun a => Fin.ext (by match a with | ⟨0, _⟩ => rfl | ⟨1, _⟩ => rfl)
  have e3 : idx_main_v106 (idx_main_v107 (ValueIdx.ix2 r q)) = ValueIdx.ix1 q := funext fun a => Fin.ext (by match a with | ⟨0, _⟩ => rfl)
  have e4 : ∀ k : Fin 64, lidx_main_v109 (ValueIdx.ix2 r q) k = ValueIdx.ix2 r k := fun k => funext fun a => Fin.ext (by match a with | ⟨0, _⟩ => rfl | ⟨1, _⟩ => rfl)
  have e5 : ∀ k : Fin 64, ridx_main_v109 (ValueIdx.ix2 r q) k = ValueIdx.ix2 k q := fun k => funext fun a => Fin.ext (by match a with | ⟨0, _⟩ => rfl | ⟨1, _⟩ => rfl)
  rw [val_main_v110_apply, val_main_v108_apply, val_main_v105_apply, val_main_v107_apply, val_main_v106_apply, val_main_v109_apply, e3]
  simp only [e1, e2, e4, e5, mean3_at, Ideal.addf_def]
  unfold Spec.pre Spec.lin
  rfl

/-- The sum of squares of a row of layer 3: the sum starts from the zero word, which is zero. -/
theorem sumsq3_at (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (r : Fin 100000) :
    val_main_v112 (F := Ideal) x0 x1 x2 x3 x4 x5 x6 x7 x8 x9 x10 x11 x12 x13 (ValueIdx.ix1 r) = ∑ j : Fin 64, Spec.pre (Spec.meanDiv (Spec.cur (val_main_v95 (F := Ideal) x0 x1 x2 x3 x4 x5 x6 x7 x8 x9 x10)) (Spec.floorOne (Spec.cur1 (val_main_v99 (F := Ideal) x1)))) (Spec.cur (val_main_v82 (F := Ideal) x0 x1 x2 x3 x4 x5 x6 x7 x8 x9 x10)) (Spec.cur x11) (Spec.cur1 x12) (Spec.cur x13) r j * Spec.pre (Spec.meanDiv (Spec.cur (val_main_v95 (F := Ideal) x0 x1 x2 x3 x4 x5 x6 x7 x8 x9 x10)) (Spec.floorOne (Spec.cur1 (val_main_v99 (F := Ideal) x1)))) (Spec.cur (val_main_v82 (F := Ideal) x0 x1 x2 x3 x4 x5 x6 x7 x8 x9 x10)) (Spec.cur x11) (Spec.cur1 x12) (Spec.cur x13) r j := by
  have e : ∀ j : Fin 64, idx_main_v112 (ValueIdx.ix1 r) j = ValueIdx.ix2 r j := fun j => funext fun a => Fin.ext (by match a with | ⟨0, _⟩ => rfl | ⟨1, _⟩ => rfl)
  rw [val_main_v112_apply, val_main_cst_20_apply, Ideal.ofBits_def, Ideal.ofBits_zero_f32, zero_add]
  refine Finset.sum_congr rfl fun j _ => ?_
  rw [e, val_main_v111_apply, pre3_at]
  rfl

/-- Layer 3 normalised: every row divided by its Euclidean length floored at ε. -/
theorem sage3_at (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (r : Fin 100000) (q : Fin 64) :
    val_main_v118 (F := Ideal) x0 x1 x2 x3 x4 x5 x6 x7 x8 x9 x10 x11 x12 x13 (ValueIdx.ix2 r q) = Spec.sage (Spec.meanDiv (Spec.cur (val_main_v95 (F := Ideal) x0 x1 x2 x3 x4 x5 x6 x7 x8 x9 x10)) (Spec.floorOne (Spec.cur1 (val_main_v99 (F := Ideal) x1)))) (Spec.cur (val_main_v82 (F := Ideal) x0 x1 x2 x3 x4 x5 x6 x7 x8 x9 x10)) (Spec.cur x11) (Spec.cur1 x12) (Spec.cur x13) r q := by
  have e : idx_main_v113 (idx_main_v117 (ValueIdx.ix2 r q)) = ValueIdx.ix1 r := funext fun a => Fin.ext (by match a with | ⟨0, _⟩ => rfl)
  rw [val_main_v118_apply, val_main_v117_apply, val_main_v116_apply, val_main_v114_apply, val_main_v113_apply, val_main_v115_apply, val_main_cst_21_apply, e, sumsq3_at, pre3_at]
  simp only [Ideal.hostDivf_def, Ideal.maximumf_def, Ideal.hostUnary_sqrt_def, Ideal.ofBits_def]
  unfold Spec.sage Spec.normalize Spec.len Spec.eps
  rfl

/-- Layer 3 clamped at zero, entry by entry. -/
theorem layer3_at (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (r : Fin 100000) (q : Fin 64) :
    val_main_v119 (F := Ideal) x0 x1 x2 x3 x4 x5 x6 x7 x8 x9 x10 x11 x12 x13 (ValueIdx.ix2 r q) = Spec.sageRelu (Spec.meanDiv (Spec.cur (val_main_v95 (F := Ideal) x0 x1 x2 x3 x4 x5 x6 x7 x8 x9 x10)) (Spec.floorOne (Spec.cur1 (val_main_v99 (F := Ideal) x1)))) (Spec.cur (val_main_v82 (F := Ideal) x0 x1 x2 x3 x4 x5 x6 x7 x8 x9 x10)) (Spec.cur x11) (Spec.cur1 x12) (Spec.cur x13) r q := by
  rw [val_main_v119_apply, val_main_call3_v0_apply, val_main_call3_cst_apply, sage3_at]
  simp only [Ideal.maximumf_def, Ideal.ofBits_def, Ideal.ofBits_zero_f32]
  unfold Spec.sageRelu
  rfl

/-- Layer 3 as a function of its index. -/
theorem layer3 (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) :
    val_main_v119 (F := Ideal) x0 x1 x2 x3 x4 x5 x6 x7 x8 x9 x10 x11 x12 x13 = fun i =>
      Spec.sageRelu (Spec.meanDiv (Spec.cur (val_main_v95 (F := Ideal) x0 x1 x2 x3 x4 x5 x6 x7 x8 x9 x10)) (Spec.floorOne (Spec.cur1 (val_main_v99 (F := Ideal) x1)))) (Spec.cur (val_main_v82 (F := Ideal) x0 x1 x2 x3 x4 x5 x6 x7 x8 x9 x10)) (Spec.cur x11) (Spec.cur1 x12) (Spec.cur x13) (i 0) (i 1) := by
  funext i
  obtain ⟨r, q, rfl⟩ : ∃ (r : Fin 100000) (q : Fin 64), i = ValueIdx.ix2 r q := ⟨i 0, i 1, ValueIdx.eq_ix2 i⟩
  exact layer3_at x0 x1 x2 x3 x4 x5 x6 x7 x8 x9 x10 x11 x12 x13 r q

/-! ## Layer 4 -/

/-- The neighbourhood mean of layer 4: the row sums divided by the degree floored at one. -/
theorem mean4_at (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (r : Fin 100000) (k : Fin 64) :
    val_main_v138 (F := Ideal) x0 x1 x2 x3 x4 x5 x6 x7 x8 x9 x10 x11 x12 x13 (ValueIdx.ix2 r k) = (Spec.meanDiv (Spec.cur (val_main_v129 (F := Ideal) x0 x1 x2 x3 x4 x5 x6 x7 x8 x9 x10 x11 x12 x13)) (Spec.floorOne (Spec.cur1 (val_main_v133 (F := Ideal) x1)))) r k := by
  have e : idx_main_v136 (idx_main_v137 (ValueIdx.ix2 r k)) = ValueIdx.ix1 r := funext fun a => Fin.ext (by match a with | ⟨0, _⟩ => rfl)
  rw [val_main_v138_apply, val_main_v137_apply, val_main_v136_apply, val_main_v135_apply, val_main_v134_apply, val_main_cst_27_apply, e]
  simp only [Ideal.hostDivf_def, Ideal.maximumf_def, Ideal.ofBits_def]
  unfold Spec.meanDiv Spec.floorOne Spec.one
  rfl

/-- Layer 4 before its normalisation: the mean through the left weights, the bias, the features through the right weights. -/
theorem pre4_at (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64x18, .f32⟩ : BufTy).Contents (Elt Ideal)) (x15 : (⟨S18, .f32⟩ : BufTy).Contents (Elt Ideal)) (x16 : (⟨S64x18, .f32⟩ : BufTy).Contents (Elt Ideal)) (r : Fin 100000) (q : Fin 18) :
    val_main_v144 (F := Ideal) x0 x1 x2 x3 x4 x5 x6 x7 x8 x9 x10 x11 x12 x13 x14 x15 x16 (ValueIdx.ix2 r q) = Spec.pre (Spec.meanDiv (Spec.cur (val_main_v129 (F := Ideal) x0 x1 x2 x3 x4 x5 x6 x7 x8 x9 x10 x11 x12 x13)) (Spec.floorOne (Spec.cur1 (val_main_v133 (F := Ideal) x1)))) (Spec.cur (val_main_v119 (F := Ideal) x0 x1 x2 x3 x4 x5 x6 x7 x8 x9 x10 x11 x12 x13)) (Spec.cur x14) (Spec.cur1 x15) (Spec.cur x16) r q := by
  have e1 : ∀ k : Fin 64, lidx_main_v139 (ValueIdx.ix2 r q) k = ValueIdx.ix2 r k := fun k => funext fun a => Fin.ext (by match a with | ⟨0, _⟩ => rfl | ⟨1, _⟩ => rfl)
  have e2 : ∀ k : Fin 64, ridx_main_v139 (ValueIdx.ix2 r q) k = ValueIdx.ix2 k q := fun k => funext fun a => Fin.ext (by match a with | ⟨0, _⟩ => rfl | ⟨1, _⟩ => rfl)
  have e3 : idx_main_v140 (idx_main_v141 (ValueIdx.ix2 r q)) = ValueIdx.ix1 q := funext fun a => Fin.ext (by match a with | ⟨0, _⟩ => rfl)
  have e4 : ∀ k : Fin 64, lidx_main_v143 (ValueIdx.ix2 r q) k = ValueIdx.ix2 r k := fun k => funext fun a => Fin.ext (by match a with | ⟨0, _⟩ => rfl | ⟨1, _⟩ => rfl)
  have e5 : ∀ k : Fin 64, ridx_main_v143 (ValueIdx.ix2 r q) k = ValueIdx.ix2 k q := fun k => funext fun a => Fin.ext (by match a with | ⟨0, _⟩ => rfl | ⟨1, _⟩ => rfl)
  rw [val_main_v144_apply, val_main_v142_apply, val_main_v139_apply, val_main_v141_apply, val_main_v140_apply, val_main_v143_apply, e3]
  simp only [e1, e2, e4, e5, mean4_at, Ideal.addf_def]
  unfold Spec.pre Spec.lin
  rfl

/-- The sum of squares of a row of layer 4: the sum starts from the zero word, which is zero. -/
theorem sumsq4_at (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64x18, .f32⟩ : BufTy).Contents (Elt Ideal)) (x15 : (⟨S18, .f32⟩ : BufTy).Contents (Elt Ideal)) (x16 : (⟨S64x18, .f32⟩ : BufTy).Contents (Elt Ideal)) (r : Fin 100000) :
    val_main_v146 (F := Ideal) x0 x1 x2 x3 x4 x5 x6 x7 x8 x9 x10 x11 x12 x13 x14 x15 x16 (ValueIdx.ix1 r) = ∑ j : Fin 18, Spec.pre (Spec.meanDiv (Spec.cur (val_main_v129 (F := Ideal) x0 x1 x2 x3 x4 x5 x6 x7 x8 x9 x10 x11 x12 x13)) (Spec.floorOne (Spec.cur1 (val_main_v133 (F := Ideal) x1)))) (Spec.cur (val_main_v119 (F := Ideal) x0 x1 x2 x3 x4 x5 x6 x7 x8 x9 x10 x11 x12 x13)) (Spec.cur x14) (Spec.cur1 x15) (Spec.cur x16) r j * Spec.pre (Spec.meanDiv (Spec.cur (val_main_v129 (F := Ideal) x0 x1 x2 x3 x4 x5 x6 x7 x8 x9 x10 x11 x12 x13)) (Spec.floorOne (Spec.cur1 (val_main_v133 (F := Ideal) x1)))) (Spec.cur (val_main_v119 (F := Ideal) x0 x1 x2 x3 x4 x5 x6 x7 x8 x9 x10 x11 x12 x13)) (Spec.cur x14) (Spec.cur1 x15) (Spec.cur x16) r j := by
  have e : ∀ j : Fin 18, idx_main_v146 (ValueIdx.ix1 r) j = ValueIdx.ix2 r j := fun j => funext fun a => Fin.ext (by match a with | ⟨0, _⟩ => rfl | ⟨1, _⟩ => rfl)
  rw [val_main_v146_apply, val_main_cst_28_apply, Ideal.ofBits_def, Ideal.ofBits_zero_f32, zero_add]
  refine Finset.sum_congr rfl fun j _ => ?_
  rw [e, val_main_v145_apply, pre4_at]
  rfl

/-- Layer 4 normalised: every row divided by its Euclidean length floored at ε. -/
theorem sage4_at (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64x18, .f32⟩ : BufTy).Contents (Elt Ideal)) (x15 : (⟨S18, .f32⟩ : BufTy).Contents (Elt Ideal)) (x16 : (⟨S64x18, .f32⟩ : BufTy).Contents (Elt Ideal)) (r : Fin 100000) (q : Fin 18) :
    val_main_v152 (F := Ideal) x0 x1 x2 x3 x4 x5 x6 x7 x8 x9 x10 x11 x12 x13 x14 x15 x16 (ValueIdx.ix2 r q) = Spec.sage (Spec.meanDiv (Spec.cur (val_main_v129 (F := Ideal) x0 x1 x2 x3 x4 x5 x6 x7 x8 x9 x10 x11 x12 x13)) (Spec.floorOne (Spec.cur1 (val_main_v133 (F := Ideal) x1)))) (Spec.cur (val_main_v119 (F := Ideal) x0 x1 x2 x3 x4 x5 x6 x7 x8 x9 x10 x11 x12 x13)) (Spec.cur x14) (Spec.cur1 x15) (Spec.cur x16) r q := by
  have e : idx_main_v147 (idx_main_v151 (ValueIdx.ix2 r q)) = ValueIdx.ix1 r := funext fun a => Fin.ext (by match a with | ⟨0, _⟩ => rfl)
  rw [val_main_v152_apply, val_main_v151_apply, val_main_v150_apply, val_main_v148_apply, val_main_v147_apply, val_main_v149_apply, val_main_cst_29_apply, e, sumsq4_at, pre4_at]
  simp only [Ideal.hostDivf_def, Ideal.maximumf_def, Ideal.hostUnary_sqrt_def, Ideal.ofBits_def]
  unfold Spec.sage Spec.normalize Spec.len Spec.eps
  rfl

/-- The last layer as a function of its index: no clamp. -/
theorem layer4 (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64x18, .f32⟩ : BufTy).Contents (Elt Ideal)) (x15 : (⟨S18, .f32⟩ : BufTy).Contents (Elt Ideal)) (x16 : (⟨S64x18, .f32⟩ : BufTy).Contents (Elt Ideal)) :
    val_main_v152 (F := Ideal) x0 x1 x2 x3 x4 x5 x6 x7 x8 x9 x10 x11 x12 x13 x14 x15 x16 = fun i =>
      Spec.sage (Spec.meanDiv (Spec.cur (val_main_v129 (F := Ideal) x0 x1 x2 x3 x4 x5 x6 x7 x8 x9 x10 x11 x12 x13)) (Spec.floorOne (Spec.cur1 (val_main_v133 (F := Ideal) x1)))) (Spec.cur (val_main_v119 (F := Ideal) x0 x1 x2 x3 x4 x5 x6 x7 x8 x9 x10 x11 x12 x13)) (Spec.cur x14) (Spec.cur1 x15) (Spec.cur x16) (i 0) (i 1) := by
  funext i
  obtain ⟨r, q, rfl⟩ : ∃ (r : Fin 100000) (q : Fin 18), i = ValueIdx.ix2 r q := ⟨i 0, i 1, ValueIdx.eq_ix2 i⟩
  exact sage4_at x0 x1 x2 x3 x4 x5 x6 x7 x8 x9 x10 x11 x12 x13 x14 x15 x16 r q

end Cert.ReferenceIdeal.RefValue

end
-- ==== Proof.RefOut.lean ====
/-
  The reference program's result as the network of the shared host operations.

  The reference computes, four times over, the edges' ends, the number of edges ending at each node, the
  sources as gather indices, and the sums by destination of the gathered rows. Each of those stages is,
  operation for operation and literal for literal, the function of the same name that the kernel's
  program applies (the two programs print the same shapes, dimension numbers and constants), so each
  equation below holds by unfolding. With them, the reference's layers — each a clamped, normalised
  layer of the row sums divided by the floored degree — compose to the network `Net.out` of the
  seventeen argument arrays.
-/
import proofs.«101096_j17824114278988_1_alg».proof.Proof.RefReadP
import proofs.«101096_j17824114278988_1_alg».proof.Proof.Net
import proofs.«101096_j17824114278988_1_alg».proof.Proof.RefLayers

noncomputable section

namespace Cert.ReferenceIdeal.RefOut

open Cert.ReferenceIdeal Cert.ReferenceIdeal.Gen Cert.ReferenceIdeal.ReadP Idealize.ShloMosaic

/-! ## The shared host operations

Both programs slice the edge array, count the incoming edges, turn the sources into gather indices and add rows up
by destination with the same operations on the same literal shapes and dimension numbers; each stage of the reference
unfolds to the corresponding shared function. -/

/-- The edges' sources. -/
theorem src_eq (x1 : (⟨S2x3200000, .i32⟩ : BufTy).Contents (Elt Ideal)) : val_main_v1 (F := Ideal) x1 = Net.src x1 := rfl

/-- The edges' destinations. -/
theorem dst_eq (x1 : (⟨S2x3200000, .i32⟩ : BufTy).Contents (Elt Ideal)) : val_main_v3 (F := Ideal) x1 = Net.dst x1 := rfl

/-- The number of incoming edges, as each of the four layers recomputes it. -/
theorem deg1_eq (x1 : (⟨S2x3200000, .i32⟩ : BufTy).Contents (Elt Ideal)) : val_main_v25 (F := Ideal) x1 = Net.deg x1 := rfl
theorem deg2_eq (x1 : (⟨S2x3200000, .i32⟩ : BufTy).Contents (Elt Ideal)) : val_main_v62 (F := Ideal) x1 = Net.deg x1 := rfl
theorem deg3_eq (x1 : (⟨S2x3200000, .i32⟩ : BufTy).Contents (Elt Ideal)) : val_main_v99 (F := Ideal) x1 = Net.deg x1 := rfl
theorem deg4_eq (x1 : (⟨S2x3200000, .i32⟩ : BufTy).Contents (Elt Ideal)) : val_main_v133 (F := Ideal) x1 = Net.deg x1 := rfl

/-- The sources as gather indices, as each of the four layers recomputes them. -/
theorem srcIdx1_eq (x1 : (⟨S2x3200000, .i32⟩ : BufTy).Contents (Elt Ideal)) : val_main_v14 (F := Ideal) x1 = Net.srcIdx x1 := rfl
theorem srcIdx2_eq (x1 : (⟨S2x3200000, .i32⟩ : BufTy).Contents (Elt Ideal)) : val_main_v51 (F := Ideal) x1 = Net.srcIdx x1 := rfl
theorem srcIdx3_eq (x1 : (⟨S2x3200000, .i32⟩ : BufTy).Contents (Elt Ideal)) : val_main_v88 (F := Ideal) x1 = Net.srcIdx x1 := rfl
theorem srcIdx4_eq (x1 : (⟨S2x3200000, .i32⟩ : BufTy).Contents (Elt Ideal)) : val_main_v125 (F := Ideal) x1 = Net.srcIdx x1 := rfl

/-- The weighted row sums of the embedding, by destination. -/
theorem agg1_eq (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) :
    val_main_v21 (F := Ideal) x0 x1 x2 x3 x4 = Net.aggW (val_main_v8 (F := Ideal) x0 x3 x4) x1 x2 := rfl

/-- The weighted row sums of the first layer's features. -/
theorem agg2_eq (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v58 (F := Ideal) x0 x1 x2 x3 x4 x5 x6 x7 = Net.aggW (val_main_v45 (F := Ideal) x0 x1 x2 x3 x4 x5 x6 x7) x1 x2 := rfl

/-- The weighted row sums of the second layer's features. -/
theorem agg3_eq (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) :
    val_main_v95 (F := Ideal) x0 x1 x2 x3 x4 x5 x6 x7 x8 x9 x10 = Net.aggW (val_main_v82 (F := Ideal) x0 x1 x2 x3 x4 x5 x6 x7 x8 x9 x10) x1 x2 := rfl

/-- The unweighted row sums of the third layer's features. -/
theorem agg4_eq (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) :
    val_main_v129 (F := Ideal) x0 x1 x2 x3 x4 x5 x6 x7 x8 x9 x10 x11 x12 x13 = Net.aggU (val_main_v119 (F := Ideal) x0 x1 x2 x3 x4 x5 x6 x7 x8 x9 x10 x11 x12 x13) x1 := rfl

/-! ## The layers, composed -/

/-- The embedding is the network's first stage. -/
theorem g0_eq (x0 : (⟨S100000x100, .f32⟩ : BufTy).Contents (Elt Ideal)) (x3 : (⟨S100x64, .f32⟩ : BufTy).Contents (Elt Ideal)) (x4 : (⟨S64, .f32⟩ : BufTy).Contents (Elt Ideal)) : val_main_v8 (F := Ideal) x0 x3 x4 = Net.g0 x0 x3 x4 :=
  (RefValue.embed x0 x3 x4).trans rfl

/-- After the first layer. -/
theorem g1_eq (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) : val_main_v45 (F := Ideal) x0 x1 x2 x3 x4 x5 x6 x7 = Net.g1 x0 x1 x2 x3 x4 x5 x6 x7 := by
  rw [RefValue.layer1, agg1_eq, deg1_eq, g0_eq]; rfl

/-- After the second layer. -/
theorem g2_eq (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) : val_main_v82 (F := Ideal) x0 x1 x2 x3 x4 x5 x6 x7 x8 x9 x10 = Net.g2 x0 x1 x2 x3 x4 x5 x6 x7 x8 x9 x10 := by
  rw [RefValue.layer2, agg2_eq, deg2_eq, g1_eq]; rfl

/-- After the third layer. -/
theorem g3_eq (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) : val_main_v119 (F := Ideal) x0 x1 x2 x3 x4 x5 x6 x7 x8 x9 x10 x11 x12 x13 = Net.g3 x0 x1 x2 x3 x4 x5 x6 x7 x8 x9 x10 x11 x12 x13 := by
  rw [RefValue.layer3, agg3_eq, deg3_eq, g2_eq]; rfl

/-- THE REFERENCE'S RESULT is the network of the shared host operations: the last layer, unclamped, over the third
    layer's features and their unweighted row sums. -/
theorem ref_out (x0 : (⟨S100000x100, .f32⟩ : BufTy).Contents (Elt Ideal)) (x1 : (⟨S2x3200000, .i32⟩ : BufTy).Contents (Elt Ideal)) (x2 : (⟨S3200000, .f32⟩ : BufTy).Contents (Elt Ideal)) (x3 : (⟨S100x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64x18, .f32⟩ : BufTy).Contents (Elt Ideal)) (x15 : (⟨S18, .f32⟩ : BufTy).Contents (Elt Ideal)) (x16 : (⟨S64x18, .f32⟩ : BufTy).Contents (Elt Ideal)) : val_main_v152 (F := Ideal) x0 x1 x2 x3 x4 x5 x6 x7 x8 x9 x10 x11 x12 x13 x14 x15 x16 = Net.out x0 x1 x2 x3 x4 x5 x6 x7 x8 x9 x10 x11 x12 x13 x14 x15 x16 := by
  rw [RefValue.layer4, agg4_eq, deg4_eq, g3_eq]; rfl

end Cert.ReferenceIdeal.RefOut

end
-- ==== Proof.lean ====
/-
  A four-layer graph network — an embedding, then four rounds of "average the neighbours' features,
  mix them with the node's own through two linear maps, scale each node's row to unit length" — as five
  tiled kernels among the host's gathers and scatter-adds, against the same network written with plain
  array operations.

  At the ideal instance (floats are extended reals, operations exact, format changes the identity) the
  two programs apply the same host operations to the same arrays, and each kernel region computes, row
  block by row block, the layer the reference computes with whole-array operations: the matrix unit's
  product into a zero accumulator is the host's contraction, the lane sum of squares the host's row
  sum. They differ in one place: the kernels multiply the neighbours' row sums by the reciprocal of the
  degree (floored at one), computed once on the host, where the reference divides by that floored
  degree in every layer. A quotient by a nonzero extended real is the product with the quotient of one
  by it, and a number floored at one is not zero, so the results are equal — for every input, finite or
  not: the precondition is not used.

  The modules: Spec (the layers as functions of coordinates, and that one law); Net (the shared host
  operations and the network of the argument arrays); Region0 … Region4 (each region's result array as
  its layer of the arrays the region finds); Stretch and Chain (the arrays each region finds, read
  back through the segments of @main to the launch arguments); RunResult (the kernel's run with its
  result named); RefLayers and RefOut (the reference's operations as the same network); and here the
  five claims.
-/
import proofs.«101096_j17824114278988_1_alg».proof.Defs
import proofs.«101096_j17824114278988_1_alg».proof.Proof.Gen.Kernel
import proofs.«101096_j17824114278988_1_alg».proof.Proof.Gen.Kernel.Frame
import proofs.«101096_j17824114278988_1_alg».proof.Proof.Gen.KernelIdeal
import proofs.«101096_j17824114278988_1_alg».proof.Proof.Gen.KernelIdeal.Frame
import proofs.«101096_j17824114278988_1_alg».proof.Proof.Gen.ReferenceIdeal
import proofs.«101096_j17824114278988_1_alg».proof.Proof.Gen.Pre_finite_inputs
import proofs.«101096_j17824114278988_1_alg».proof.Proof.RunResult
import proofs.«101096_j17824114278988_1_alg».proof.Proof.Chain
import proofs.«101096_j17824114278988_1_alg».proof.Proof.RefRunQ
import proofs.«101096_j17824114278988_1_alg».proof.Proof.RefOut
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both idealized programs end at the network of the (agreeing) argument arrays. -/
theorem algebraic : Cert.algebraic_KernelIdeal_ReferenceIdeal := by
  intro m ρ m' ρ' _ hagree
  refine ⟨fun c => Cert.Net.out (Cert.KernelIdeal.Chain.A0 m c) (Cert.KernelIdeal.Chain.A1 m c) (Cert.KernelIdeal.Chain.A2 m c) (Cert.KernelIdeal.Chain.A3 m c) (Cert.KernelIdeal.Chain.A4 m c) (Cert.KernelIdeal.Chain.A5 m c) (Cert.KernelIdeal.Chain.A6 m c) (Cert.KernelIdeal.Chain.A7 m c) (Cert.KernelIdeal.Chain.A8 m c) (Cert.KernelIdeal.Chain.A9 m c) (Cert.KernelIdeal.Chain.A10 m c) (Cert.KernelIdeal.Chain.A11 m c) (Cert.KernelIdeal.Chain.A12 m c) (Cert.KernelIdeal.Chain.A13 m c) (Cert.KernelIdeal.Chain.A14 m c) (Cert.KernelIdeal.Chain.A15 m c) (Cert.KernelIdeal.Chain.A16 m c), ?_, ?_⟩
  · exact (θ_run Cert.KernelIdeal.defs _ _).mono
      (fun r h c => ⟨(h c).1.trans (Cert.KernelIdeal.Chain.result m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12, e13, e14, e15, e16⟩ := hagree c
    unfold Cert.ReferenceIdeal.ValueP.res_main_v152
    rw [e0, e1, e2, e3, e4, e5, e6, e7, e8, e9, e10, e11, e12, e13, e14, e15, e16]
    exact Cert.ReferenceIdeal.RefOut.ref_out _ _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
